-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x4096 : Shape := ⟨2, ![2, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S256x256 .f32) (main_arg11 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S4096x256 .f32) (main_arg1 : IVec S2x4096 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S4096x256 : Shape := ⟨2, ![4096, 256]⟩
abbrev S2x4096 : Shape := ⟨2, ![2, 4096]⟩
abbrev S256x256 : Shape := ⟨2, ![256, 256]⟩
abbrev S256 : Shape := ⟨1, ![256]⟩
abbrev S1x4096 : Shape := ⟨2, ![1, 4096]⟩
abbrev S4096 : Shape := ⟨1, ![4096]⟩
abbrev S256x768 : Shape := ⟨2, ![256, 768]⟩
abbrev S768 : Shape := ⟨1, ![768]⟩
abbrev S1x768 : Shape := ⟨2, ![1, 768]⟩
abbrev S4096x768 : Shape := ⟨2, ![4096, 768]⟩
abbrev S1024x256 : Shape := ⟨2, ![1024, 256]⟩
abbrev S1024x768 : Shape := ⟨2, ![1024, 768]⟩
abbrev S4096x8x32 : Shape := ⟨3, ![4096, 8, 32]⟩
abbrev S8x4096x32 : Shape := ⟨3, ![8, 4096, 32]⟩
abbrev S4096x1 : Shape := ⟨2, ![4096, 1]⟩
abbrev S1x1024x32 : Shape := ⟨3, ![1, 1024, 32]⟩
abbrev S1024x1 : Shape := ⟨2, ![1024, 1]⟩
abbrev S1x1024 : Shape := ⟨2, ![1, 1024]⟩
abbrev S1024x32 : Shape := ⟨2, ![1024, 32]⟩
abbrev S1024x1024 : Shape := ⟨2, ![1024, 1024]⟩
abbrev S1x256 : Shape := ⟨2, ![1, 256]⟩
abbrev S_ : Shape := ⟨0, ![]⟩
abbrev S128x256 : Shape := ⟨2, ![128, 256]⟩

abbrev nBuf : Space → Nat
  | .hbm => 57
  | .vmem => 29
  | .smem => 0
  | _ => 0

abbrev bufTy : (tb : Table) → Fin (tcTables nBuf tb) → BufTy
  | .hbm, ⟨0, _⟩ => ⟨S4096x256, .f32⟩
  | .hbm, ⟨1, _⟩ => ⟨S2x4096, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1x4096, .i32⟩
  | .hbm, ⟨13, _⟩ => ⟨S4096, .i32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x768, .f32⟩
  | .hbm, ⟨18, _⟩ => ⟨S768, .f32⟩
  | .hbm, ⟨19, _⟩ => ⟨S1x768, .f32⟩
  | .hbm, ⟨20, _⟩ => ⟨S4096x768, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x8x32, .f32⟩
  | .hbm, ⟨25, _⟩ => ⟨S8x4096x32, .f32⟩
  | .hbm, ⟨26, _⟩ => ⟨S8x4096x32, .bf16⟩
  | .hbm, ⟨27, _⟩ => ⟨S4096x8x32, .f32⟩
  | .hbm, ⟨28, _⟩ => ⟨S8x4096x32, .f32⟩
  | .hbm, ⟨29, _⟩ => ⟨S8x4096x32, .bf16⟩
  | .hbm, ⟨30, _⟩ => ⟨S4096x8x32, .f32⟩
  | .hbm, ⟨31, _⟩ => ⟨S8x4096x32, .f32⟩
  | .hbm, ⟨32, _⟩ => ⟨S8x4096x32, .bf16⟩
  | .hbm, ⟨33, _⟩ => ⟨S4096x1, .i32⟩
  | .hbm, ⟨34, _⟩ => ⟨S1x4096, .i32⟩
  | .hbm, ⟨35, _⟩ => ⟨S8x4096x32, .f32⟩
  | .hbm, ⟨36, _⟩ => ⟨S4096x8x32, .f32⟩
  | .hbm, ⟨37, _⟩ => ⟨S4096x256, .f32⟩
  | .hbm, ⟨38, _⟩ => ⟨S256x256, .f32⟩
  | .hbm, ⟨39, _⟩ => ⟨S1x256, .f32⟩
  | .hbm, ⟨40, _⟩ => ⟨S4096x256, .f32⟩
  | .hbm, ⟨41, _⟩ => ⟨S_, .f32⟩
  | .hbm, ⟨42, _⟩ => ⟨S128x256, .f32⟩
  | .hbm, ⟨43, _⟩ => ⟨S4096x1, .i32⟩
  | .hbm, ⟨44, _⟩ => ⟨S128x256, .f32⟩
  | .hbm, ⟨45, _⟩ => ⟨S256x256, .f32⟩
  | .hbm, ⟨46, _⟩ => ⟨S1x256, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S_, .f32⟩
  | .hbm, ⟨51, _⟩ => ⟨S128x256, .f32⟩
  | .hbm, ⟨52, _⟩ => ⟨S128x256, .f32⟩
  | .hbm, ⟨53, _⟩ => ⟨S_, .f32⟩
  | .hbm, ⟨54, _⟩ => ⟨S128x256, .f32⟩
  | .hbm, ⟨55, _⟩ => ⟨S128x256, .f32⟩
  | .hbm, ⟨56, _⟩ => ⟨S128x256, .f32⟩
  | .local _ .vmem, ⟨0, _⟩ => ⟨S1024x256, .f32⟩
  | .local _ .vmem, ⟨1, _⟩ => ⟨S1024x256, .f32⟩
  | .local _ .vmem, ⟨2, _⟩ => ⟨S256x768, .f32⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | .local _ .vmem, ⟨6, _⟩ => ⟨S1x1024x32, .bf16⟩
  | .local _ .vmem, ⟨7, _⟩ => ⟨S1x1024x32, .bf16⟩
  | .local _ .vmem, ⟨8, _⟩ => ⟨S1x1024x32, .bf16⟩
  | .local _ .vmem, ⟨9, _⟩ => ⟨S1x1024x32, .bf16⟩
  | .local _ .vmem, ⟨10, _⟩ => ⟨S1x1024x32, .bf16⟩
  | .local _ .vmem, ⟨11, _⟩ => ⟨S1x1024x32, .bf16⟩
  | .local _ .vmem, ⟨12, _⟩ => ⟨S1024x1, .i32⟩
  | .local _ .vmem, ⟨13, _⟩ => ⟨S1024x1, .i32⟩
  | .local _ .vmem, ⟨14, _⟩ => ⟨S1x1024, .i32⟩
  | .local _ .vmem, ⟨15, _⟩ => ⟨S1x1024, .i32⟩
  | .local _ .vmem, ⟨16, _⟩ => ⟨S1x1024x32, .f32⟩
  | .local _ .vmem, ⟨17, _⟩ => ⟨S1x1024x32, .f32⟩
  | .local _ .vmem, ⟨18, _⟩ => ⟨S1024x32, .f32⟩
  | .local _ .vmem, ⟨19, _⟩ => ⟨S1024x256, .f32⟩
  | .local _ .vmem, ⟨20, _⟩ => ⟨S1024x256, .f32⟩
  | .local _ .vmem, ⟨21, _⟩ => ⟨S256x256, .f32⟩
  | .local _ .vmem, ⟨22, _⟩ => ⟨S1x256, .f32⟩
  | .local _ .vmem, ⟨23, _⟩ => ⟨S1024x256, .f32⟩
  | .local _ .vmem, ⟨24, _⟩ => ⟨S1024x256, .f32⟩
  | .local _ .vmem, ⟨25, _⟩ => ⟨S128x256, .f32⟩
  | .local _ .vmem, ⟨26, _⟩ => ⟨S256x256, .f32⟩
  | .local _ .vmem, ⟨27, _⟩ => ⟨S1x256, .f32⟩
  | .local _ .vmem, ⟨28, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_19 : BitVec 32 := 0#32
  let v30 : BitVec 1 := Scalar.cmpi .ne v29 c0_i32_19
  v30

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 2 → Memref sig .tc .vmem S1x1024x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S128x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x4096_S1x4096_1_0 : S2x4096.Slices ![1, 0] S1x4096
  shapeCasts_S1x4096_S4096 : S1x4096.ShapeCasts S4096
  transposes_S256x256_S256x256_1_0 : S256x256.Transposes [1, 0] S256x256
  concatenates_S256x256_S256x256_S256x256_S256x768_d1 : Shape.Concatenates [S256x256, S256x256, S256x256] S256x768 1
  concatenates_S256_S256_S256_S768_d0 : Shape.Concatenates [S256, S256, S256] S768 0
  shapeCasts_S768_S1x768 : S768.ShapeCasts S1x768
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  shapeCasts_S4096x256_S4096x8x32 : S4096x256.ShapeCasts S4096x8x32
  transposes_S4096x8x32_S8x4096x32_1_0_2 : S4096x8x32.Transposes [1, 0, 2] S8x4096x32
  shapeCasts_S4096_S4096x1 : S4096.ShapeCasts S4096x1
  shapeCasts_S4096_S1x4096 : S4096.ShapeCasts S1x4096
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S1024x32_S1x1024x32 : S1024x32.ShapeCasts S1x1024x32
  transposes_S8x4096x32_S4096x8x32_1_0_2 : S8x4096x32.Transposes [1, 0, 2] S4096x8x32
  shapeCasts_S4096x8x32_S4096x256 : S4096x8x32.ShapeCasts S4096x256
  shapeCasts_S256_S1x256 : S256.ShapeCasts S1x256
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bcast_S_S128x256 : S_.BroadcastsInDim S128x256 (![] : Fin 0 → Fin S128x256.rank)
  bcast_S4096_S4096x1_0 : S4096.BroadcastsInDim S4096x1 (![0] : Fin 1 → Fin S4096x1.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S128x256 : S1x256.Broadcasts S128x256
  dot_S1024x256_S256x768_S1024x768_1_0_0_1_n_n_wf : DotDims.WF S1024x256 S256x768 S1024x768 [1] [0] [0] [1] [] []
  dot_S1024x32_S1024x32_S1024x1024_1_1_0_0_n_n_wf : DotDims.WF S1024x32 S1024x32 S1024x1024 [1] [1] [0] [0] [] []
  dot_S1024x1024_S1024x32_S1024x32_1_0_0_1_n_n_wf : DotDims.WF S1024x1024 S1024x32 S1024x32 [1] [0] [0] [1] [] []
  dot_S1024x256_S256x256_S1024x256_1_0_0_1_n_n_wf : DotDims.WF S1024x256 S256x256 S1024x256 [1] [0] [0] [1] [] []
  scatter_S128x256_S4096x1_S4096x256_1_0_0_1_wf : ScatterDims.WF S128x256 S4096x1 S4096x256 [1] [0] [0] 1
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S4096x768.size a
  hwx0_3 : ∀ i : grid0.Coords, EltTy.bits .f32 = 32 ∨ (Rect.block (s := S4096x768) S1024x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x32.size a ≤ S8x4096x32.size a
  hwx1_0 : ∀ i : grid1.Coords, EltTy.bits .bf16 = 32 ∨ (Rect.block (s := S8x4096x32) S1x1024x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x32.size a ≤ S8x4096x32.size a
  hwx1_1 : ∀ i : grid1.Coords, EltTy.bits .bf16 = 32 ∨ (Rect.block (s := S8x4096x32) S1x1024x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x32.size a ≤ S8x4096x32.size a
  hwx1_2 : ∀ i : grid1.Coords, EltTy.bits .bf16 = 32 ∨ (Rect.block (s := S8x4096x32) S1x1024x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .i32 = 32 ∨ (Rect.block (s := S4096x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .i32 = 32 ∨ (Rect.block (s := S1x4096) S1x1024.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x32.size a ≤ S8x4096x32.size a
  hwx1_5 : ∀ i : grid1.Coords, EltTy.bits .f32 = 32 ∨ (Rect.block (s := S8x4096x32) S1x1024x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x256.size a
  hwx2_3 : ∀ i : grid2.Coords, EltTy.bits .f32 = 32 ∨ (Rect.block (s := S4096x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S128x256.size a ≤ S128x256.size a
  hwx3_0 : ∀ i : grid3.Coords, EltTy.bits .f32 = 32 ∨ (Rect.block (s := S128x256) S128x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def scatter_S128x256_S4096x1_S4096x256_1_0_0_1 : ScatterDims S128x256 S4096x1 S4096x256 where
  updateWindowDims := [1]
  insertedWindowDims := [0]
  scatterDimsToOperandDims := [0]
  indexVectorDim := 1
  wf := scatter_S128x256_S4096x1_S4096x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x1024x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x1024x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v25) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S128x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v32) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128x256.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x256 : Shape := ⟨2, ![4096, 256]⟩
abbrev S2x4096 : Shape := ⟨2, ![2, 4096]⟩
abbrev S256x256 : Shape := ⟨2, ![256, 256]⟩
abbrev S256 : Shape := ⟨1, ![256]⟩
abbrev S1x256 : Shape := ⟨2, ![1, 256]⟩
abbrev S4096x8x32 : Shape := ⟨3, ![4096, 8, 32]⟩
abbrev S8x4096x32 : Shape := ⟨3, ![8, 4096, 32]⟩
abbrev S8x4096x4096 : Shape := ⟨3, ![8, 4096, 4096]⟩
abbrev S_ : Shape := ⟨0, ![]⟩
abbrev S1x4096 : Shape := ⟨2, ![1, 4096]⟩
abbrev S4096 : Shape := ⟨1, ![4096]⟩
abbrev S4096x1 : Shape := ⟨2, ![4096, 1]⟩
abbrev S4096x4096 : Shape := ⟨2, ![4096, 4096]⟩
abbrev S1x4096x4096 : Shape := ⟨3, ![1, 4096, 4096]⟩
abbrev S128x256 : Shape := ⟨2, ![128, 256]⟩

abbrev nBuf : Space → Nat
  | .hbm => 80
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x4096, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x8x32, .f32⟩
  | .hbm, ⟨18, _⟩ => ⟨S8x4096x32, .f32⟩
  | .hbm, ⟨19, _⟩ => ⟨S256x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x8x32, .f32⟩
  | .hbm, ⟨25, _⟩ => ⟨S8x4096x32, .f32⟩
  | .hbm, ⟨26, _⟩ => ⟨S256x256, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S4096x8x32, .f32⟩
  | .hbm, ⟨32, _⟩ => ⟨S8x4096x32, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S1x4096, .i32⟩
  | .hbm, ⟨44, _⟩ => ⟨S4096, .i32⟩
  | .hbm, ⟨45, _⟩ => ⟨S4096x1, .i32⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S4096x4096, .f32⟩
  | .hbm, ⟨51, _⟩ => ⟨S1x4096x4096, .f32⟩
  | .hbm, ⟨52, _⟩ => ⟨S8x4096x4096, .f32⟩
  | .hbm, ⟨53, _⟩ => ⟨S8x4096x4096, .f32⟩
  | .hbm, ⟨54, _⟩ => ⟨S8x4096x32, .f32⟩
  | .hbm, ⟨55, _⟩ => ⟨S4096x8x32, .f32⟩
  | .hbm, ⟨56, _⟩ => ⟨S4096x256, .f32⟩
  | .hbm, ⟨57, _⟩ => ⟨S256x256, .f32⟩
  | .hbm, ⟨58, _⟩ => ⟨S4096x256, .f32⟩
  | .hbm, ⟨59, _⟩ => ⟨S1x256, .f32⟩
  | .hbm, ⟨60, _⟩ => ⟨S4096x256, .f32⟩
  | .hbm, ⟨61, _⟩ => ⟨S4096x256, .f32⟩
  | .hbm, ⟨62, _⟩ => ⟨S_, .f32⟩
  | .hbm, ⟨63, _⟩ => ⟨S128x256, .f32⟩
  | .hbm, ⟨64, _⟩ => ⟨S4096x1, .i32⟩
  | .hbm, ⟨65, _⟩ => ⟨S128x256, .f32⟩
  | .hbm, ⟨66, _⟩ => ⟨S256x256, .f32⟩
  | .hbm, ⟨67, _⟩ => ⟨S128x256, .f32⟩
  | .hbm, ⟨68, _⟩ => ⟨S1x256, .f32⟩
  | .hbm, ⟨69, _⟩ => ⟨S128x256, .f32⟩
  | .hbm, ⟨70, _⟩ => ⟨S128x256, .f32⟩
  | .hbm, ⟨71, _⟩ => ⟨S128x256, .f32⟩
  | .hbm, ⟨72, _⟩ => ⟨S128x256, .f32⟩
  | .hbm, ⟨73, _⟩ => ⟨S_, .f32⟩
  | .hbm, ⟨74, _⟩ => ⟨S128x256, .f32⟩
  | .hbm, ⟨75, _⟩ => ⟨S128x256, .f32⟩
  | .hbm, ⟨76, _⟩ => ⟨S_, .f32⟩
  | .hbm, ⟨77, _⟩ => ⟨S128x256, .f32⟩
  | .hbm, ⟨78, _⟩ => ⟨S128x256, .f32⟩
  | .hbm, ⟨79, _⟩ => ⟨S128x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v50 : Ref sig .tc := ⟨.hbm, 79, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  shapeCasts_S4096x256_S4096x8x32 : S4096x256.ShapeCasts S4096x8x32
  transposes_S4096x8x32_S8x4096x32_1_0_2 : S4096x8x32.Transposes [1, 0, 2] S8x4096x32
  bcast_S_S8x4096x4096 : S_.BroadcastsInDim S8x4096x4096 (![] : Fin 0 → Fin S8x4096x4096.rank)
  slices_S2x4096_S1x4096_1_0 : S2x4096.Slices ![1, 0] S1x4096
  shapeCasts_S1x4096_S4096 : S1x4096.ShapeCasts S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  transposes_S8x4096x32_S4096x8x32_1_0_2 : S8x4096x32.Transposes [1, 0, 2] S4096x8x32
  shapeCasts_S4096x8x32_S4096x256 : S4096x8x32.ShapeCasts S4096x256
  bcast_S_S128x256 : S_.BroadcastsInDim S128x256 (![] : Fin 0 → Fin S128x256.rank)
  bcast_S1x256_S128x256_0_1 : S1x256.BroadcastsInDim S128x256 (![0, 1] : Fin 2 → Fin S128x256.rank)
  dot_S4096x256_S256x256_S4096x256_1_0_0_1_n_n_wf : DotDims.WF S4096x256 S256x256 S4096x256 [1] [0] [0] [1] [] []
  dot_S8x4096x32_S8x4096x32_S8x4096x4096_2_2_1_1_0_0_wf : DotDims.WF S8x4096x32 S8x4096x32 S8x4096x4096 [2] [2] [1] [1] [0] [0]
  dot_S8x4096x4096_S8x4096x32_S8x4096x32_2_1_1_2_0_0_wf : DotDims.WF S8x4096x4096 S8x4096x32 S8x4096x32 [2] [1] [1] [2] [0] [0]
  scatter_S128x256_S4096x1_S4096x256_1_0_0_1_wf : ScatterDims.WF S128x256 S4096x1 S4096x256 [1] [0] [0] 1
  dot_S128x256_S256x256_S128x256_1_0_0_1_n_n_wf : DotDims.WF S128x256 S256x256 S128x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8x4096x32_S8x4096x32_S8x4096x4096_2_2_1_1_0_0 : DotDims S8x4096x32 S8x4096x32 S8x4096x4096 where
  lhsContracting := [2]
  rhsContracting := [2]
  lhsNonContracting := [1]
  rhsNonContracting := [1]
  lhsBatch := [0]
  rhsBatch := [0]
  wf := dot_S8x4096x32_S8x4096x32_S8x4096x4096_2_2_1_1_0_0_wf
def dot_S8x4096x4096_S8x4096x32_S8x4096x32_2_1_1_2_0_0 : DotDims S8x4096x4096 S8x4096x32 S8x4096x32 where
  lhsContracting := [2]
  rhsContracting := [1]
  lhsNonContracting := [1]
  rhsNonContracting := [2]
  lhsBatch := [0]
  rhsBatch := [0]
  wf := dot_S8x4096x4096_S8x4096x32_S8x4096x32_2_1_1_2_0_0_wf
def scatter_S128x256_S4096x1_S4096x256_1_0_0_1 : ScatterDims S128x256 S4096x1 S4096x256 where
  updateWindowDims := [1]
  insertedWindowDims := [0]
  scatterDimsToOperandDims := [0]
  indexVectorDim := 1
  wf := scatter_S128x256_S4096x1_S4096x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

class Facts : Prop extends Facts₀ where

variable [Facts]
-- ==== Proof.KLin0.lean ====
/-
  Region 0 of @main: one affine layer, `rows · weights + bias`, tiled over the rows.
  At a grid point the body loads the point's block of rows (window 0), the whole weight matrix (window 1) and the
  bias row (window 2), and stores their affine image over the whole output block (window 3); it also loads the
  output buffer once and drops the value. Everything here is stated at a parameter `V`, the buffer contents when
  the region is entered, and for any float instance: what the output buffer holds after the body, the body's
  triple, the proof data of the pipeline and the body obligation at every grid point.
-/
import proofs.«107387_j24197845746072_1_alg».proof.Proof.Gen.Kernel.Launch
import proofs.«107387_j24197845746072_1_alg».proof.Proof.Gen.Kernel.Skeleton
import proofs.«107387_j24197845746072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index has not moved since it was fetched: rows (window 0). -/
theorem rowsBefore0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The same for the weights (window 1). -/
theorem weightsBefore0_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The same for the bias row (window 2). -/
theorem biasBefore0_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole rectangles the body loads and stores through. -/
abbrev rowsRect0 : Rect S1024x256 := Rect.unit (s := S1024x256) ![0, 0] S1024x256.size inb_S1024x256_S1024x256_0_0
abbrev weightsRect0 : Rect S256x768 := Rect.unit (s := S256x768) ![0, 0] S256x768.size inb_S256x768_S256x768_0_0
abbrev biasRect0 : Rect S1x768 := Rect.unit (s := S1x768) ![0, 0] S1x768.size inb_S1x768_S1x768_0_0
abbrev outRect0 : Rect S1024x768 := Rect.unit (s := S1024x768) ![0, 0] S1024x768.size inb_S1024x768_S1024x768_0_0

/-- What the output buffer holds after the body: the affine image of the three loaded values, stored over the whole
    buffer in one piece. -/
def affineOut0 (x : Vec F S1024x256 .f32) (w : Vec F S256x768 .f32) (b : Vec F S1x768 .f32) : Vec F S1024x768 .f32 :=
  View.canon [⟨outRect0, k0_pay1 (View.ld x rowsRect0) (View.ld w weightsRect0) (View.ld b biasRect0)⟩]

/-- The one store covers the buffer. -/
theorem affineCover0 (p : Vec F S1024x768 .f32) (y : S1024x768.Idx) :
    ∃ pc ∈ ([⟨outRect0, p⟩] : List (View.Piece (Elt F) S1024x768 .f32)), y ∈ pc.1.set :=
  View.cover_of_tiled [⟨outRect0, p⟩] S1024x768.size (by rfl) y

set_option maxHeartbeats 1000000 in
/-- The body on whole staging buffers — the inputs' at contents `x`, `w`, `b`, the output's at anything — runs to the
    continuation with the inputs as they were and the output at `affineOut0 x w b`. -/
theorem affineBody0 (c : Dev nD) (E : Set ℕ) (i : grid0.Coords)
    (arg1 : Memref sig .tc .vmem S1024x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S1024x768 .f32) (harg4 : arg4.IsWhole)
    (x : Vec F S1024x256 .f32) (w : Vec F S256x768 .f32) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (affineOut0 x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (affineCover0 _)

/-- The proof data of the region's pipeline on core `c`: the arrays as the region finds them; after the body at point
    `t` each input buffer at its block and the output buffer at the affine image of the three blocks; the invariant is
    the untouched scoped rest and generator register; nothing owed; full shares. -/
def affineDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => affineOut0 (blk0 V c 0 t) (blk0 V c 1 t) (blk0 V c 2 t)
  Φ _ := Pipeline.ΦA spec0 c
  q _ := fullShare
  owed _ := 0

theorem affineA0 (c : Dev nD) (w : Fin cfg0.W) : (affineDat0 V c).A w = V c (Pipeline.arrRef spec0 w) := by
  dsimp only [affineDat0]
theorem affineAfter0_0 (c : Dev nD) (t : Fin cfg0.N) : (affineDat0 V c).after 0 t = blk0 V c 0 t := by dsimp only [affineDat0]
theorem affineAfter0_1 (c : Dev nD) (t : Fin cfg0.N) : (affineDat0 V c).after 1 t = blk0 V c 1 t := by dsimp only [affineDat0]
theorem affineAfter0_2 (c : Dev nD) (t : Fin cfg0.N) : (affineDat0 V c).after 2 t = blk0 V c 2 t := by dsimp only [affineDat0]
theorem affineAfter0_3 (c : Dev nD) (t : Fin cfg0.N) :
    (affineDat0 V c).after 3 t = affineOut0 (blk0 V c 0 t) (blk0 V c 1 t) (blk0 V c 2 t) := by dsimp only [affineDat0]

theorem affineBefore0_0 (c : Dev nD) (t : Fin cfg0.N) (d) : (affineDat0 V c).before 0 t d = blk0 V c 0 t :=
  rowsBefore0_of V (affineDat0 V c) (affineA0 V c 0) (affineAfter0_0 V c) t d
theorem affineBefore0_1 (c : Dev nD) (t : Fin cfg0.N) (d) : (affineDat0 V c).before 1 t d = blk0 V c 1 t :=
  weightsBefore0_of V (affineDat0 V c) (affineA0 V c 1) (affineAfter0_1 V c) t d
theorem affineBefore0_2 (c : Dev nD) (t : Fin cfg0.N) (d) : (affineDat0 V c).before 2 t d = blk0 V c 2 t :=
  biasBefore0_of V (affineDat0 V c) (affineA0 V c 2) (affineAfter0_2 V c) t d

/-- What the body is called with at point `t`, the windows one by one, -/
def affinePre0 (c : Dev nD) (t : Fin cfg0.N) : sProp 𝕄 :=
  iprop((affineDat0 V c).Φ t.castSucc ∗ (affineDat0 V c).owesAt () t.castSucc
    ∗ (∃ d, owns (c : Thread nD τ) (st0_0 t) fullShare ((affineDat0 V c).before 0 t d))
    ∗ (∃ d, owns (c : Thread nD τ) (st0_1 t) fullShare ((affineDat0 V c).before 1 t d))
    ∗ (∃ d, owns (c : Thread nD τ) (st0_2 t) fullShare ((affineDat0 V c).before 2 t d))
    ∗ (∃ d, owns (c : Thread nD τ) (st0_3 t) fullShare ((affineDat0 V c).before 3 t d)))

/-- and what it returns. -/
def affinePost0 (c : Dev nD) (t : Fin cfg0.N) : sProp 𝕄 :=
  iprop((affineDat0 V c).Φ t.succ ∗ (affineDat0 V c).owesAt () t.succ
    ∗ owns (c : Thread nD τ) (st0_0 t) fullShare ((affineDat0 V c).after 0 t)
    ∗ owns (c : Thread nD τ) (st0_1 t) fullShare ((affineDat0 V c).after 1 t)
    ∗ owns (c : Thread nD τ) (st0_2 t) fullShare ((affineDat0 V c).after 2 t)
    ∗ owns (c : Thread nD τ) (st0_3 t) fullShare ((affineDat0 V c).after 3 t))

/-- The body at any point: the input buffers hold their blocks, so the triple applies; the invariant and the core's
    dues pass through unread. -/
theorem affineAt0 (c : Dev nD) (t : Fin cfg0.N) :
    affinePre0 V c t ⊢ wp frame (wpE (defs₀ (F := F)) Variants.none c none) Set.univ (bodyAt0 t) (fun _ => affinePost0 V c t) := by
  unfold affinePre0 affinePost0 bodyAt0
  simp only [affineBefore0_0, affineBefore0_1, affineBefore0_2]
  rw [show (affineDat0 V c).Φ t.succ = (affineDat0 V c).Φ t.castSucc from rfl,
    show (affineDat0 V c).owesAt () t.succ = (affineDat0 V c).owesAt () t.castSucc from rfl,
    affineAfter0_0, affineAfter0_1, affineAfter0_2, affineAfter0_3]
  iintro ⟨HΦ, Ho, ⟨%d0, H0⟩, ⟨%d1, H1⟩, ⟨%d2, H2⟩, ⟨%d3, H3⟩⟩
  iapply (affineBody0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem affineObligation0 (c : Dev nD) : BodyObligation (affineDat0 (F := F) V c) (defs₀ (F := F)) Variants.none () Set.univ := fun t => by
  rw [bigSep_W0, bigSep_W0]
  exact affineAt0 V c t

end Cert.Kernel.Gen

end
-- ==== Proof.KLin2.lean ====
/-
  Region 2 of @main: one affine layer, `rows · weights + bias`, tiled over the rows.
  At a grid point the body loads the point's block of rows (window 0), the whole weight matrix (window 1) and the
  bias row (window 2), and stores their affine image over the whole output block (window 3); it also loads the
  output buffer once and drops the value. Everything here is stated at a parameter `V`, the buffer contents when
  the region is entered, and for any float instance: what the output buffer holds after the body, the body's
  triple, the proof data of the pipeline and the body obligation at every grid point.
-/
import proofs.«107387_j24197845746072_1_alg».proof.Proof.Gen.Kernel.Launch
import proofs.«107387_j24197845746072_1_alg».proof.Proof.Gen.Kernel.Skeleton
import proofs.«107387_j24197845746072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or the
    block index has not moved since it was fetched: rows (window 0). -/
theorem rowsBefore2_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- The same for the weights (window 1). -/
theorem weightsBefore2_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- The same for the bias row (window 2). -/
theorem biasBefore2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole rectangles the body loads and stores through. -/
abbrev rowsRect2 : Rect S1024x256 := Rect.unit (s := S1024x256) ![0, 0] S1024x256.size inb_S1024x256_S1024x256_0_0
abbrev weightsRect2 : Rect S256x256 := Rect.unit (s := S256x256) ![0, 0] S256x256.size inb_S256x256_S256x256_0_0
abbrev biasRect2 : Rect S1x256 := Rect.unit (s := S1x256) ![0, 0] S1x256.size inb_S1x256_S1x256_0_0
abbrev outRect2 : Rect S1024x256 := Rect.unit (s := S1024x256) ![0, 0] S1024x256.size inb_S1024x256_S1024x256_0_0

/-- What the output buffer holds after the body: the affine image of the three loaded values, stored over the whole
    buffer in one piece. -/
def affineOut2 (x : Vec F S1024x256 .f32) (w : Vec F S256x256 .f32) (b : Vec F S1x256 .f32) : Vec F S1024x256 .f32 :=
  View.canon [⟨outRect2, k2_pay1 (View.ld x rowsRect2) (View.ld w weightsRect2) (View.ld b biasRect2)⟩]

/-- The one store covers the buffer. -/
theorem affineCover2 (p : Vec F S1024x256 .f32) (y : S1024x256.Idx) :
    ∃ pc ∈ ([⟨outRect2, p⟩] : List (View.Piece (Elt F) S1024x256 .f32)), y ∈ pc.1.set :=
  View.cover_of_tiled [⟨outRect2, p⟩] S1024x256.size (by rfl) y

set_option maxHeartbeats 1000000 in
/-- The body on whole staging buffers — the inputs' at contents `x`, `w`, `b`, the output's at anything — runs to the
    continuation with the inputs as they were and the output at `affineOut2 x w b`. -/
theorem affineBody2 (c : Dev nD) (E : Set ℕ) (i : grid2.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x : Vec F S1024x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (affineOut2 x w b)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (affineCover2 _)

/-- The proof data of the region's pipeline on core `c`: the arrays as the region finds them; after the body at point
    `t` each input buffer at its block and the output buffer at the affine image of the three blocks; the invariant is
    the untouched scoped rest and generator register; nothing owed; full shares. -/
def affineDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => affineOut2 (blk2 V c 0 t) (blk2 V c 1 t) (blk2 V c 2 t)
  Φ _ := Pipeline.ΦA spec2 c
  q _ := fullShare
  owed _ := 0

theorem affineA2 (c : Dev nD) (w : Fin cfg2.W) : (affineDat2 V c).A w = V c (Pipeline.arrRef spec2 w) := by
  dsimp only [affineDat2]
theorem affineAfter2_0 (c : Dev nD) (t : Fin cfg2.N) : (affineDat2 V c).after 0 t = blk2 V c 0 t := by dsimp only [affineDat2]
theorem affineAfter2_1 (c : Dev nD) (t : Fin cfg2.N) : (affineDat2 V c).after 1 t = blk2 V c 1 t := by dsimp only [affineDat2]
theorem affineAfter2_2 (c : Dev nD) (t : Fin cfg2.N) : (affineDat2 V c).after 2 t = blk2 V c 2 t := by dsimp only [affineDat2]
theorem affineAfter2_3 (c : Dev nD) (t : Fin cfg2.N) :
    (affineDat2 V c).after 3 t = affineOut2 (blk2 V c 0 t) (blk2 V c 1 t) (blk2 V c 2 t) := by dsimp only [affineDat2]

theorem affineBefore2_0 (c : Dev nD) (t : Fin cfg2.N) (d) : (affineDat2 V c).before 0 t d = blk2 V c 0 t :=
  rowsBefore2_of V (affineDat2 V c) (affineA2 V c 0) (affineAfter2_0 V c) t d
theorem affineBefore2_1 (c : Dev nD) (t : Fin cfg2.N) (d) : (affineDat2 V c).before 1 t d = blk2 V c 1 t :=
  weightsBefore2_of V (affineDat2 V c) (affineA2 V c 1) (affineAfter2_1 V c) t d
theorem affineBefore2_2 (c : Dev nD) (t : Fin cfg2.N) (d) : (affineDat2 V c).before 2 t d = blk2 V c 2 t :=
  biasBefore2_of V (affineDat2 V c) (affineA2 V c 2) (affineAfter2_2 V c) t d

/-- What the body is called with at point `t`, the windows one by one, -/
def affinePre2 (c : Dev nD) (t : Fin cfg2.N) : sProp 𝕄 :=
  iprop((affineDat2 V c).Φ t.castSucc ∗ (affineDat2 V c).owesAt () t.castSucc
    ∗ (∃ d, owns (c : Thread nD τ) (st2_0 t) fullShare ((affineDat2 V c).before 0 t d))
    ∗ (∃ d, owns (c : Thread nD τ) (st2_1 t) fullShare ((affineDat2 V c).before 1 t d))
    ∗ (∃ d, owns (c : Thread nD τ) (st2_2 t) fullShare ((affineDat2 V c).before 2 t d))
    ∗ (∃ d, owns (c : Thread nD τ) (st2_3 t) fullShare ((affineDat2 V c).before 3 t d)))

/-- and what it returns. -/
def affinePost2 (c : Dev nD) (t : Fin cfg2.N) : sProp 𝕄 :=
  iprop((affineDat2 V c).Φ t.succ ∗ (affineDat2 V c).owesAt () t.succ
    ∗ owns (c : Thread nD τ) (st2_0 t) fullShare ((affineDat2 V c).after 0 t)
    ∗ owns (c : Thread nD τ) (st2_1 t) fullShare ((affineDat2 V c).after 1 t)
    ∗ owns (c : Thread nD τ) (st2_2 t) fullShare ((affineDat2 V c).after 2 t)
    ∗ owns (c : Thread nD τ) (st2_3 t) fullShare ((affineDat2 V c).after 3 t))

/-- The body at any point: the input buffers hold their blocks, so the triple applies; the invariant and the core's
    dues pass through unread. -/
theorem affineAt2 (c : Dev nD) (t : Fin cfg2.N) :
    affinePre2 V c t ⊢ wp frame (wpE (defs₀ (F := F)) Variants.none c none) Set.univ (bodyAt2 t) (fun _ => affinePost2 V c t) := by
  unfold affinePre2 affinePost2 bodyAt2
  simp only [affineBefore2_0, affineBefore2_1, affineBefore2_2]
  rw [show (affineDat2 V c).Φ t.succ = (affineDat2 V c).Φ t.castSucc from rfl,
    show (affineDat2 V c).owesAt () t.succ = (affineDat2 V c).owesAt () t.castSucc from rfl,
    affineAfter2_0, affineAfter2_1, affineAfter2_2, affineAfter2_3]
  iintro ⟨HΦ, Ho, ⟨%d0, H0⟩, ⟨%d1, H1⟩, ⟨%d2, H2⟩, ⟨%d3, H3⟩⟩
  iapply (affineBody2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem affineObligation2 (c : Dev nD) : BodyObligation (affineDat2 (F := F) V c) (defs₀ (F := F)) Variants.none () Set.univ := fun t => by
  rw [bigSep_W2, bigSep_W2]
  exact affineAt2 V c t

end Cert.Kernel.Gen

end
-- ==== Proof.KLin3.lean ====
/-
  Region 3 of @main: one affine layer, `rows · weights + bias`, tiled over the rows.
  At a grid point the body loads the point's block of rows (window 0), the whole weight matrix (window 1) and the
  bias row (window 2), and stores their affine image over the whole output block (window 3); it also loads the
  output buffer once and drops the value. Everything here is stated at a parameter `V`, the buffer contents when
  the region is entered, and for any float instance: what the output buffer holds after the body, the body's
  triple, the proof data of the pipeline and the body obligation at every grid point.
-/
import proofs.«107387_j24197845746072_1_alg».proof.Proof.Gen.Kernel.Launch
import proofs.«107387_j24197845746072_1_alg».proof.Proof.Gen.Kernel.Skeleton
import proofs.«107387_j24197845746072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or the
    block index has not moved since it was fetched: rows (window 0). -/
theorem rowsBefore3_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
/-- The same for the weights (window 1). -/
theorem weightsBefore3_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
/-- The same for the bias row (window 2). -/
theorem biasBefore3_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole rectangles the body loads and stores through. -/
abbrev rowsRect3 : Rect S128x256 := Rect.unit (s := S128x256) ![0, 0] S128x256.size inb_S128x256_S128x256_0_0
abbrev weightsRect3 : Rect S256x256 := Rect.unit (s := S256x256) ![0, 0] S256x256.size inb_S256x256_S256x256_0_0
abbrev biasRect3 : Rect S1x256 := Rect.unit (s := S1x256) ![0, 0] S1x256.size inb_S1x256_S1x256_0_0
abbrev outRect3 : Rect S128x256 := Rect.unit (s := S128x256) ![0, 0] S128x256.size inb_S128x256_S128x256_0_0

/-- What the output buffer holds after the body: the affine image of the three loaded values, stored over the whole
    buffer in one piece. -/
def affineOut3 (x : Vec F S128x256 .f32) (w : Vec F S256x256 .f32) (b : Vec F S1x256 .f32) : Vec F S128x256 .f32 :=
  View.canon [⟨outRect3, k3_pay1 (View.ld x rowsRect3) (View.ld w weightsRect3) (View.ld b biasRect3)⟩]

/-- The one store covers the buffer. -/
theorem affineCover3 (p : Vec F S128x256 .f32) (y : S128x256.Idx) :
    ∃ pc ∈ ([⟨outRect3, p⟩] : List (View.Piece (Elt F) S128x256 .f32)), y ∈ pc.1.set :=
  View.cover_of_tiled [⟨outRect3, p⟩] S128x256.size (by rfl) y

set_option maxHeartbeats 1000000 in
/-- The body on whole staging buffers — the inputs' at contents `x`, `w`, `b`, the output's at anything — runs to the
    continuation with the inputs as they were and the output at `affineOut3 x w b`. -/
theorem affineBody3 (c : Dev nD) (E : Set ℕ) (i : grid3.Coords)
    (arg1 : Memref sig .tc .vmem S128x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S128x256 .f32) (harg4 : arg4.IsWhole)
    (x : Vec F S128x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (affineOut3 x w b)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (affineCover3 _)

/-- The proof data of the region's pipeline on core `c`: the arrays as the region finds them; after the body at point
    `t` each input buffer at its block and the output buffer at the affine image of the three blocks; the invariant is
    the untouched scoped rest and generator register; nothing owed; full shares. -/
def affineDat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => affineOut3 (blk3 V c 0 t) (blk3 V c 1 t) (blk3 V c 2 t)
  Φ _ := Pipeline.ΦA spec3 c
  q _ := fullShare
  owed _ := 0

theorem affineA3 (c : Dev nD) (w : Fin cfg3.W) : (affineDat3 V c).A w = V c (Pipeline.arrRef spec3 w) := by
  dsimp only [affineDat3]
theorem affineAfter3_0 (c : Dev nD) (t : Fin cfg3.N) : (affineDat3 V c).after 0 t = blk3 V c 0 t := by dsimp only [affineDat3]
theorem affineAfter3_1 (c : Dev nD) (t : Fin cfg3.N) : (affineDat3 V c).after 1 t = blk3 V c 1 t := by dsimp only [affineDat3]
theorem affineAfter3_2 (c : Dev nD) (t : Fin cfg3.N) : (affineDat3 V c).after 2 t = blk3 V c 2 t := by dsimp only [affineDat3]
theorem affineAfter3_3 (c : Dev nD) (t : Fin cfg3.N) :
    (affineDat3 V c).after 3 t = affineOut3 (blk3 V c 0 t) (blk3 V c 1 t) (blk3 V c 2 t) := by dsimp only [affineDat3]

theorem affineBefore3_0 (c : Dev nD) (t : Fin cfg3.N) (d) : (affineDat3 V c).before 0 t d = blk3 V c 0 t :=
  rowsBefore3_of V (affineDat3 V c) (affineA3 V c 0) (affineAfter3_0 V c) t d
theorem affineBefore3_1 (c : Dev nD) (t : Fin cfg3.N) (d) : (affineDat3 V c).before 1 t d = blk3 V c 1 t :=
  weightsBefore3_of V (affineDat3 V c) (affineA3 V c 1) (affineAfter3_1 V c) t d
theorem affineBefore3_2 (c : Dev nD) (t : Fin cfg3.N) (d) : (affineDat3 V c).before 2 t d = blk3 V c 2 t :=
  biasBefore3_of V (affineDat3 V c) (affineA3 V c 2) (affineAfter3_2 V c) t d

/-- What the body is called with at point `t`, the windows one by one, -/
def affinePre3 (c : Dev nD) (t : Fin cfg3.N) : sProp 𝕄 :=
  iprop((affineDat3 V c).Φ t.castSucc ∗ (affineDat3 V c).owesAt () t.castSucc
    ∗ (∃ d, owns (c : Thread nD τ) (st3_0 t) fullShare ((affineDat3 V c).before 0 t d))
    ∗ (∃ d, owns (c : Thread nD τ) (st3_1 t) fullShare ((affineDat3 V c).before 1 t d))
    ∗ (∃ d, owns (c : Thread nD τ) (st3_2 t) fullShare ((affineDat3 V c).before 2 t d))
    ∗ (∃ d, owns (c : Thread nD τ) (st3_3 t) fullShare ((affineDat3 V c).before 3 t d)))

/-- and what it returns. -/
def affinePost3 (c : Dev nD) (t : Fin cfg3.N) : sProp 𝕄 :=
  iprop((affineDat3 V c).Φ t.succ ∗ (affineDat3 V c).owesAt () t.succ
    ∗ owns (c : Thread nD τ) (st3_0 t) fullShare ((affineDat3 V c).after 0 t)
    ∗ owns (c : Thread nD τ) (st3_1 t) fullShare ((affineDat3 V c).after 1 t)
    ∗ owns (c : Thread nD τ) (st3_2 t) fullShare ((affineDat3 V c).after 2 t)
    ∗ owns (c : Thread nD τ) (st3_3 t) fullShare ((affineDat3 V c).after 3 t))

/-- The body at any point: the input buffers hold their blocks, so the triple applies; the invariant and the core's
    dues pass through unread. -/
theorem affineAt3 (c : Dev nD) (t : Fin cfg3.N) :
    affinePre3 V c t ⊢ wp frame (wpE (defs₀ (F := F)) Variants.none c none) Set.univ (bodyAt3 t) (fun _ => affinePost3 V c t) := by
  unfold affinePre3 affinePost3 bodyAt3
  simp only [affineBefore3_0, affineBefore3_1, affineBefore3_2]
  rw [show (affineDat3 V c).Φ t.succ = (affineDat3 V c).Φ t.castSucc from rfl,
    show (affineDat3 V c).owesAt () t.succ = (affineDat3 V c).owesAt () t.castSucc from rfl,
    affineAfter3_0, affineAfter3_1, affineAfter3_2, affineAfter3_3]
  iintro ⟨HΦ, Ho, ⟨%d0, H0⟩, ⟨%d1, H1⟩, ⟨%d2, H2⟩, ⟨%d3, H3⟩⟩
  iapply (affineBody3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem affineObligation3 (c : Dev nD) : BodyObligation (affineDat3 (F := F) V c) (defs₀ (F := F)) Variants.none () Set.univ := fun t => by
  rw [bigSep_W3, bigSep_W3]
  exact affineAt3 V c t

end Cert.Kernel.Gen

end
-- ==== Proof.KRun.lean ====
/-
  The run of @main: five stretches of host operations with the four kernel regions between them, from the launch to
  the return, for any float instance. The buffer contents at each of the ten boundaries are a fold from the launch
  memory: a host stretch applies its operations; a region leaves its arrays at what its pipeline's write-backs make
  of them and every other buffer as it was. Each region is a segment over the thread state "every unscoped buffer at
  the boundary's contents, the generator register at some state, nothing owed". The conclusion: every weakly fair
  execution terminates without a fault and the final memory holds every unscoped buffer at the last boundary's
  contents — from which both the frame (no item writes an argument) and the result's value are read.
  The three affine layers' halves are Lin0 / Lin2 / Lin3. The attention region's half enters as a parameter: what its
  body leaves in each staging buffer (`aft`) and its invariant (`Phi`), with the body obligation and the two
  entailments between that invariant and the plain one at the first and after the last grid point.
-/
import proofs.«107387_j24197845746072_1_alg».proof.Proof.Gen.Kernel.Regions
import proofs.«107387_j24197845746072_1_alg».proof.Proof.KLin0
import proofs.«107387_j24197845746072_1_alg».proof.Proof.KLin2
import proofs.«107387_j24197845746072_1_alg».proof.Proof.KLin3

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The attention region's half, as parameters -/

variable (aft : ((c : Dev nD) → (b : Ref sig .tc) → Buf (Elt F) ((c : Thread nD τ).loc b)) → (c : Dev nD) → (w : Fin cfg1.W) → Fin cfg1.N → (cfg1.win w).block.Idx → Elt F (cfg1.win w).elt)
  (Phi : ((c : Dev nD) → (b : Ref sig .tc) → Buf (Elt F) ((c : Thread nD τ).loc b)) → (c : Dev nD) → Fin (cfg1.N + 1) → sProp (MT nD τ sig Unit (Elt F) ℕ (UR sig nD τ) ℕ))

/-- The attention region's proof data at entry contents `V`: the arrays as found, full shares, nothing owed; what
    the body leaves and the invariant are the parameters. -/
def attnDat (V : ((c : Dev nD) → (b : Ref sig .tc) → Buf (Elt F) ((c : Thread nD τ).loc b))) (c : Dev nD) : Dat τ (Elt F) Unit ℕ (UR sig nD τ) ℕ cfg1 c where
  A w := V c (Pipeline.arrRef spec1 w)
  after := aft V c
  Φ := Phi V c
  q _ := fullShare
  owed _ := 0

variable (m : (ℓ : Loc nD τ sig) → Buf (Elt F) ℓ)

/-! ## The buffer contents at the ten boundaries -/

/-- At launch. -/
abbrev B0 : Dev nD → Valuation τ sig (Elt F) := fun c b => m (c, b)
/-- After the first host stretch: region 0's entry. -/
abbrev B1 : Dev nD → Valuation τ sig (Elt F) := fun c => StableHlo.after hostOps0 (B0 m c)
abbrev In1 : ((c : Dev nD) → (b : Ref sig .tc) → Buf (Elt F) ((c : Thread nD τ).loc b)) := fun c b => B1 m c b

/-- At region 0's exit: its arrays at what the pipeline leaves (an input as entered, the output at its write-backs
    folded), every other buffer as entered. -/
def B2 (c : Dev nD) : Valuation τ sig (Elt F) :=
  Pipeline.withArrays spec0 c (B1 m c) fun w => (affineDat0 (In1 m) c).arrAt w cfg0.N
theorem B2_arr (c : Dev nD) (w : Fin cfg0.W) :
    B2 m c (Proc.devRef .tc (Pipeline.arrRef spec0 w)) = (affineDat0 (In1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev Out2 : ((c : Dev nD) → (b : Ref sig .tc) → Buf (Elt F) ((c : Thread nD τ).loc b)) := fun c b => B2 m c b
theorem left0 (c : Dev nD) (w : Fin cfg0.W) : (affineDat0 (In1 m) c).arrAt w cfg0.N = Out2 m c (Pipeline.arrRef spec0 w) :=
  (B2_arr m c w).symm
theorem kept0 (c : Dev nD) : ∀ b, b ∉ Finset.univ.image (Pipeline.arrRef spec0) → Out2 m c b = In1 m c b :=
  fun b hb => B2_of_ne m c b fun w e => hb (Finset.mem_image.mpr ⟨w, Finset.mem_univ _, e⟩)

/-- After the host stretch that follows it. -/
abbrev B3 : Dev nD → Valuation τ sig (Elt F) := fun c => StableHlo.after hostOps1 (B2 m c)
/-- The same read at the TensorCore's references. -/
abbrev In3 : ((c : Dev nD) → (b : Ref sig .tc) → Buf (Elt F) ((c : Thread nD τ).loc b)) := fun c b => B3 m c b

/-- At region 1's exit: its arrays at what the pipeline leaves (an input as entered, the output at its write-backs
    folded), every other buffer as entered. -/
def B4 (c : Dev nD) : Valuation τ sig (Elt F) :=
  Pipeline.withArrays spec1 c (B3 m c) fun w => (attnDat aft Phi (In3 m) c).arrAt w cfg1.N
theorem B4_arr (c : Dev nD) (w : Fin cfg1.W) :
    B4 aft Phi m c (Proc.devRef .tc (Pipeline.arrRef spec1 w)) = (attnDat aft Phi (In3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 aft Phi m c (Proc.devRef .tc b) = B3 m c (Proc.devRef .tc b) := by
  unfold B4; exact Pipeline.withArrays_of_ne spec1 c _ _ b hb
/-- The same read at the TensorCore's references. -/
abbrev Out4 : ((c : Dev nD) → (b : Ref sig .tc) → Buf (Elt F) ((c : Thread nD τ).loc b)) := fun c b => B4 aft Phi m c b
theorem left1 (c : Dev nD) (w : Fin cfg1.W) : (attnDat aft Phi (In3 m) c).arrAt w cfg1.N = Out4 aft Phi m c (Pipeline.arrRef spec1 w) :=
  (B4_arr aft Phi m c w).symm
theorem kept1 (c : Dev nD) : ∀ b, b ∉ Finset.univ.image (Pipeline.arrRef spec1) → Out4 aft Phi m c b = In3 m c b :=
  fun b hb => B4_of_ne aft Phi m c b fun w e => hb (Finset.mem_image.mpr ⟨w, Finset.mem_univ _, e⟩)

/-- After the host stretch that follows it. -/
abbrev B5 : Dev nD → Valuation τ sig (Elt F) := fun c => StableHlo.after hostOps2 (B4 aft Phi m c)
/-- The same read at the TensorCore's references. -/
abbrev In5 : ((c : Dev nD) → (b : Ref sig .tc) → Buf (Elt F) ((c : Thread nD τ).loc b)) := fun c b => B5 aft Phi m c b

/-- At region 2's exit: its arrays at what the pipeline leaves (an input as entered, the output at its write-backs
    folded), every other buffer as entered. -/
def B6 (c : Dev nD) : Valuation τ sig (Elt F) :=
  Pipeline.withArrays spec2 c (B5 aft Phi m c) fun w => (affineDat2 (In5 aft Phi m) c).arrAt w cfg2.N
theorem B6_arr (c : Dev nD) (w : Fin cfg2.W) :
    B6 aft Phi m c (Proc.devRef .tc (Pipeline.arrRef spec2 w)) = (affineDat2 (In5 aft Phi m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 aft Phi m c (Proc.devRef .tc b) = B5 aft Phi m c (Proc.devRef .tc b) := by
  unfold B6; exact Pipeline.withArrays_of_ne spec2 c _ _ b hb
/-- The same read at the TensorCore's references. -/
abbrev Out6 : ((c : Dev nD) → (b : Ref sig .tc) → Buf (Elt F) ((c : Thread nD τ).loc b)) := fun c b => B6 aft Phi m c b
theorem left2 (c : Dev nD) (w : Fin cfg2.W) : (affineDat2 (In5 aft Phi m) c).arrAt w cfg2.N = Out6 aft Phi m c (Pipeline.arrRef spec2 w) :=
  (B6_arr aft Phi m c w).symm
theorem kept2 (c : Dev nD) : ∀ b, b ∉ Finset.univ.image (Pipeline.arrRef spec2) → Out6 aft Phi m c b = In5 aft Phi m c b :=
  fun b hb => B6_of_ne aft Phi m c b fun w e => hb (Finset.mem_image.mpr ⟨w, Finset.mem_univ _, e⟩)

/-- After the host stretch that follows it. -/
abbrev B7 : Dev nD → Valuation τ sig (Elt F) := fun c => StableHlo.after hostOps3 (B6 aft Phi m c)
/-- The same read at the TensorCore's references. -/
abbrev In7 : ((c : Dev nD) → (b : Ref sig .tc) → Buf (Elt F) ((c : Thread nD τ).loc b)) := fun c b => B7 aft Phi m c b

/-- At region 3's exit: its arrays at what the pipeline leaves (an input as entered, the output at its write-backs
    folded), every other buffer as entered. -/
def B8 (c : Dev nD) : Valuation τ sig (Elt F) :=
  Pipeline.withArrays spec3 c (B7 aft Phi m c) fun w => (affineDat3 (In7 aft Phi m) c).arrAt w cfg3.N
theorem B8_arr (c : Dev nD) (w : Fin cfg3.W) :
    B8 aft Phi m c (Proc.devRef .tc (Pipeline.arrRef spec3 w)) = (affineDat3 (In7 aft Phi m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 aft Phi m c (Proc.devRef .tc b) = B7 aft Phi m c (Proc.devRef .tc b) := by
  unfold B8; exact Pipeline.withArrays_of_ne spec3 c _ _ b hb
/-- The same read at the TensorCore's references. -/
abbrev Out8 : ((c : Dev nD) → (b : Ref sig .tc) → Buf (Elt F) ((c : Thread nD τ).loc b)) := fun c b => B8 aft Phi m c b
theorem left3 (c : Dev nD) (w : Fin cfg3.W) : (affineDat3 (In7 aft Phi m) c).arrAt w cfg3.N = Out8 aft Phi m c (Pipeline.arrRef spec3 w) :=
  (B8_arr aft Phi m c w).symm
theorem kept3 (c : Dev nD) : ∀ b, b ∉ Finset.univ.image (Pipeline.arrRef spec3) → Out8 aft Phi m c b = In7 aft Phi m c b :=
  fun b hb => B8_of_ne aft Phi m c b fun w e => hb (Finset.mem_image.mpr ⟨w, Finset.mem_univ _, e⟩)

/-- After the host stretch that follows it. -/
abbrev B9 : Dev nD → Valuation τ sig (Elt F) := fun c => StableHlo.after hostOps4 (B8 aft Phi m c)
/-- The same read at the TensorCore's references. -/
abbrev In9 : ((c : Dev nD) → (b : Ref sig .tc) → Buf (Elt F) ((c : Thread nD τ).loc b)) := fun c b => B9 aft Phi m c b

/-! ## A buffer no item writes ends as launched -/

/-- A buffer that no host stretch writes and that is no array of any region holds its launch contents at the end. -/
theorem B9_bypass (c : Dev nD) (r : Ref sig .tc)
    (h0 : r ∉ (hostOps0_W : List (Ref sig .tc))) (h1 : r ∉ (hostOps1_W : List (Ref sig .tc))) (h2 : r ∉ (hostOps2_W : List (Ref sig .tc)))
    (h3 : r ∉ (hostOps3_W : List (Ref sig .tc))) (h4 : r ∉ (hostOps4_W : List (Ref sig .tc)))
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    B9 aft Phi m c (Proc.devRef .tc r) = m ((c : Thread nD τ).loc r) :=
  calc B9 aft Phi m c (Proc.devRef .tc r)
    _ = B8 aft Phi m c (Proc.devRef .tc r) := StableHlo.after_of_writes_sub hostOps4 _ hostOps4_writes h4
    _ = B7 aft Phi m c (Proc.devRef .tc r) := B8_of_ne aft Phi m c r a3
    _ = B6 aft Phi m c (Proc.devRef .tc r) := StableHlo.after_of_writes_sub hostOps3 _ hostOps3_writes h3
    _ = B5 aft Phi m c (Proc.devRef .tc r) := B6_of_ne aft Phi m c r a2
    _ = B4 aft Phi m c (Proc.devRef .tc r) := StableHlo.after_of_writes_sub hostOps2 _ hostOps2_writes h2
    _ = B3 m c (Proc.devRef .tc r) := B4_of_ne aft Phi m c r a1
    _ = B2 m c (Proc.devRef .tc r) := StableHlo.after_of_writes_sub hostOps1 _ hostOps1_writes h1
    _ = B1 m c (Proc.devRef .tc r) := B2_of_ne m c r a0
    _ = B0 m c (Proc.devRef .tc r) := StableHlo.after_of_writes_sub hostOps0 _ hostOps0_writes h0
    _ = m ((c : Thread nD τ).loc r) := rfl

/-- The rows argument is region 0's first input array: the region leaves it as entered, and nothing else writes it. -/
theorem B9_main_arg0 (c : Dev nD) : B9 aft Phi m c (Proc.devRef .tc main_arg0) = m ((c : Thread nD τ).loc main_arg0) :=
  calc B9 aft Phi m c (Proc.devRef .tc main_arg0)
    _ = B8 aft Phi m c (Proc.devRef .tc main_arg0) := StableHlo.after_of_writes_sub hostOps4 _ hostOps4_writes (by decide)
    _ = B7 aft Phi m c (Proc.devRef .tc main_arg0) := B8_of_ne aft Phi m c main_arg0 (by decide)
    _ = B6 aft Phi m c (Proc.devRef .tc main_arg0) := StableHlo.after_of_writes_sub hostOps3 _ hostOps3_writes (by decide)
    _ = B5 aft Phi m c (Proc.devRef .tc main_arg0) := B6_of_ne aft Phi m c main_arg0 (by decide)
    _ = B4 aft Phi m c (Proc.devRef .tc main_arg0) := StableHlo.after_of_writes_sub hostOps2 _ hostOps2_writes (by decide)
    _ = B3 m c (Proc.devRef .tc main_arg0) := B4_of_ne aft Phi m c main_arg0 (by decide)
    _ = B2 m c (Proc.devRef .tc main_arg0) := StableHlo.after_of_writes_sub hostOps1 _ hostOps1_writes (by decide)
    _ = B1 m c (Proc.devRef .tc main_arg0) := (B2_arr m c 0).trans (((affineDat0 (In1 m) c).arrAt_in 0 rfl _).trans (affineA0 (In1 m) c 0))
    _ = B0 m c (Proc.devRef .tc main_arg0) := StableHlo.after_of_writes_sub hostOps0 _ hostOps0_writes (by decide)
    _ = m ((c : Thread nD τ).loc main_arg0) := rfl

/-! ## The proof data family and the thread state -/

/-- Every pipeline's proof data, each at its region's entry contents: a literal match on the pipeline. -/
def pdats : (p : Fin 4) → (c : Dev nD) → Dat τ (Elt F) Unit ℕ (UR sig nD τ) ℕ (Pipeline.pin (pcfgs (F := F)) adm p) c
  | ⟨0, _⟩ => fun c => affineDat0 (In1 m) c
  | ⟨1, _⟩ => fun c => attnDat aft Phi (In3 m) c
  | ⟨2, _⟩ => fun c => affineDat2 (In5 aft Phi m) c
  | ⟨3, _⟩ => fun c => affineDat3 (In7 aft Phi m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

variable (attnObl : ∀ (V : ((c : Dev nD) → (b : Ref sig .tc) → Buf (Elt F) ((c : Thread nD τ).loc b))) (c : Dev nD), BodyObligation (attnDat aft Phi V c) (defs₀ (F := F)) Variants.none () Set.univ)
  (attnIn : ∀ (V : ((c : Dev nD) → (b : Ref sig .tc) → Buf (Elt F) ((c : Thread nD τ).loc b))) (c : Dev nD), (Pipeline.ΦA spec1 c : sProp (MT nD τ sig Unit (Elt F) ℕ (UR sig nD τ) ℕ)) ⊢ Phi V c 0)
  (attnOut : ∀ (V : ((c : Dev nD) → (b : Ref sig .tc) → Buf (Elt F) ((c : Thread nD τ).loc b))) (c : Dev nD), Phi V c (Fin.last cfg1.N) ⊢ (Pipeline.ΦA spec1 c : sProp (MT nD τ sig Unit (Elt F) ℕ (UR sig nD τ) ℕ)))

set_option backward.isDefEq.respectTransparency.types false in
/-- Region 0 as a segment: entered with every unscoped buffer at the contents of boundary 1, left with them at
    those of boundary 2. Its arrays are split out of the unscoped buffers at entry and put back at what the
    pipeline's write-backs leave; the generator register enters the pipeline's invariant and comes back; the core owes
    nothing before or after; the kernel has no semaphore of its own. -/
def region0 : Pipeline.RegionSeg (pcfgs (F := F)) adm (pdats aft Phi m) () defs₀ 𝒱₀ L lv 0 where
  win := launch0.win.to₀
  block_pos := launch0.block_pos
  stage_whole := launch0.stage_whole
  K := PEmpty
  osem k := k.elim
  ho := Pipeline.OwnSemFacts.none _
  hbody c := (affineObligation0 (In1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (In1 m c)
  hentry c := by
    rw [Pipeline.ownSems0_none]
    have hsplit := Pipeline.arrays_of_unscopedBufs (p := 0) (pcfgs (F := F)) adm (pdats aft Phi m) launch0.win launch0.arr_whole c
      ((pdats aft Phi m 0 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft Phi m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats aft Phi m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats aft Phi m) ((pdats aft Phi m 0 c).share_full fun _ => rfl)
      (In1 m c) (Out2 m c) ((pdats aft Phi m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents of boundary 3, left with them at
    those of boundary 4. Its arrays are split out of the unscoped buffers at entry and put back at what the
    pipeline's write-backs leave; the generator register enters the pipeline's invariant and comes back; the core owes
    nothing before or after; the kernel has no semaphore of its own. -/
def region1 : Pipeline.RegionSeg (pcfgs (F := F)) adm (pdats aft Phi m) () defs₀ 𝒱₀ L lv 1 where
  win := launch1.win.to₀
  block_pos := launch1.block_pos
  stage_whole := launch1.stage_whole
  K := PEmpty
  osem k := k.elim
  ho := Pipeline.OwnSemFacts.none _
  hbody c := (attnObl (In3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 aft Phi m c) ∗ R c)
  X c := iprop(∃ r, prngReg c r)
  Y c := iprop(∃ r, prngReg c r)
  Z c := Pipeline.unscopedRest (Ix := Unit) (Name := ℕ) (U := UR sig nD τ) (Lvl := ℕ) spec1 c (In3 m c)
  hentry c := by
    rw [Pipeline.ownSems0_none]
    have hsplit := Pipeline.arrays_of_unscopedBufs (p := 1) (pcfgs (F := F)) adm (pdats aft Phi m) launch1.win launch1.arr_whole c
      ((pdats aft Phi m 1 c).share_full fun _ => rfl) (In3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 1).pre c (fun _ => fullShare) (adm 1).1 ∗ Pipeline.scopedRest spec1 c) ⊢ Pipeline.ΦA spec1 c from ?_).trans (attnIn _ c)
    unfold Pipeline.ΦA
    iintro ⟨Hp, -, Hr⟩
    isplitl [Hr]; · iexact Hr
    iexact Hp
  hout c := by
    rw [Pipeline.ownSems0_none]
    refine (attnOut _ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats aft Phi m) ((pdats aft Phi m 1 c).share_full fun _ => rfl)
      (In3 m c) (Out4 aft Phi m c) ((pdats aft Phi m 1 c).arrAt · cfg1.N) (left1 aft Phi m c) (kept1 aft Phi m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents of boundary 5, left with them at
    those of boundary 6. Its arrays are split out of the unscoped buffers at entry and put back at what the
    pipeline's write-backs leave; the generator register enters the pipeline's invariant and comes back; the core owes
    nothing before or after; the kernel has no semaphore of its own. -/
def region2 : Pipeline.RegionSeg (pcfgs (F := F)) adm (pdats aft Phi m) () defs₀ 𝒱₀ L lv 2 where
  win := launch2.win.to₀
  block_pos := launch2.block_pos
  stage_whole := launch2.stage_whole
  K := PEmpty
  osem k := k.elim
  ho := Pipeline.OwnSemFacts.none _
  hbody c := (affineObligation2 (In5 aft Phi m) c).loose
  hwaits := Pipeline.hwaits_of_owed_zero _ _ _ _ L lv 2 fun _ _ => rfl
  pre c := iprop(StableHlo.held (c : Thread nD τ) (Pipeline.ucRefs τ sig) (B5 aft Phi m c) ∗ R c)
  post c := iprop(StableHlo.held (c : Thread nD τ) (Pipeline.ucRefs τ sig) (B6 aft Phi m c) ∗ R c)
  X c := iprop(∃ r, prngReg c r)
  Y c := iprop(∃ r, prngReg c r)
  Z c := Pipeline.unscopedRest (Ix := Unit) (Name := ℕ) (U := UR sig nD τ) (Lvl := ℕ) spec2 c (In5 aft Phi m c)
  hentry c := by
    rw [Pipeline.ownSems0_none]
    have hsplit := Pipeline.arrays_of_unscopedBufs (p := 2) (pcfgs (F := F)) adm (pdats aft Phi m) launch2.win launch2.arr_whole c
      ((pdats aft Phi m 2 c).share_full fun _ => rfl) (In5 aft Phi m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft Phi m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats aft Phi m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats aft Phi m) ((pdats aft Phi m 2 c).share_full fun _ => rfl)
      (In5 aft Phi m c) (Out6 aft Phi m c) ((pdats aft Phi m 2 c).arrAt · cfg2.N) (left2 aft Phi m c) (kept2 aft Phi m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents of boundary 7, left with them at
    those of boundary 8. Its arrays are split out of the unscoped buffers at entry and put back at what the
    pipeline's write-backs leave; the generator register enters the pipeline's invariant and comes back; the core owes
    nothing before or after; the kernel has no semaphore of its own. -/
def region3 : Pipeline.RegionSeg (pcfgs (F := F)) adm (pdats aft Phi m) () defs₀ 𝒱₀ L lv 3 where
  win := launch3.win.to₀
  block_pos := launch3.block_pos
  stage_whole := launch3.stage_whole
  K := PEmpty
  osem k := k.elim
  ho := Pipeline.OwnSemFacts.none _
  hbody c := (affineObligation3 (In7 aft Phi m) c).loose
  hwaits := Pipeline.hwaits_of_owed_zero _ _ _ _ L lv 3 fun _ _ => rfl
  pre c := iprop(StableHlo.held (c : Thread nD τ) (Pipeline.ucRefs τ sig) (B7 aft Phi m c) ∗ R c)
  post c := iprop(StableHlo.held (c : Thread nD τ) (Pipeline.ucRefs τ sig) (B8 aft Phi m c) ∗ R c)
  X c := iprop(∃ r, prngReg c r)
  Y c := iprop(∃ r, prngReg c r)
  Z c := Pipeline.unscopedRest (Ix := Unit) (Name := ℕ) (U := UR sig nD τ) (Lvl := ℕ) spec3 c (In7 aft Phi m c)
  hentry c := by
    rw [Pipeline.ownSems0_none]
    have hsplit := Pipeline.arrays_of_unscopedBufs (p := 3) (pcfgs (F := F)) adm (pdats aft Phi m) launch3.win launch3.arr_whole c
      ((pdats aft Phi m 3 c).share_full fun _ => rfl) (In7 aft Phi m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft Phi m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats aft Phi m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats aft Phi m) ((pdats aft Phi m 3 c).share_full fun _ => rfl)
      (In7 aft Phi m c) (Out8 aft Phi m c) ((pdats aft Phi m 3 c).arrAt · cfg3.N) (left3 aft Phi m c) (kept3 aft Phi m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats aft Phi m) () defs₀ 𝒱₀ L lv) :=
  [ .host (hostSeg hostOps0 hostOps0_sub hostOps0_fresh (B0 m)),
    .region (region0 aft Phi m),
    .host (hostSeg hostOps1 hostOps1_sub hostOps1_fresh (B2 m)),
    .region (region1 aft Phi m attnObl attnIn attnOut),
    .host (hostSeg hostOps2 hostOps2_sub hostOps2_fresh (B4 aft Phi m)),
    .region (region2 aft Phi m),
    .host (hostSeg hostOps3 hostOps3_sub hostOps3_fresh (B6 aft Phi m)),
    .region (region3 aft Phi m),
    .host (hostSeg hostOps4 hostOps4_sub hostOps4_fresh (B8 aft Phi m)) ]

/-- @main is the run of the segments. -/
theorem main_run (c : Dev nD) : main (F := F) c = Pipeline.Seg.run (segs aft Phi m attnObl attnIn attnOut) :=
  (main_chain c).trans (by chain_rfl)

include attnObl attnIn attnOut in
set_option backward.isDefEq.respectTransparency.types false in
/-- THE RUN. At the compiled mesh, from any memory with zero counters, every weakly fair execution of @main on the
    TensorCores terminates, nothing faulting, and the final memory holds every unscoped buffer at the last boundary's
    contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B9 aft Phi m c b) :=
  Pipeline.θ_run_regions_kit (pcfgs (F := F)) adm (pdats aft Phi m) () cellOf_inj emb₁ defs₀ 𝒱₀ L lv m ρ main
    (segs aft Phi m attnObl attnIn attnOut)
    (fun c Q => by rw [main_run aft Phi m attnObl attnIn attnOut c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B9 aft Phi m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (B9 aft Phi m c) ∗ R c)
          ⊢ iprop((StableHlo.held (c : Thread nD τ) (Pipeline.ucRefs τ sig) (B9 aft Phi m c) ∗ ∃ r, prngReg c r)
              ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 aft Phi m c b)
    (hfin := fun c s' => by
      iintro ⟨⟨Hh, -⟩, HSI⟩
      unfold StableHlo.held
      imodintro
      iapply (pointsTo_read_all (Pipeline.ucRefs τ sig) (fun b => (((c : Thread nD τ)).1, b)) (B9 aft Phi m c) s')
      isplitl [Hh] <;> iassumption)
    (hQ := fun s h c => h c)

end Cert.Kernel.Run

end
-- ==== Proof.KAttnShared.lean ====
import proofs.«107387_j24197845746072_1_alg».proof.Proof.Gen.Kernel.Launch
import proofs.«107387_j24197845746072_1_alg».proof.Proof.Gen.Kernel.Skeleton
import proofs.«107387_j24197845746072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1): what its three control cases share

The grid is (head, query tile, key tile) = (8, 4, 4); the key tile is the fastest coordinate, so at point `t` it is
`t.val % 4`. The accumulator (a scratch of 1024 × 32) is zeroed at key tile 0, added to at every key tile, and copied
into the output block at key tile 3. Everything is stated at a parameter `V`: the buffer contents when the region is
entered. -/

section AttnRegion

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or not,
    for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or not,
    for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or not,
    for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or not,
    for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetched it or not,
    for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end AttnRegion

/-! ## The two conditions of the body, over the grid -/

/-- "This is the first key tile": the condition under which the accumulator is zeroed, with the scalar chain of the
    body substituted. -/
abbrev firstKv (i : grid1.Coords) : Prop :=
  (Scalar.cmpi .ne (Scalar.extui (Scalar.cmpi .eq (BitVec.ofNat 32 (i 2).val) 0#32)) 0#32) = 1#1
/-- It holds exactly at the points whose key tile is 0. -/
theorem firstKv_iff : ∀ t : Fin cfg1.N, firstKv (grid1.coords t) ↔ t.val % 4 = 0 :=
  (by decide +kernel : ∀ t : Fin grid1.N, firstKv (grid1.coords t) ↔ t.val % 4 = 0)

/-- "This is the last key tile": the condition under which the accumulator is copied to the output block. -/
abbrev lastKv (i : grid1.Coords) : Prop := k1_cond2 i = 1#1
/-- It holds exactly at the points whose key tile is 3. -/
theorem lastKv_iff : ∀ t : Fin cfg1.N, lastKv (grid1.coords t) ↔ t.val % 4 = 3 :=
  (by decide +kernel : ∀ t : Fin grid1.N, lastKv (grid1.coords t) ↔ t.val % 4 = 3)

/-! ## Where the output window is idle -/

/-- Off the last key tile the output window is idle: the body stores nothing into it there. -/
theorem outIdle_of_not_last (t : Fin cfg1.N) (h : ¬lastKv (grid1.coords t)) : cfg1.idle 5 (grid1.coords t) = true := by
  show (!(k1_cond2 (grid1.coords t) == 1#1)) = true
  simp only [Bool.not_eq_true', beq_eq_false_iff_ne, ne_eq]; exact h
/-- At the last key tile it is live. -/
theorem outLive_of_last (t : Fin cfg1.N) (h : lastKv (grid1.coords t)) : cfg1.idle 5 (grid1.coords t) = false := by
  show (!(k1_cond2 (grid1.coords t) == 1#1)) = false
  simp only [Bool.not_eq_false', beq_iff_eq]; exact h
/-- Off the last key tile the output block is not written back. -/
theorem outNoFlush_of_not_last (t : Fin cfg1.N) (h : ¬lastKv (grid1.coords t)) : (cfg1.win 5).flush t = false :=
  Bool.eq_false_iff.mpr fun hf => h ((lastKv_iff t).mpr ((flush1_5 t).mp hf))

/-! ## The memrefs the body is called with at a point -/

abbrev qM (t : Fin cfg1.N) : Memref sig .tc .vmem S1x1024x32 .bf16 := win1_0.stage (cfg1.slots t 0)
abbrev qM_whole (t : Fin cfg1.N) : (qM t).IsWhole := hstage1_0 ((cfg1.slots t 0).cast nbuf1_0)
abbrev kM (t : Fin cfg1.N) : Memref sig .tc .vmem S1x1024x32 .bf16 := win1_1.stage (cfg1.slots t 1)
abbrev kM_whole (t : Fin cfg1.N) : (kM t).IsWhole := hstage1_1 ((cfg1.slots t 1).cast nbuf1_1)
abbrev vM (t : Fin cfg1.N) : Memref sig .tc .vmem S1x1024x32 .bf16 := win1_2.stage (cfg1.slots t 2)
abbrev vM_whole (t : Fin cfg1.N) : (vM t).IsWhole := hstage1_2 ((cfg1.slots t 2).cast nbuf1_2)
abbrev qsegM (t : Fin cfg1.N) : Memref sig .tc .vmem S1024x1 .i32 := win1_3.stage (cfg1.slots t 3)
abbrev qsegM_whole (t : Fin cfg1.N) : (qsegM t).IsWhole := hstage1_3 ((cfg1.slots t 3).cast nbuf1_3)
abbrev ksegM (t : Fin cfg1.N) : Memref sig .tc .vmem S1x1024 .i32 := win1_4.stage (cfg1.slots t 4)
abbrev ksegM_whole (t : Fin cfg1.N) : (ksegM t).IsWhole := hstage1_4 ((cfg1.slots t 4).cast nbuf1_4)
abbrev outM (t : Fin cfg1.N) : Memref sig .tc .vmem S1x1024x32 .f32 := win1_5.stage (cfg1.slots t 5)
abbrev outM_whole (t : Fin cfg1.N) : (outM t).IsWhole := hstage1_5 ((cfg1.slots t 5).cast nbuf1_5)
/-- The accumulator: the kernel's scratch operand, a whole scoped buffer. -/
abbrev accM : Memref sig .tc .vmem S1024x32 .f32 := Memref.whole cc1_scratch0
/-- A view through which the accumulator's contents are stated. -/
abbrev accView : View sig .tc .vmem S1024x32 .f32 := accM.view
/-- A view through which the output block's contents are stated (any staging buffer of the window serves). -/
abbrev outView : View sig .tc .vmem S1x1024x32 .f32 := (Memref.whole cc1_stg5_0 : Memref sig .tc .vmem S1x1024x32 .f32).view

/-- What the region's class invariant holds, with the accumulator singled out: the accumulator at some contents,
    the core's other scoped buffers that are no staging buffer of this call, and the generator register. -/
theorem PhiA1_eq (c : Dev nD) :
    (Pipeline.ΦA spec1 c : sProp 𝕄)
      = iprop(iprop((∃ d, owns (c : Thread nD τ) accM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [accM, owns_whole, bigSepL_singleton]
  rfl

end Cert.Kernel.Gen

end
-- ==== Proof.KAttnFirst.lean ====
import proofs.«107387_j24197845746072_1_alg».proof.Proof.KAttnShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at the first key tile

The accumulator holds anything; the body zeroes it, adds this tile's contribution, and leaves the output block alone. -/

set_option maxHeartbeats 1000000 in
/-- The body's run at a point of the first key tile, with what it leaves: no piece in the output block, and in the
    accumulator the pieces the run finds (the zero fill, then the sum stored over it). On whole memrefs, the inputs at
    read contents, the output block at contents handed back untouched, the accumulator at anything. -/
noncomputable def attnRun_first (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) :
    Σ' (Lout : List (View.Piece (Elt F) S1x1024x32 .f32)), { Lacc : List (View.Piece (Elt F) S1024x32 .f32) //
      ∀ (xo : Vec F S1x1024x32 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ (∃ f, arg9.view.loc (c : Thread nD τ) ↦[arg9.view.set]{fullShare} arg9.view.writes (Elt F) f Lacc)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xo E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Gen

end
-- ==== Proof.KAttnMiddle.lean ====
import proofs.«107387_j24197845746072_1_alg».proof.Proof.KAttnFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at a middle key tile

The accumulator holds what the point before left; the body adds this tile's contribution and leaves the output block
alone. -/

set_option maxHeartbeats 1000000 in
/-- The body's run at a point of key tile 1 or 2, with what it leaves: no piece in the output block, one piece in the
    accumulator (the sum stored over what it held, `xacc`). -/
noncomputable def attnRun_middle (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    Σ' (Lout : List (View.Piece (Elt F) S1x1024x32 .f32)), { Lacc : List (View.Piece (Elt F) S1024x32 .f32) //
      ∀ (xo : Vec F S1x1024x32 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ owns (c : Thread nD τ) arg9 fullShare xacc
            ∗ (iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ (∃ f, arg9.view.loc (c : Thread nD τ) ↦[arg9.view.set]{fullShare} arg9.view.writes (Elt F) f Lacc)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xo E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Gen

end
-- ==== Proof.KAttnLast.lean ====
import proofs.«107387_j24197845746072_1_alg».proof.Proof.KAttnMiddle

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at the last key tile

The accumulator holds what the point before left; the body adds this tile's contribution and copies the accumulator
into the output block, which it finds at anything. -/

set_option maxHeartbeats 1000000 in
/-- The body's run at a point of key tile 3, with what it leaves: the pieces of the output block and of the accumulator
    that the run finds. -/
noncomputable def attnRun_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    Σ' (Lout : List (View.Piece (Elt F) S1x1024x32 .f32)), { Lacc : List (View.Piece (Elt F) S1024x32 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ (∃ d, owns (c : Thread nD τ) arg8 fullShare d) ∗ owns (c : Thread nD τ) arg9 fullShare xacc
            ∗ (iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ (∃ f, arg8.view.loc (c : Thread nD τ) ↦[arg8.view.set]{fullShare} arg8.view.writes (Elt F) f Lout) ∗ (∃ f, arg9.view.loc (c : Thread nD τ) ↦[arg9.view.set]{fullShare} arg9.view.writes (Elt F) f Lacc)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Gen

end
-- ==== Proof.KAttn.lean ====
import proofs.«107387_j24197845746072_1_alg».proof.Proof.KAttnLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's proof data and body obligation

What the accumulator and the output block hold after each point, by recursion on the point; the invariant that
tracks the accumulator; the proof data; the body obligation by the three cases of the key tile. -/

section AttnRegion

variable (V : (c : Dev nD) → (b : Ref sig .tc) → Buf (Elt F) ((c : Thread nD τ).loc b))

/-! ## What each case leaves -/

/-- At the first key tile the accumulator's pieces cover it. -/
theorem accCover_first (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) (y : S1024x32.Idx) :
    ∃ pc ∈ (attnRun_first c i arg3 harg3 arg4 harg4 arg5 harg5 arg6 harg6 arg7 harg7 arg8 harg8 arg9 harg9 hc0 hc1 xq xk xv xqs xks).2.1, y ∈ pc.1.set :=
  View.cover_of_tiledL (attnRun_first c i arg3 harg3 arg4 harg4 arg5 harg5 arg6 harg6 arg7 harg7 arg8 harg8 arg9 harg9 hc0 hc1 xq xk xv xqs xks).2.1 S1024x32.size (by sl_kernel_rfl) y

/-- What the first key tile leaves in the accumulator: its pieces read back. -/
def accAfter_first (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) : Vec F S1024x32 .f32 :=
  accView.read (Elt F) (accView.writes (Elt F) accView.junk (attnRun_first c i arg3 harg3 arg4 harg4 arg5 harg5 arg6 harg6 arg7 harg7 arg8 harg8 arg9 harg9 hc0 hc1 xq xk xv xqs xks).2.1)

/-- At a middle key tile the accumulator's piece covers it. -/
theorem accCover_middle (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) (y : S1024x32.Idx) :
    ∃ pc ∈ (attnRun_middle c i arg3 harg3 arg4 harg4 arg5 harg5 arg6 harg6 arg7 harg7 arg8 harg8 arg9 harg9 hc0 hc1 xq xk xv xqs xks xacc).2.1, y ∈ pc.1.set :=
  View.cover_of_tiledL (attnRun_middle c i arg3 harg3 arg4 harg4 arg5 harg5 arg6 harg6 arg7 harg7 arg8 harg8 arg9 harg9 hc0 hc1 xq xk xv xqs xks xacc).2.1 S1024x32.size (by sl_kernel_rfl) y

/-- What a middle key tile leaves in the accumulator. -/
def accAfter_middle (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) : Vec F S1024x32 .f32 :=
  accView.read (Elt F) (accView.writes (Elt F) accView.junk (attnRun_middle c i arg3 harg3 arg4 harg4 arg5 harg5 arg6 harg6 arg7 harg7 arg8 harg8 arg9 harg9 hc0 hc1 xq xk xv xqs xks xacc).2.1)

/-- At the last key tile the accumulator's piece covers it, -/
theorem accCover_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) (y : S1024x32.Idx) :
    ∃ pc ∈ (attnRun_last c i arg3 harg3 arg4 harg4 arg5 harg5 arg6 harg6 arg7 harg7 arg8 harg8 arg9 harg9 hc0 hc1 xq xk xv xqs xks xacc).2.1, y ∈ pc.1.set :=
  View.cover_of_tiledL (attnRun_last c i arg3 harg3 arg4 harg4 arg5 harg5 arg6 harg6 arg7 harg7 arg8 harg8 arg9 harg9 hc0 hc1 xq xk xv xqs xks xacc).2.1 S1024x32.size (by sl_kernel_rfl) y

/-- and the output block's piece covers the block. -/
theorem outCover_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) (y : S1x1024x32.Idx) :
    ∃ pc ∈ (attnRun_last c i arg3 harg3 arg4 harg4 arg5 harg5 arg6 harg6 arg7 harg7 arg8 harg8 arg9 harg9 hc0 hc1 xq xk xv xqs xks xacc).1, y ∈ pc.1.set :=
  View.cover_of_tiledL (attnRun_last c i arg3 harg3 arg4 harg4 arg5 harg5 arg6 harg6 arg7 harg7 arg8 harg8 arg9 harg9 hc0 hc1 xq xk xv xqs xks xacc).1 S1x1024x32.size (by sl_kernel_rfl) y

/-- What the last key tile leaves in the accumulator, -/
def accAfter_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) : Vec F S1024x32 .f32 :=
  accView.read (Elt F) (accView.writes (Elt F) accView.junk (attnRun_last c i arg3 harg3 arg4 harg4 arg5 harg5 arg6 harg6 arg7 harg7 arg8 harg8 arg9 harg9 hc0 hc1 xq xk xv xqs xks xacc).2.1)

/-- and in the output block. -/
def outAfter_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) : Vec F S1x1024x32 .f32 :=
  outView.read (Elt F) (outView.writes (Elt F) outView.junk (attnRun_last c i arg3 harg3 arg4 harg4 arg5 harg5 arg6 harg6 arg7 harg7 arg8 harg8 arg9 harg9 hc0 hc1 xq xk xv xqs xks xacc).1)

/-- Contents nothing consults: the output block's entry at the points where the window is idle. -/
def outUnused : Vec F S1x1024x32 .f32 := outView.read (Elt F) outView.junk

/-! ## The accumulation, point by point -/

/-- (output block, accumulator) after a point of the first key tile. -/
def stepFirst (c : Dev nD) (t : Fin cfg1.N) (h0 : t.val % 4 = 0) (h1 : ¬t.val % 4 = 3) : Vec F S1x1024x32 .f32 × Vec F S1024x32 .f32 :=
  (outUnused, accAfter_first c (grid1.coords t) (qM t) (qM_whole t) (kM t) (kM_whole t) (vM t) (vM_whole t) (qsegM t) (qsegM_whole t) (ksegM t) (ksegM_whole t) (outM t) (outM_whole t) accM (Memref.isWhole_whole _) ((firstKv_iff t).mpr h0) (fun h => h1 ((lastKv_iff t).mp h)) (iblk1 V c 0 t) (iblk1 V c 1 t) (iblk1 V c 2 t) (iblk1 V c 3 t) (iblk1 V c 4 t))

/-- (output block, accumulator) after a point of a middle key tile, the accumulator entering at `xacc`. -/
def stepMiddle (c : Dev nD) (t : Fin cfg1.N) (h0 : ¬t.val % 4 = 0) (h1 : ¬t.val % 4 = 3) (xacc : Vec F S1024x32 .f32) : Vec F S1x1024x32 .f32 × Vec F S1024x32 .f32 :=
  (outUnused, accAfter_middle c (grid1.coords t) (qM t) (qM_whole t) (kM t) (kM_whole t) (vM t) (vM_whole t) (qsegM t) (qsegM_whole t) (ksegM t) (ksegM_whole t) (outM t) (outM_whole t) accM (Memref.isWhole_whole _) (fun h => h0 ((firstKv_iff t).mp h)) (fun h => h1 ((lastKv_iff t).mp h)) (iblk1 V c 0 t) (iblk1 V c 1 t) (iblk1 V c 2 t) (iblk1 V c 3 t) (iblk1 V c 4 t) xacc)

/-- (output block, accumulator) after a point of the last key tile, the accumulator entering at `xacc`. -/
def stepLast (c : Dev nD) (t : Fin cfg1.N) (h0 : ¬t.val % 4 = 0) (h1 : t.val % 4 = 3) (xacc : Vec F S1024x32 .f32) : Vec F S1x1024x32 .f32 × Vec F S1024x32 .f32 :=
  (outAfter_last c (grid1.coords t) (qM t) (qM_whole t) (kM t) (kM_whole t) (vM t) (vM_whole t) (qsegM t) (qsegM_whole t) (ksegM t) (ksegM_whole t) (outM t) (outM_whole t) accM (Memref.isWhole_whole _) (fun h => h0 ((firstKv_iff t).mp h)) ((lastKv_iff t).mpr h1) (iblk1 V c 0 t) (iblk1 V c 1 t) (iblk1 V c 2 t) (iblk1 V c 3 t) (iblk1 V c 4 t) xacc,
   accAfter_last c (grid1.coords t) (qM t) (qM_whole t) (kM t) (kM_whole t) (vM t) (vM_whole t) (qsegM t) (qsegM_whole t) (ksegM t) (ksegM_whole t) (outM t) (outM_whole t) accM (Memref.isWhole_whole _) (fun h => h0 ((firstKv_iff t).mp h)) ((lastKv_iff t).mpr h1) (iblk1 V c 0 t) (iblk1 V c 1 t) (iblk1 V c 2 t) (iblk1 V c 3 t) (iblk1 V c 4 t) xacc)

/-- THE ACCUMULATION: what the output block's staging buffer and the accumulator hold after the body at position `n`:
    the case of `n`'s key tile, entered with the accumulator as position `n - 1` left it. -/
def acc1 (c : Dev nD) : (n : ℕ) → n < cfg1.N → Vec F S1x1024x32 .f32 × Vec F S1024x32 .f32
  | 0, hn => stepFirst V c ⟨0, hn⟩ (Nat.zero_mod _) (show ¬(0 : ℕ) % 4 = 3 by decide)
  | n + 1, hn =>
    if h0 : (n + 1) % 4 = 0 then stepFirst V c ⟨n + 1, hn⟩ h0 (show ¬(n + 1) % 4 = 3 by omega)
    else if h1 : (n + 1) % 4 = 3 then stepLast V c ⟨n + 1, hn⟩ h0 h1 (acc1 c n (Nat.lt_of_succ_lt hn)).2
    else stepMiddle V c ⟨n + 1, hn⟩ h0 h1 (acc1 c n (Nat.lt_of_succ_lt hn)).2

theorem acc1_first (c : Dev nD) (t : Fin cfg1.N) (h0 : t.val % 4 = 0) (h1 : ¬t.val % 4 = 3) :
    acc1 V c t.val t.isLt = stepFirst V c t h0 h1 := by
  obtain ⟨n, hn⟩ := t
  cases n with
  | zero => rfl
  | succ n => exact (dif_pos h0).trans rfl

theorem acc1_middle (c : Dev nD) (t : Fin cfg1.N) (h0 : ¬t.val % 4 = 0) (h1 : ¬t.val % 4 = 3) :
    acc1 V c t.val t.isLt = stepMiddle V c t h0 h1 (acc1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem acc1_last (c : Dev nD) (t : Fin cfg1.N) (h0 : ¬t.val % 4 = 0) (h1 : t.val % 4 = 3) :
    acc1 V c t.val t.isLt = stepLast V c t h0 h1 (acc1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant that tracks the accumulator -/

/-- Before position `n`: at the first point the class invariant (the accumulator at anything); afterwards the accumulator
    at what the point before left, the core's other scoped buffers and the generator register. -/
def accInv (c : Dev nD) : (n : ℕ) → n ≤ cfg1.N → sProp 𝕄
  | 0, _ => Pipeline.ΦA spec1 c
  | n + 1, hn => iprop(iprop(owns (c : Thread nD τ) accM fullShare ((acc1 V c n hn).2)
      ∗ Pipeline.scopedRestBut (Ix := Unit) (Name := ℕ) (U := UR sig nD τ) (Lvl := ℕ) (Val := Elt F) spec1 c [cc1_scratch0]) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(iprop(owns (c : Thread nD τ) accM fullShare ((acc1 V c n hn).2)
      ∗ Pipeline.scopedRestBut (Ix := Unit) (Name := ℕ) (U := UR sig nD τ) (Lvl := ℕ) (Val := Elt F) spec1 c [cc1_scratch0]) ∗ (∃ r, prngReg c r)) := rfl

theorem accInv_pos (c : Dev nD) (n : ℕ) (h : n ≤ cfg1.N) (hz : n ≠ 0) :
    accInv V c n h = iprop(iprop(owns (c : Thread nD τ) accM fullShare ((acc1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of the attention pipeline on core `c`: the arrays as the region finds them; after the body each
    input's buffer at its block and the output's at the accumulation's first component; the invariant tracking the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (acc1 V c t.val t.isLt).1
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem accInv_castSucc (c : Dev nD) (t : Fin cfg1.N) :
    (dat1 V c).Φ t.castSucc = accInv V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (acc1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The input windows are live at every point. -/
theorem inLive_0 (t : Fin cfg1.N) : cfg1.idle 0 (grid1.coords t) = false := rfl
theorem inLive_1 (t : Fin cfg1.N) : cfg1.idle 1 (grid1.coords t) = false := rfl
theorem inLive_2 (t : Fin cfg1.N) : cfg1.idle 2 (grid1.coords t) = false := rfl
theorem inLive_3 (t : Fin cfg1.N) : cfg1.idle 3 (grid1.coords t) = false := rfl
theorem inLive_4 (t : Fin cfg1.N) : cfg1.idle 4 (grid1.coords t) = false := rfl

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (qsegM t) fullShare ((dat1 V c).before 3 t d))
    ∗ (∃ d, owns (c : Thread nD τ) (ksegM t) fullShare ((dat1 V c).before 4 t d))
    ∗ (∃ d, owns (c : Thread nD τ) (outM t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the key tile says which case the point is in; the
    invariant hands the body the accumulator (at anything at the very first point, else at what the point before left)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (qM t) fullShare ((dat1 V c).after 0 t) from by
    unfold Dat.leavesExact; rw [inLive_0 t], after1_0]
  rw [show (dat1 V c).leavesExact 1 t = owns (c : Thread nD τ) (kM t) fullShare ((dat1 V c).after 1 t) from by
    unfold Dat.leavesExact; rw [inLive_1 t], after1_1]
  rw [show (dat1 V c).leavesExact 2 t = owns (c : Thread nD τ) (vM t) fullShare ((dat1 V c).after 2 t) from by
    unfold Dat.leavesExact; rw [inLive_2 t], after1_2]
  rw [show (dat1 V c).leavesExact 3 t = owns (c : Thread nD τ) (qsegM t) fullShare ((dat1 V c).after 3 t) from by
    unfold Dat.leavesExact; rw [inLive_3 t], after1_3]
  rw [show (dat1 V c).leavesExact 4 t = owns (c : Thread nD τ) (ksegM t) fullShare ((dat1 V c).after 4 t) from by
    unfold Dat.leavesExact; rw [inLive_4 t], after1_4]
  have hN : t.val < 128 := lt_of_lt_of_eq t.isLt (show cfg1.N = 128 from N_1)
  by_cases h0 : t.val % 4 = 0
  · have h1 : ¬t.val % 4 = 3 := by omega
    have hl : ¬lastKv (grid1.coords t) := fun h => h1 ((lastKv_iff t).mp h)
    rw [Dat.leavesExact_idle (dat1 V c) 5 t (outIdle_of_not_last t hl) (outNoFlush_of_not_last t hl)]
    rw [acc1_first V c t h0 h1]
    unfold stepFirst accAfter_first; dsimp only
    by_cases hz : t.val = 0
    · rw [accInv_castSucc V c t, accInv_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_first c (grid1.coords t) _ _ _ _ _ _ _ _ _ _ _ _ _ _ ((firstKv_iff t).mpr h0) hl (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc V c t, accInv_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_first c (grid1.coords t) _ _ _ _ _ _ _ _ _ _ _ _ _ _ ((firstKv_iff t).mpr h0) hl (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hf : ¬firstKv (grid1.coords t) := fun h => h0 ((firstKv_iff t).mp h)
    have hz : t.val ≠ 0 := fun e => h0 (by rw [e])
    by_cases h1 : t.val % 4 = 3
    · have hl : lastKv (grid1.coords t) := (lastKv_iff t).mpr h1
      rw [show (dat1 V c).leavesExact 5 t = owns (c : Thread nD τ) (outM t) fullShare ((dat1 V c).after 5 t) from by
        unfold Dat.leavesExact; rw [outLive_of_last t hl], after1_5]
      rw [acc1_last V c t h0 h1]
      unfold stepLast outAfter_last accAfter_last; dsimp only
      rw [accInv_castSucc V c t, accInv_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_last c (grid1.coords t) _ _ _ _ _ _ _ _ _ _ _ _ _ _ hf hl (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCover_last c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover_last c _ _ _ _ _ _ _ _ _ _ _ _ _ _ _ _ _ _ _ _ _ _ _)
    · have hl : ¬lastKv (grid1.coords t) := fun h => h1 ((lastKv_iff t).mp h)
      rw [Dat.leavesExact_idle (dat1 V c) 5 t (outIdle_of_not_last t hl) (outNoFlush_of_not_last t hl)]
      rw [acc1_middle V c t h0 h1]
      unfold stepMiddle accAfter_middle; dsimp only
      rw [accInv_castSucc V c t, accInv_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_middle c (grid1.coords t) _ _ _ _ _ _ _ _ _ _ _ _ _ _ hf hl (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (accCover_middle c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = accInv V c 0 (Nat.zero_le _) from rfl, accInv_zero V c 0 _ rfl]
  try exact Idealize.SL.BI.Entails.refl _

/-- After any point but the first the invariant gives the class invariant back: the accumulator's contents are forgotten. -/
theorem accInv_out (c : Dev nD) (t : Fin (cfg1.N + 1)) (ht : t.val ≠ 0) : (dat1 V c).Φ t ⊢ Pipeline.ΦA spec1 c := by
  rw [show (dat1 V c).Φ t = accInv V c t.val (Nat.le_of_lt_succ t.isLt) from rfl, accInv_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  accInv_out V c _ (by rw [Fin.val_last]; have : cfg1.N = 128 := N_1; omega)

end AttnRegion

end Cert.Kernel.Gen

end
-- ==== Proof.KRunAll.lean ====
/-
  The run of @main with the attention region's half filled in: what the attention body leaves in each staging buffer
  and its invariant (the accumulator carried from one key tile to the next) are those of its proof data; the body
  obligation and the two entailments at the first and after the last grid point are the attention modules'.
-/
import proofs.«107387_j24197845746072_1_alg».proof.Proof.KRun
import proofs.«107387_j24197845746072_1_alg».proof.Proof.KAttn

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

/-- What the attention body leaves in each staging buffer, and its invariant, at entry contents `V`. -/
abbrev attnAfter (V : ((c : Dev nD) → (b : Ref sig .tc) → Buf (Elt F) ((c : Thread nD τ).loc b))) (c : Dev nD) := (dat1 (F := F) V c).after
abbrev attnInv (V : ((c : Dev nD) → (b : Ref sig .tc) → Buf (Elt F) ((c : Thread nD τ).loc b))) (c : Dev nD) := (dat1 (F := F) V c).Φ

/-- The run's attention proof data is the attention modules'. -/
theorem attnDat_eq (V : ((c : Dev nD) → (b : Ref sig .tc) → Buf (Elt F) ((c : Thread nD τ).loc b))) (c : Dev nD) : attnDat (F := F) attnAfter attnInv V c = dat1 V c := rfl

variable (m : (ℓ : Loc nD τ sig) → Buf (Elt F) ℓ)

/-- The last boundary's contents. -/
abbrev final (c : Dev nD) : Valuation τ sig (Elt F) := B9 (F := F) attnAfter attnInv m c

/-- Every weakly fair execution of @main terminates, nothing faulting, with every unscoped buffer at the last
    boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = final m c b) :=
  run (F := F) attnAfter attnInv m (fun V c => body_obligation1 V c) (fun V c => hin1 V c) (fun V c => hout1 V c) ρ

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B9_main_arg0 attnAfter attnInv m c),
     (h c _ (mem_uc main_arg1 (by decide))).trans (B9_bypass attnAfter attnInv m c main_arg1 (by decide) (by decide) (by decide) (by decide) (by decide) (by decide) (by decide) (by decide) (by decide)),
     (h c _ (mem_uc main_arg2 (by decide))).trans (B9_bypass attnAfter attnInv m c main_arg2 (by decide) (by decide) (by decide) (by decide) (by decide) (by decide) (by decide) (by decide) (by decide)),
     (h c _ (mem_uc main_arg3 (by decide))).trans (B9_bypass attnAfter attnInv m c main_arg3 (by decide) (by decide) (by decide) (by decide) (by decide) (by decide) (by decide) (by decide) (by decide)),
     (h c _ (mem_uc main_arg4 (by decide))).trans (B9_bypass attnAfter attnInv m c main_arg4 (by decide) (by decide) (by decide) (by decide) (by decide) (by decide) (by decide) (by decide) (by decide)),
     (h c _ (mem_uc main_arg5 (by decide))).trans (B9_bypass attnAfter attnInv m c main_arg5 (by decide) (by decide) (by decide) (by decide) (by decide) (by decide) (by decide) (by decide) (by decide)),
     (h c _ (mem_uc main_arg6 (by decide))).trans (B9_bypass attnAfter attnInv m c main_arg6 (by decide) (by decide) (by decide) (by decide) (by decide) (by decide) (by decide) (by decide) (by decide)),
     (h c _ (mem_uc main_arg7 (by decide))).trans (B9_bypass attnAfter attnInv m c main_arg7 (by decide) (by decide) (by decide) (by decide) (by decide) (by decide) (by decide) (by decide) (by decide)),
     (h c _ (mem_uc main_arg8 (by decide))).trans (B9_bypass attnAfter attnInv m c main_arg8 (by decide) (by decide) (by decide) (by decide) (by decide) (by decide) (by decide) (by decide) (by decide)),
     (h c _ (mem_uc main_arg9 (by decide))).trans (B9_bypass attnAfter attnInv m c main_arg9 (by decide) (by decide) (by decide) (by decide) (by decide) (by decide) (by decide) (by decide) (by decide)),
     (h c _ (mem_uc main_arg10 (by decide))).trans (B9_bypass attnAfter attnInv m c main_arg10 (by decide) (by decide) (by decide) (by decide) (by decide) (by decide) (by decide) (by decide) (by decide)),
     (h c _ (mem_uc main_arg11 (by decide))).trans (B9_bypass attnAfter attnInv m c main_arg11 (by decide) (by decide) (by decide) (by decide) (by decide) (by decide) (by decide) (by decide) (by decide))⟩)
    (run_all m ρ)

end Cert.Kernel.Run

end
-- ==== Proof.Lin0.lean ====
/-
  Region 0 of @main: one affine layer, `rows · weights + bias`, tiled over the rows.
  At a grid point the body loads the point's block of rows (window 0), the whole weight matrix (window 1) and the
  bias row (window 2), and stores their affine image over the whole output block (window 3); it also loads the
  output buffer once and drops the value. Everything here is stated at a parameter `V`, the buffer contents when
  the region is entered, and for any float instance: what the output buffer holds after the body, the body's
  triple, the proof data of the pipeline and the body obligation at every grid point.
-/
import proofs.«107387_j24197845746072_1_alg».proof.Proof.Gen.KernelIdeal.Launch
import proofs.«107387_j24197845746072_1_alg».proof.Proof.Gen.KernelIdeal.Skeleton
import proofs.«107387_j24197845746072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index has not moved since it was fetched: rows (window 0). -/
theorem rowsBefore0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The same for the weights (window 1). -/
theorem weightsBefore0_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The same for the bias row (window 2). -/
theorem biasBefore0_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole rectangles the body loads and stores through. -/
abbrev rowsRect0 : Rect S1024x256 := Rect.unit (s := S1024x256) ![0, 0] S1024x256.size inb_S1024x256_S1024x256_0_0
abbrev weightsRect0 : Rect S256x768 := Rect.unit (s := S256x768) ![0, 0] S256x768.size inb_S256x768_S256x768_0_0
abbrev biasRect0 : Rect S1x768 := Rect.unit (s := S1x768) ![0, 0] S1x768.size inb_S1x768_S1x768_0_0
abbrev outRect0 : Rect S1024x768 := Rect.unit (s := S1024x768) ![0, 0] S1024x768.size inb_S1024x768_S1024x768_0_0

/-- What the output buffer holds after the body: the affine image of the three loaded values, stored over the whole
    buffer in one piece. -/
def affineOut0 (x : Vec F S1024x256 .f32) (w : Vec F S256x768 .f32) (b : Vec F S1x768 .f32) : Vec F S1024x768 .f32 :=
  View.canon [⟨outRect0, k0_pay1 (View.ld x rowsRect0) (View.ld w weightsRect0) (View.ld b biasRect0)⟩]

/-- The one store covers the buffer. -/
theorem affineCover0 (p : Vec F S1024x768 .f32) (y : S1024x768.Idx) :
    ∃ pc ∈ ([⟨outRect0, p⟩] : List (View.Piece (Elt F) S1024x768 .f32)), y ∈ pc.1.set :=
  View.cover_of_tiled [⟨outRect0, p⟩] S1024x768.size (by rfl) y

set_option maxHeartbeats 1000000 in
/-- The body on whole staging buffers — the inputs' at contents `x`, `w`, `b`, the output's at anything — runs to the
    continuation with the inputs as they were and the output at `affineOut0 x w b`. -/
theorem affineBody0 (c : Dev nD) (E : Set ℕ) (i : grid0.Coords)
    (arg1 : Memref sig .tc .vmem S1024x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S1024x768 .f32) (harg4 : arg4.IsWhole)
    (x : Vec F S1024x256 .f32) (w : Vec F S256x768 .f32) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (affineOut0 x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (affineCover0 _)

/-- The proof data of the region's pipeline on core `c`: the arrays as the region finds them; after the body at point
    `t` each input buffer at its block and the output buffer at the affine image of the three blocks; the invariant is
    the untouched scoped rest and generator register; nothing owed; full shares. -/
def affineDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => affineOut0 (blk0 V c 0 t) (blk0 V c 1 t) (blk0 V c 2 t)
  Φ _ := Pipeline.ΦA spec0 c
  q _ := fullShare
  owed _ := 0

theorem affineA0 (c : Dev nD) (w : Fin cfg0.W) : (affineDat0 V c).A w = V c (Pipeline.arrRef spec0 w) := by
  dsimp only [affineDat0]
theorem affineAfter0_0 (c : Dev nD) (t : Fin cfg0.N) : (affineDat0 V c).after 0 t = blk0 V c 0 t := by dsimp only [affineDat0]
theorem affineAfter0_1 (c : Dev nD) (t : Fin cfg0.N) : (affineDat0 V c).after 1 t = blk0 V c 1 t := by dsimp only [affineDat0]
theorem affineAfter0_2 (c : Dev nD) (t : Fin cfg0.N) : (affineDat0 V c).after 2 t = blk0 V c 2 t := by dsimp only [affineDat0]
theorem affineAfter0_3 (c : Dev nD) (t : Fin cfg0.N) :
    (affineDat0 V c).after 3 t = affineOut0 (blk0 V c 0 t) (blk0 V c 1 t) (blk0 V c 2 t) := by dsimp only [affineDat0]

theorem affineBefore0_0 (c : Dev nD) (t : Fin cfg0.N) (d) : (affineDat0 V c).before 0 t d = blk0 V c 0 t :=
  rowsBefore0_of V (affineDat0 V c) (affineA0 V c 0) (affineAfter0_0 V c) t d
theorem affineBefore0_1 (c : Dev nD) (t : Fin cfg0.N) (d) : (affineDat0 V c).before 1 t d = blk0 V c 1 t :=
  weightsBefore0_of V (affineDat0 V c) (affineA0 V c 1) (affineAfter0_1 V c) t d
theorem affineBefore0_2 (c : Dev nD) (t : Fin cfg0.N) (d) : (affineDat0 V c).before 2 t d = blk0 V c 2 t :=
  biasBefore0_of V (affineDat0 V c) (affineA0 V c 2) (affineAfter0_2 V c) t d

/-- What the body is called with at point `t`, the windows one by one, -/
def affinePre0 (c : Dev nD) (t : Fin cfg0.N) : sProp 𝕄 :=
  iprop((affineDat0 V c).Φ t.castSucc ∗ (affineDat0 V c).owesAt () t.castSucc
    ∗ (∃ d, owns (c : Thread nD τ) (st0_0 t) fullShare ((affineDat0 V c).before 0 t d))
    ∗ (∃ d, owns (c : Thread nD τ) (st0_1 t) fullShare ((affineDat0 V c).before 1 t d))
    ∗ (∃ d, owns (c : Thread nD τ) (st0_2 t) fullShare ((affineDat0 V c).before 2 t d))
    ∗ (∃ d, owns (c : Thread nD τ) (st0_3 t) fullShare ((affineDat0 V c).before 3 t d)))

/-- and what it returns. -/
def affinePost0 (c : Dev nD) (t : Fin cfg0.N) : sProp 𝕄 :=
  iprop((affineDat0 V c).Φ t.succ ∗ (affineDat0 V c).owesAt () t.succ
    ∗ owns (c : Thread nD τ) (st0_0 t) fullShare ((affineDat0 V c).after 0 t)
    ∗ owns (c : Thread nD τ) (st0_1 t) fullShare ((affineDat0 V c).after 1 t)
    ∗ owns (c : Thread nD τ) (st0_2 t) fullShare ((affineDat0 V c).after 2 t)
    ∗ owns (c : Thread nD τ) (st0_3 t) fullShare ((affineDat0 V c).after 3 t))

/-- The body at any point: the input buffers hold their blocks, so the triple applies; the invariant and the core's
    dues pass through unread. -/
theorem affineAt0 (c : Dev nD) (t : Fin cfg0.N) :
    affinePre0 V c t ⊢ wp frame (wpE (defs₀ (F := F)) Variants.none c none) Set.univ (bodyAt0 t) (fun _ => affinePost0 V c t) := by
  unfold affinePre0 affinePost0 bodyAt0
  simp only [affineBefore0_0, affineBefore0_1, affineBefore0_2]
  rw [show (affineDat0 V c).Φ t.succ = (affineDat0 V c).Φ t.castSucc from rfl,
    show (affineDat0 V c).owesAt () t.succ = (affineDat0 V c).owesAt () t.castSucc from rfl,
    affineAfter0_0, affineAfter0_1, affineAfter0_2, affineAfter0_3]
  iintro ⟨HΦ, Ho, ⟨%d0, H0⟩, ⟨%d1, H1⟩, ⟨%d2, H2⟩, ⟨%d3, H3⟩⟩
  iapply (affineBody0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem affineObligation0 (c : Dev nD) : BodyObligation (affineDat0 (F := F) V c) (defs₀ (F := F)) Variants.none () Set.univ := fun t => by
  rw [bigSep_W0, bigSep_W0]
  exact affineAt0 V c t

end Cert.KernelIdeal.Gen

end
-- ==== Proof.Lin2.lean ====
/-
  Region 2 of @main: one affine layer, `rows · weights + bias`, tiled over the rows.
  At a grid point the body loads the point's block of rows (window 0), the whole weight matrix (window 1) and the
  bias row (window 2), and stores their affine image over the whole output block (window 3); it also loads the
  output buffer once and drops the value. Everything here is stated at a parameter `V`, the buffer contents when
  the region is entered, and for any float instance: what the output buffer holds after the body, the body's
  triple, the proof data of the pipeline and the body obligation at every grid point.
-/
import proofs.«107387_j24197845746072_1_alg».proof.Proof.Gen.KernelIdeal.Launch
import proofs.«107387_j24197845746072_1_alg».proof.Proof.Gen.KernelIdeal.Skeleton
import proofs.«107387_j24197845746072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or the
    block index has not moved since it was fetched: rows (window 0). -/
theorem rowsBefore2_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- The same for the weights (window 1). -/
theorem weightsBefore2_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- The same for the bias row (window 2). -/
theorem biasBefore2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole rectangles the body loads and stores through. -/
abbrev rowsRect2 : Rect S1024x256 := Rect.unit (s := S1024x256) ![0, 0] S1024x256.size inb_S1024x256_S1024x256_0_0
abbrev weightsRect2 : Rect S256x256 := Rect.unit (s := S256x256) ![0, 0] S256x256.size inb_S256x256_S256x256_0_0
abbrev biasRect2 : Rect S1x256 := Rect.unit (s := S1x256) ![0, 0] S1x256.size inb_S1x256_S1x256_0_0
abbrev outRect2 : Rect S1024x256 := Rect.unit (s := S1024x256) ![0, 0] S1024x256.size inb_S1024x256_S1024x256_0_0

/-- What the output buffer holds after the body: the affine image of the three loaded values, stored over the whole
    buffer in one piece. -/
def affineOut2 (x : Vec F S1024x256 .f32) (w : Vec F S256x256 .f32) (b : Vec F S1x256 .f32) : Vec F S1024x256 .f32 :=
  View.canon [⟨outRect2, k2_pay1 (View.ld x rowsRect2) (View.ld w weightsRect2) (View.ld b biasRect2)⟩]

/-- The one store covers the buffer. -/
theorem affineCover2 (p : Vec F S1024x256 .f32) (y : S1024x256.Idx) :
    ∃ pc ∈ ([⟨outRect2, p⟩] : List (View.Piece (Elt F) S1024x256 .f32)), y ∈ pc.1.set :=
  View.cover_of_tiled [⟨outRect2, p⟩] S1024x256.size (by rfl) y

set_option maxHeartbeats 1000000 in
/-- The body on whole staging buffers — the inputs' at contents `x`, `w`, `b`, the output's at anything — runs to the
    continuation with the inputs as they were and the output at `affineOut2 x w b`. -/
theorem affineBody2 (c : Dev nD) (E : Set ℕ) (i : grid2.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x : Vec F S1024x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (affineOut2 x w b)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (affineCover2 _)

/-- The proof data of the region's pipeline on core `c`: the arrays as the region finds them; after the body at point
    `t` each input buffer at its block and the output buffer at the affine image of the three blocks; the invariant is
    the untouched scoped rest and generator register; nothing owed; full shares. -/
def affineDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => affineOut2 (blk2 V c 0 t) (blk2 V c 1 t) (blk2 V c 2 t)
  Φ _ := Pipeline.ΦA spec2 c
  q _ := fullShare
  owed _ := 0

theorem affineA2 (c : Dev nD) (w : Fin cfg2.W) : (affineDat2 V c).A w = V c (Pipeline.arrRef spec2 w) := by
  dsimp only [affineDat2]
theorem affineAfter2_0 (c : Dev nD) (t : Fin cfg2.N) : (affineDat2 V c).after 0 t = blk2 V c 0 t := by dsimp only [affineDat2]
theorem affineAfter2_1 (c : Dev nD) (t : Fin cfg2.N) : (affineDat2 V c).after 1 t = blk2 V c 1 t := by dsimp only [affineDat2]
theorem affineAfter2_2 (c : Dev nD) (t : Fin cfg2.N) : (affineDat2 V c).after 2 t = blk2 V c 2 t := by dsimp only [affineDat2]
theorem affineAfter2_3 (c : Dev nD) (t : Fin cfg2.N) :
    (affineDat2 V c).after 3 t = affineOut2 (blk2 V c 0 t) (blk2 V c 1 t) (blk2 V c 2 t) := by dsimp only [affineDat2]

theorem affineBefore2_0 (c : Dev nD) (t : Fin cfg2.N) (d) : (affineDat2 V c).before 0 t d = blk2 V c 0 t :=
  rowsBefore2_of V (affineDat2 V c) (affineA2 V c 0) (affineAfter2_0 V c) t d
theorem affineBefore2_1 (c : Dev nD) (t : Fin cfg2.N) (d) : (affineDat2 V c).before 1 t d = blk2 V c 1 t :=
  weightsBefore2_of V (affineDat2 V c) (affineA2 V c 1) (affineAfter2_1 V c) t d
theorem affineBefore2_2 (c : Dev nD) (t : Fin cfg2.N) (d) : (affineDat2 V c).before 2 t d = blk2 V c 2 t :=
  biasBefore2_of V (affineDat2 V c) (affineA2 V c 2) (affineAfter2_2 V c) t d

/-- What the body is called with at point `t`, the windows one by one, -/
def affinePre2 (c : Dev nD) (t : Fin cfg2.N) : sProp 𝕄 :=
  iprop((affineDat2 V c).Φ t.castSucc ∗ (affineDat2 V c).owesAt () t.castSucc
    ∗ (∃ d, owns (c : Thread nD τ) (st2_0 t) fullShare ((affineDat2 V c).before 0 t d))
    ∗ (∃ d, owns (c : Thread nD τ) (st2_1 t) fullShare ((affineDat2 V c).before 1 t d))
    ∗ (∃ d, owns (c : Thread nD τ) (st2_2 t) fullShare ((affineDat2 V c).before 2 t d))
    ∗ (∃ d, owns (c : Thread nD τ) (st2_3 t) fullShare ((affineDat2 V c).before 3 t d)))

/-- and what it returns. -/
def affinePost2 (c : Dev nD) (t : Fin cfg2.N) : sProp 𝕄 :=
  iprop((affineDat2 V c).Φ t.succ ∗ (affineDat2 V c).owesAt () t.succ
    ∗ owns (c : Thread nD τ) (st2_0 t) fullShare ((affineDat2 V c).after 0 t)
    ∗ owns (c : Thread nD τ) (st2_1 t) fullShare ((affineDat2 V c).after 1 t)
    ∗ owns (c : Thread nD τ) (st2_2 t) fullShare ((affineDat2 V c).after 2 t)
    ∗ owns (c : Thread nD τ) (st2_3 t) fullShare ((affineDat2 V c).after 3 t))

/-- The body at any point: the input buffers hold their blocks, so the triple applies; the invariant and the core's
    dues pass through unread. -/
theorem affineAt2 (c : Dev nD) (t : Fin cfg2.N) :
    affinePre2 V c t ⊢ wp frame (wpE (defs₀ (F := F)) Variants.none c none) Set.univ (bodyAt2 t) (fun _ => affinePost2 V c t) := by
  unfold affinePre2 affinePost2 bodyAt2
  simp only [affineBefore2_0, affineBefore2_1, affineBefore2_2]
  rw [show (affineDat2 V c).Φ t.succ = (affineDat2 V c).Φ t.castSucc from rfl,
    show (affineDat2 V c).owesAt () t.succ = (affineDat2 V c).owesAt () t.castSucc from rfl,
    affineAfter2_0, affineAfter2_1, affineAfter2_2, affineAfter2_3]
  iintro ⟨HΦ, Ho, ⟨%d0, H0⟩, ⟨%d1, H1⟩, ⟨%d2, H2⟩, ⟨%d3, H3⟩⟩
  iapply (affineBody2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem affineObligation2 (c : Dev nD) : BodyObligation (affineDat2 (F := F) V c) (defs₀ (F := F)) Variants.none () Set.univ := fun t => by
  rw [bigSep_W2, bigSep_W2]
  exact affineAt2 V c t

end Cert.KernelIdeal.Gen

end
-- ==== Proof.Lin3.lean ====
/-
  Region 3 of @main: one affine layer, `rows · weights + bias`, tiled over the rows.
  At a grid point the body loads the point's block of rows (window 0), the whole weight matrix (window 1) and the
  bias row (window 2), and stores their affine image over the whole output block (window 3); it also loads the
  output buffer once and drops the value. Everything here is stated at a parameter `V`, the buffer contents when
  the region is entered, and for any float instance: what the output buffer holds after the body, the body's
  triple, the proof data of the pipeline and the body obligation at every grid point.
-/
import proofs.«107387_j24197845746072_1_alg».proof.Proof.Gen.KernelIdeal.Launch
import proofs.«107387_j24197845746072_1_alg».proof.Proof.Gen.KernelIdeal.Skeleton
import proofs.«107387_j24197845746072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or the
    block index has not moved since it was fetched: rows (window 0). -/
theorem rowsBefore3_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
/-- The same for the weights (window 1). -/
theorem weightsBefore3_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
/-- The same for the bias row (window 2). -/
theorem biasBefore3_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole rectangles the body loads and stores through. -/
abbrev rowsRect3 : Rect S128x256 := Rect.unit (s := S128x256) ![0, 0] S128x256.size inb_S128x256_S128x256_0_0
abbrev weightsRect3 : Rect S256x256 := Rect.unit (s := S256x256) ![0, 0] S256x256.size inb_S256x256_S256x256_0_0
abbrev biasRect3 : Rect S1x256 := Rect.unit (s := S1x256) ![0, 0] S1x256.size inb_S1x256_S1x256_0_0
abbrev outRect3 : Rect S128x256 := Rect.unit (s := S128x256) ![0, 0] S128x256.size inb_S128x256_S128x256_0_0

/-- What the output buffer holds after the body: the affine image of the three loaded values, stored over the whole
    buffer in one piece. -/
def affineOut3 (x : Vec F S128x256 .f32) (w : Vec F S256x256 .f32) (b : Vec F S1x256 .f32) : Vec F S128x256 .f32 :=
  View.canon [⟨outRect3, k3_pay1 (View.ld x rowsRect3) (View.ld w weightsRect3) (View.ld b biasRect3)⟩]

/-- The one store covers the buffer. -/
theorem affineCover3 (p : Vec F S128x256 .f32) (y : S128x256.Idx) :
    ∃ pc ∈ ([⟨outRect3, p⟩] : List (View.Piece (Elt F) S128x256 .f32)), y ∈ pc.1.set :=
  View.cover_of_tiled [⟨outRect3, p⟩] S128x256.size (by rfl) y

set_option maxHeartbeats 1000000 in
/-- The body on whole staging buffers — the inputs' at contents `x`, `w`, `b`, the output's at anything — runs to the
    continuation with the inputs as they were and the output at `affineOut3 x w b`. -/
theorem affineBody3 (c : Dev nD) (E : Set ℕ) (i : grid3.Coords)
    (arg1 : Memref sig .tc .vmem S128x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S128x256 .f32) (harg4 : arg4.IsWhole)
    (x : Vec F S128x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (affineOut3 x w b)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (affineCover3 _)

/-- The proof data of the region's pipeline on core `c`: the arrays as the region finds them; after the body at point
    `t` each input buffer at its block and the output buffer at the affine image of the three blocks; the invariant is
    the untouched scoped rest and generator register; nothing owed; full shares. -/
def affineDat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => affineOut3 (blk3 V c 0 t) (blk3 V c 1 t) (blk3 V c 2 t)
  Φ _ := Pipeline.ΦA spec3 c
  q _ := fullShare
  owed _ := 0

theorem affineA3 (c : Dev nD) (w : Fin cfg3.W) : (affineDat3 V c).A w = V c (Pipeline.arrRef spec3 w) := by
  dsimp only [affineDat3]
theorem affineAfter3_0 (c : Dev nD) (t : Fin cfg3.N) : (affineDat3 V c).after 0 t = blk3 V c 0 t := by dsimp only [affineDat3]
theorem affineAfter3_1 (c : Dev nD) (t : Fin cfg3.N) : (affineDat3 V c).after 1 t = blk3 V c 1 t := by dsimp only [affineDat3]
theorem affineAfter3_2 (c : Dev nD) (t : Fin cfg3.N) : (affineDat3 V c).after 2 t = blk3 V c 2 t := by dsimp only [affineDat3]
theorem affineAfter3_3 (c : Dev nD) (t : Fin cfg3.N) :
    (affineDat3 V c).after 3 t = affineOut3 (blk3 V c 0 t) (blk3 V c 1 t) (blk3 V c 2 t) := by dsimp only [affineDat3]

theorem affineBefore3_0 (c : Dev nD) (t : Fin cfg3.N) (d) : (affineDat3 V c).before 0 t d = blk3 V c 0 t :=
  rowsBefore3_of V (affineDat3 V c) (affineA3 V c 0) (affineAfter3_0 V c) t d
theorem affineBefore3_1 (c : Dev nD) (t : Fin cfg3.N) (d) : (affineDat3 V c).before 1 t d = blk3 V c 1 t :=
  weightsBefore3_of V (affineDat3 V c) (affineA3 V c 1) (affineAfter3_1 V c) t d
theorem affineBefore3_2 (c : Dev nD) (t : Fin cfg3.N) (d) : (affineDat3 V c).before 2 t d = blk3 V c 2 t :=
  biasBefore3_of V (affineDat3 V c) (affineA3 V c 2) (affineAfter3_2 V c) t d

/-- What the body is called with at point `t`, the windows one by one, -/
def affinePre3 (c : Dev nD) (t : Fin cfg3.N) : sProp 𝕄 :=
  iprop((affineDat3 V c).Φ t.castSucc ∗ (affineDat3 V c).owesAt () t.castSucc
    ∗ (∃ d, owns (c : Thread nD τ) (st3_0 t) fullShare ((affineDat3 V c).before 0 t d))
    ∗ (∃ d, owns (c : Thread nD τ) (st3_1 t) fullShare ((affineDat3 V c).before 1 t d))
    ∗ (∃ d, owns (c : Thread nD τ) (st3_2 t) fullShare ((affineDat3 V c).before 2 t d))
    ∗ (∃ d, owns (c : Thread nD τ) (st3_3 t) fullShare ((affineDat3 V c).before 3 t d)))

/-- and what it returns. -/
def affinePost3 (c : Dev nD) (t : Fin cfg3.N) : sProp 𝕄 :=
  iprop((affineDat3 V c).Φ t.succ ∗ (affineDat3 V c).owesAt () t.succ
    ∗ owns (c : Thread nD τ) (st3_0 t) fullShare ((affineDat3 V c).after 0 t)
    ∗ owns (c : Thread nD τ) (st3_1 t) fullShare ((affineDat3 V c).after 1 t)
    ∗ owns (c : Thread nD τ) (st3_2 t) fullShare ((affineDat3 V c).after 2 t)
    ∗ owns (c : Thread nD τ) (st3_3 t) fullShare ((affineDat3 V c).after 3 t))

/-- The body at any point: the input buffers hold their blocks, so the triple applies; the invariant and the core's
    dues pass through unread. -/
theorem affineAt3 (c : Dev nD) (t : Fin cfg3.N) :
    affinePre3 V c t ⊢ wp frame (wpE (defs₀ (F := F)) Variants.none c none) Set.univ (bodyAt3 t) (fun _ => affinePost3 V c t) := by
  unfold affinePre3 affinePost3 bodyAt3
  simp only [affineBefore3_0, affineBefore3_1, affineBefore3_2]
  rw [show (affineDat3 V c).Φ t.succ = (affineDat3 V c).Φ t.castSucc from rfl,
    show (affineDat3 V c).owesAt () t.succ = (affineDat3 V c).owesAt () t.castSucc from rfl,
    affineAfter3_0, affineAfter3_1, affineAfter3_2, affineAfter3_3]
  iintro ⟨HΦ, Ho, ⟨%d0, H0⟩, ⟨%d1, H1⟩, ⟨%d2, H2⟩, ⟨%d3, H3⟩⟩
  iapply (affineBody3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem affineObligation3 (c : Dev nD) : BodyObligation (affineDat3 (F := F) V c) (defs₀ (F := F)) Variants.none () Set.univ := fun t => by
  rw [bigSep_W3, bigSep_W3]
  exact affineAt3 V c t

end Cert.KernelIdeal.Gen

end
-- ==== Proof.Run.lean ====
/-
  The run of @main: five stretches of host operations with the four kernel regions between them, from the launch to
  the return, for any float instance. The buffer contents at each of the ten boundaries are a fold from the launch
  memory: a host stretch applies its operations; a region leaves its arrays at what its pipeline's write-backs make
  of them and every other buffer as it was. Each region is a segment over the thread state "every unscoped buffer at
  the boundary's contents, the generator register at some state, nothing owed". The conclusion: every weakly fair
  execution terminates without a fault and the final memory holds every unscoped buffer at the last boundary's
  contents — from which both the frame (no item writes an argument) and the result's value are read.
  The three affine layers' halves are Lin0 / Lin2 / Lin3. The attention region's half enters as a parameter: what its
  body leaves in each staging buffer (`aft`) and its invariant (`Phi`), with the body obligation and the two
  entailments between that invariant and the plain one at the first and after the last grid point.
-/
import proofs.«107387_j24197845746072_1_alg».proof.Proof.Gen.KernelIdeal.Regions
import proofs.«107387_j24197845746072_1_alg».proof.Proof.Lin0
import proofs.«107387_j24197845746072_1_alg».proof.Proof.Lin2
import proofs.«107387_j24197845746072_1_alg».proof.Proof.Lin3

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The attention region's half, as parameters -/

variable (aft : ((c : Dev nD) → (b : Ref sig .tc) → Buf (Elt F) ((c : Thread nD τ).loc b)) → (c : Dev nD) → (w : Fin cfg1.W) → Fin cfg1.N → (cfg1.win w).block.Idx → Elt F (cfg1.win w).elt)
  (Phi : ((c : Dev nD) → (b : Ref sig .tc) → Buf (Elt F) ((c : Thread nD τ).loc b)) → (c : Dev nD) → Fin (cfg1.N + 1) → sProp (MT nD τ sig Unit (Elt F) ℕ (UR sig nD τ) ℕ))

/-- The attention region's proof data at entry contents `V`: the arrays as found, full shares, nothing owed; what
    the body leaves and the invariant are the parameters. -/
def attnDat (V : ((c : Dev nD) → (b : Ref sig .tc) → Buf (Elt F) ((c : Thread nD τ).loc b))) (c : Dev nD) : Dat τ (Elt F) Unit ℕ (UR sig nD τ) ℕ cfg1 c where
  A w := V c (Pipeline.arrRef spec1 w)
  after := aft V c
  Φ := Phi V c
  q _ := fullShare
  owed _ := 0

variable (m : (ℓ : Loc nD τ sig) → Buf (Elt F) ℓ)

/-! ## The buffer contents at the ten boundaries -/

/-- At launch. -/
abbrev B0 : Dev nD → Valuation τ sig (Elt F) := fun c b => m (c, b)
/-- After the first host stretch: region 0's entry. -/
abbrev B1 : Dev nD → Valuation τ sig (Elt F) := fun c => StableHlo.after hostOps0 (B0 m c)
abbrev In1 : ((c : Dev nD) → (b : Ref sig .tc) → Buf (Elt F) ((c : Thread nD τ).loc b)) := fun c b => B1 m c b

/-- At region 0's exit: its arrays at what the pipeline leaves (an input as entered, the output at its write-backs
    folded), every other buffer as entered. -/
def B2 (c : Dev nD) : Valuation τ sig (Elt F) :=
  Pipeline.withArrays spec0 c (B1 m c) fun w => (affineDat0 (In1 m) c).arrAt w cfg0.N
theorem B2_arr (c : Dev nD) (w : Fin cfg0.W) :
    B2 m c (Proc.devRef .tc (Pipeline.arrRef spec0 w)) = (affineDat0 (In1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev Out2 : ((c : Dev nD) → (b : Ref sig .tc) → Buf (Elt F) ((c : Thread nD τ).loc b)) := fun c b => B2 m c b
theorem left0 (c : Dev nD) (w : Fin cfg0.W) : (affineDat0 (In1 m) c).arrAt w cfg0.N = Out2 m c (Pipeline.arrRef spec0 w) :=
  (B2_arr m c w).symm
theorem kept0 (c : Dev nD) : ∀ b, b ∉ Finset.univ.image (Pipeline.arrRef spec0) → Out2 m c b = In1 m c b :=
  fun b hb => B2_of_ne m c b fun w e => hb (Finset.mem_image.mpr ⟨w, Finset.mem_univ _, e⟩)

/-- After the host stretch that follows it. -/
abbrev B3 : Dev nD → Valuation τ sig (Elt F) := fun c => StableHlo.after hostOps1 (B2 m c)
/-- The same read at the TensorCore's references. -/
abbrev In3 : ((c : Dev nD) → (b : Ref sig .tc) → Buf (Elt F) ((c : Thread nD τ).loc b)) := fun c b => B3 m c b

/-- At region 1's exit: its arrays at what the pipeline leaves (an input as entered, the output at its write-backs
    folded), every other buffer as entered. -/
def B4 (c : Dev nD) : Valuation τ sig (Elt F) :=
  Pipeline.withArrays spec1 c (B3 m c) fun w => (attnDat aft Phi (In3 m) c).arrAt w cfg1.N
theorem B4_arr (c : Dev nD) (w : Fin cfg1.W) :
    B4 aft Phi m c (Proc.devRef .tc (Pipeline.arrRef spec1 w)) = (attnDat aft Phi (In3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 aft Phi m c (Proc.devRef .tc b) = B3 m c (Proc.devRef .tc b) := by
  unfold B4; exact Pipeline.withArrays_of_ne spec1 c _ _ b hb
/-- The same read at the TensorCore's references. -/
abbrev Out4 : ((c : Dev nD) → (b : Ref sig .tc) → Buf (Elt F) ((c : Thread nD τ).loc b)) := fun c b => B4 aft Phi m c b
theorem left1 (c : Dev nD) (w : Fin cfg1.W) : (attnDat aft Phi (In3 m) c).arrAt w cfg1.N = Out4 aft Phi m c (Pipeline.arrRef spec1 w) :=
  (B4_arr aft Phi m c w).symm
theorem kept1 (c : Dev nD) : ∀ b, b ∉ Finset.univ.image (Pipeline.arrRef spec1) → Out4 aft Phi m c b = In3 m c b :=
  fun b hb => B4_of_ne aft Phi m c b fun w e => hb (Finset.mem_image.mpr ⟨w, Finset.mem_univ _, e⟩)

/-- After the host stretch that follows it. -/
abbrev B5 : Dev nD → Valuation τ sig (Elt F) := fun c => StableHlo.after hostOps2 (B4 aft Phi m c)
/-- The same read at the TensorCore's references. -/
abbrev In5 : ((c : Dev nD) → (b : Ref sig .tc) → Buf (Elt F) ((c : Thread nD τ).loc b)) := fun c b => B5 aft Phi m c b

/-- At region 2's exit: its arrays at what the pipeline leaves (an input as entered, the output at its write-backs
    folded), every other buffer as entered. -/
def B6 (c : Dev nD) : Valuation τ sig (Elt F) :=
  Pipeline.withArrays spec2 c (B5 aft Phi m c) fun w => (affineDat2 (In5 aft Phi m) c).arrAt w cfg2.N
theorem B6_arr (c : Dev nD) (w : Fin cfg2.W) :
    B6 aft Phi m c (Proc.devRef .tc (Pipeline.arrRef spec2 w)) = (affineDat2 (In5 aft Phi m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 aft Phi m c (Proc.devRef .tc b) = B5 aft Phi m c (Proc.devRef .tc b) := by
  unfold B6; exact Pipeline.withArrays_of_ne spec2 c _ _ b hb
/-- The same read at the TensorCore's references. -/
abbrev Out6 : ((c : Dev nD) → (b : Ref sig .tc) → Buf (Elt F) ((c : Thread nD τ).loc b)) := fun c b => B6 aft Phi m c b
theorem left2 (c : Dev nD) (w : Fin cfg2.W) : (affineDat2 (In5 aft Phi m) c).arrAt w cfg2.N = Out6 aft Phi m c (Pipeline.arrRef spec2 w) :=
  (B6_arr aft Phi m c w).symm
theorem kept2 (c : Dev nD) : ∀ b, b ∉ Finset.univ.image (Pipeline.arrRef spec2) → Out6 aft Phi m c b = In5 aft Phi m c b :=
  fun b hb => B6_of_ne aft Phi m c b fun w e => hb (Finset.mem_image.mpr ⟨w, Finset.mem_univ _, e⟩)

/-- After the host stretch that follows it. -/
abbrev B7 : Dev nD → Valuation τ sig (Elt F) := fun c => StableHlo.after hostOps3 (B6 aft Phi m c)
/-- The same read at the TensorCore's references. -/
abbrev In7 : ((c : Dev nD) → (b : Ref sig .tc) → Buf (Elt F) ((c : Thread nD τ).loc b)) := fun c b => B7 aft Phi m c b

/-- At region 3's exit: its arrays at what the pipeline leaves (an input as entered, the output at its write-backs
    folded), every other buffer as entered. -/
def B8 (c : Dev nD) : Valuation τ sig (Elt F) :=
  Pipeline.withArrays spec3 c (B7 aft Phi m c) fun w => (affineDat3 (In7 aft Phi m) c).arrAt w cfg3.N
theorem B8_arr (c : Dev nD) (w : Fin cfg3.W) :
    B8 aft Phi m c (Proc.devRef .tc (Pipeline.arrRef spec3 w)) = (affineDat3 (In7 aft Phi m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 aft Phi m c (Proc.devRef .tc b) = B7 aft Phi m c (Proc.devRef .tc b) := by
  unfold B8; exact Pipeline.withArrays_of_ne spec3 c _ _ b hb
/-- The same read at the TensorCore's references. -/
abbrev Out8 : ((c : Dev nD) → (b : Ref sig .tc) → Buf (Elt F) ((c : Thread nD τ).loc b)) := fun c b => B8 aft Phi m c b
theorem left3 (c : Dev nD) (w : Fin cfg3.W) : (affineDat3 (In7 aft Phi m) c).arrAt w cfg3.N = Out8 aft Phi m c (Pipeline.arrRef spec3 w) :=
  (B8_arr aft Phi m c w).symm
theorem kept3 (c : Dev nD) : ∀ b, b ∉ Finset.univ.image (Pipeline.arrRef spec3) → Out8 aft Phi m c b = In7 aft Phi m c b :=
  fun b hb => B8_of_ne aft Phi m c b fun w e => hb (Finset.mem_image.mpr ⟨w, Finset.mem_univ _, e⟩)

/-- After the host stretch that follows it. -/
abbrev B9 : Dev nD → Valuation τ sig (Elt F) := fun c => StableHlo.after hostOps4 (B8 aft Phi m c)
/-- The same read at the TensorCore's references. -/
abbrev In9 : ((c : Dev nD) → (b : Ref sig .tc) → Buf (Elt F) ((c : Thread nD τ).loc b)) := fun c b => B9 aft Phi m c b

/-! ## A buffer no item writes ends as launched -/

/-- A buffer that no host stretch writes and that is no array of any region holds its launch contents at the end. -/
theorem B9_bypass (c : Dev nD) (r : Ref sig .tc)
    (h0 : r ∉ (hostOps0_W : List (Ref sig .tc))) (h1 : r ∉ (hostOps1_W : List (Ref sig .tc))) (h2 : r ∉ (hostOps2_W : List (Ref sig .tc)))
    (h3 : r ∉ (hostOps3_W : List (Ref sig .tc))) (h4 : r ∉ (hostOps4_W : List (Ref sig .tc)))
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    B9 aft Phi m c (Proc.devRef .tc r) = m ((c : Thread nD τ).loc r) :=
  calc B9 aft Phi m c (Proc.devRef .tc r)
    _ = B8 aft Phi m c (Proc.devRef .tc r) := StableHlo.after_of_writes_sub hostOps4 _ hostOps4_writes h4
    _ = B7 aft Phi m c (Proc.devRef .tc r) := B8_of_ne aft Phi m c r a3
    _ = B6 aft Phi m c (Proc.devRef .tc r) := StableHlo.after_of_writes_sub hostOps3 _ hostOps3_writes h3
    _ = B5 aft Phi m c (Proc.devRef .tc r) := B6_of_ne aft Phi m c r a2
    _ = B4 aft Phi m c (Proc.devRef .tc r) := StableHlo.after_of_writes_sub hostOps2 _ hostOps2_writes h2
    _ = B3 m c (Proc.devRef .tc r) := B4_of_ne aft Phi m c r a1
    _ = B2 m c (Proc.devRef .tc r) := StableHlo.after_of_writes_sub hostOps1 _ hostOps1_writes h1
    _ = B1 m c (Proc.devRef .tc r) := B2_of_ne m c r a0
    _ = B0 m c (Proc.devRef .tc r) := StableHlo.after_of_writes_sub hostOps0 _ hostOps0_writes h0
    _ = m ((c : Thread nD τ).loc r) := rfl

/-- The rows argument is region 0's first input array: the region leaves it as entered, and nothing else writes it. -/
theorem B9_main_arg0 (c : Dev nD) : B9 aft Phi m c (Proc.devRef .tc main_arg0) = m ((c : Thread nD τ).loc main_arg0) :=
  calc B9 aft Phi m c (Proc.devRef .tc main_arg0)
    _ = B8 aft Phi m c (Proc.devRef .tc main_arg0) := StableHlo.after_of_writes_sub hostOps4 _ hostOps4_writes (by decide)
    _ = B7 aft Phi m c (Proc.devRef .tc main_arg0) := B8_of_ne aft Phi m c main_arg0 (by decide)
    _ = B6 aft Phi m c (Proc.devRef .tc main_arg0) := StableHlo.after_of_writes_sub hostOps3 _ hostOps3_writes (by decide)
    _ = B5 aft Phi m c (Proc.devRef .tc main_arg0) := B6_of_ne aft Phi m c main_arg0 (by decide)
    _ = B4 aft Phi m c (Proc.devRef .tc main_arg0) := StableHlo.after_of_writes_sub hostOps2 _ hostOps2_writes (by decide)
    _ = B3 m c (Proc.devRef .tc main_arg0) := B4_of_ne aft Phi m c main_arg0 (by decide)
    _ = B2 m c (Proc.devRef .tc main_arg0) := StableHlo.after_of_writes_sub hostOps1 _ hostOps1_writes (by decide)
    _ = B1 m c (Proc.devRef .tc main_arg0) := (B2_arr m c 0).trans (((affineDat0 (In1 m) c).arrAt_in 0 rfl _).trans (affineA0 (In1 m) c 0))
    _ = B0 m c (Proc.devRef .tc main_arg0) := StableHlo.after_of_writes_sub hostOps0 _ hostOps0_writes (by decide)
    _ = m ((c : Thread nD τ).loc main_arg0) := rfl

/-! ## The proof data family and the thread state -/

/-- Every pipeline's proof data, each at its region's entry contents: a literal match on the pipeline. -/
def pdats : (p : Fin 4) → (c : Dev nD) → Dat τ (Elt F) Unit ℕ (UR sig nD τ) ℕ (Pipeline.pin (pcfgs (F := F)) adm p) c
  | ⟨0, _⟩ => fun c => affineDat0 (In1 m) c
  | ⟨1, _⟩ => fun c => attnDat aft Phi (In3 m) c
  | ⟨2, _⟩ => fun c => affineDat2 (In5 aft Phi m) c
  | ⟨3, _⟩ => fun c => affineDat3 (In7 aft Phi m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

variable (attnObl : ∀ (V : ((c : Dev nD) → (b : Ref sig .tc) → Buf (Elt F) ((c : Thread nD τ).loc b))) (c : Dev nD), BodyObligation (attnDat aft Phi V c) (defs₀ (F := F)) Variants.none () Set.univ)
  (attnIn : ∀ (V : ((c : Dev nD) → (b : Ref sig .tc) → Buf (Elt F) ((c : Thread nD τ).loc b))) (c : Dev nD), (Pipeline.ΦA spec1 c : sProp (MT nD τ sig Unit (Elt F) ℕ (UR sig nD τ) ℕ)) ⊢ Phi V c 0)
  (attnOut : ∀ (V : ((c : Dev nD) → (b : Ref sig .tc) → Buf (Elt F) ((c : Thread nD τ).loc b))) (c : Dev nD), Phi V c (Fin.last cfg1.N) ⊢ (Pipeline.ΦA spec1 c : sProp (MT nD τ sig Unit (Elt F) ℕ (UR sig nD τ) ℕ)))

set_option backward.isDefEq.respectTransparency.types false in
/-- Region 0 as a segment: entered with every unscoped buffer at the contents of boundary 1, left with them at
    those of boundary 2. Its arrays are split out of the unscoped buffers at entry and put back at what the
    pipeline's write-backs leave; the generator register enters the pipeline's invariant and comes back; the core owes
    nothing before or after; the kernel has no semaphore of its own. -/
def region0 : Pipeline.RegionSeg (pcfgs (F := F)) adm (pdats aft Phi m) () defs₀ 𝒱₀ L lv 0 where
  win := launch0.win.to₀
  block_pos := launch0.block_pos
  stage_whole := launch0.stage_whole
  K := PEmpty
  osem k := k.elim
  ho := Pipeline.OwnSemFacts.none _
  hbody c := (affineObligation0 (In1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (In1 m c)
  hentry c := by
    rw [Pipeline.ownSems0_none]
    have hsplit := Pipeline.arrays_of_unscopedBufs (p := 0) (pcfgs (F := F)) adm (pdats aft Phi m) launch0.win launch0.arr_whole c
      ((pdats aft Phi m 0 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft Phi m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats aft Phi m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats aft Phi m) ((pdats aft Phi m 0 c).share_full fun _ => rfl)
      (In1 m c) (Out2 m c) ((pdats aft Phi m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents of boundary 3, left with them at
    those of boundary 4. Its arrays are split out of the unscoped buffers at entry and put back at what the
    pipeline's write-backs leave; the generator register enters the pipeline's invariant and comes back; the core owes
    nothing before or after; the kernel has no semaphore of its own. -/
def region1 : Pipeline.RegionSeg (pcfgs (F := F)) adm (pdats aft Phi m) () defs₀ 𝒱₀ L lv 1 where
  win := launch1.win.to₀
  block_pos := launch1.block_pos
  stage_whole := launch1.stage_whole
  K := PEmpty
  osem k := k.elim
  ho := Pipeline.OwnSemFacts.none _
  hbody c := (attnObl (In3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 aft Phi m c) ∗ R c)
  X c := iprop(∃ r, prngReg c r)
  Y c := iprop(∃ r, prngReg c r)
  Z c := Pipeline.unscopedRest (Ix := Unit) (Name := ℕ) (U := UR sig nD τ) (Lvl := ℕ) spec1 c (In3 m c)
  hentry c := by
    rw [Pipeline.ownSems0_none]
    have hsplit := Pipeline.arrays_of_unscopedBufs (p := 1) (pcfgs (F := F)) adm (pdats aft Phi m) launch1.win launch1.arr_whole c
      ((pdats aft Phi m 1 c).share_full fun _ => rfl) (In3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 1).pre c (fun _ => fullShare) (adm 1).1 ∗ Pipeline.scopedRest spec1 c) ⊢ Pipeline.ΦA spec1 c from ?_).trans (attnIn _ c)
    unfold Pipeline.ΦA
    iintro ⟨Hp, -, Hr⟩
    isplitl [Hr]; · iexact Hr
    iexact Hp
  hout c := by
    rw [Pipeline.ownSems0_none]
    refine (attnOut _ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats aft Phi m) ((pdats aft Phi m 1 c).share_full fun _ => rfl)
      (In3 m c) (Out4 aft Phi m c) ((pdats aft Phi m 1 c).arrAt · cfg1.N) (left1 aft Phi m c) (kept1 aft Phi m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents of boundary 5, left with them at
    those of boundary 6. Its arrays are split out of the unscoped buffers at entry and put back at what the
    pipeline's write-backs leave; the generator register enters the pipeline's invariant and comes back; the core owes
    nothing before or after; the kernel has no semaphore of its own. -/
def region2 : Pipeline.RegionSeg (pcfgs (F := F)) adm (pdats aft Phi m) () defs₀ 𝒱₀ L lv 2 where
  win := launch2.win.to₀
  block_pos := launch2.block_pos
  stage_whole := launch2.stage_whole
  K := PEmpty
  osem k := k.elim
  ho := Pipeline.OwnSemFacts.none _
  hbody c := (affineObligation2 (In5 aft Phi m) c).loose
  hwaits := Pipeline.hwaits_of_owed_zero _ _ _ _ L lv 2 fun _ _ => rfl
  pre c := iprop(StableHlo.held (c : Thread nD τ) (Pipeline.ucRefs τ sig) (B5 aft Phi m c) ∗ R c)
  post c := iprop(StableHlo.held (c : Thread nD τ) (Pipeline.ucRefs τ sig) (B6 aft Phi m c) ∗ R c)
  X c := iprop(∃ r, prngReg c r)
  Y c := iprop(∃ r, prngReg c r)
  Z c := Pipeline.unscopedRest (Ix := Unit) (Name := ℕ) (U := UR sig nD τ) (Lvl := ℕ) spec2 c (In5 aft Phi m c)
  hentry c := by
    rw [Pipeline.ownSems0_none]
    have hsplit := Pipeline.arrays_of_unscopedBufs (p := 2) (pcfgs (F := F)) adm (pdats aft Phi m) launch2.win launch2.arr_whole c
      ((pdats aft Phi m 2 c).share_full fun _ => rfl) (In5 aft Phi m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft Phi m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats aft Phi m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats aft Phi m) ((pdats aft Phi m 2 c).share_full fun _ => rfl)
      (In5 aft Phi m c) (Out6 aft Phi m c) ((pdats aft Phi m 2 c).arrAt · cfg2.N) (left2 aft Phi m c) (kept2 aft Phi m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents of boundary 7, left with them at
    those of boundary 8. Its arrays are split out of the unscoped buffers at entry and put back at what the
    pipeline's write-backs leave; the generator register enters the pipeline's invariant and comes back; the core owes
    nothing before or after; the kernel has no semaphore of its own. -/
def region3 : Pipeline.RegionSeg (pcfgs (F := F)) adm (pdats aft Phi m) () defs₀ 𝒱₀ L lv 3 where
  win := launch3.win.to₀
  block_pos := launch3.block_pos
  stage_whole := launch3.stage_whole
  K := PEmpty
  osem k := k.elim
  ho := Pipeline.OwnSemFacts.none _
  hbody c := (affineObligation3 (In7 aft Phi m) c).loose
  hwaits := Pipeline.hwaits_of_owed_zero _ _ _ _ L lv 3 fun _ _ => rfl
  pre c := iprop(StableHlo.held (c : Thread nD τ) (Pipeline.ucRefs τ sig) (B7 aft Phi m c) ∗ R c)
  post c := iprop(StableHlo.held (c : Thread nD τ) (Pipeline.ucRefs τ sig) (B8 aft Phi m c) ∗ R c)
  X c := iprop(∃ r, prngReg c r)
  Y c := iprop(∃ r, prngReg c r)
  Z c := Pipeline.unscopedRest (Ix := Unit) (Name := ℕ) (U := UR sig nD τ) (Lvl := ℕ) spec3 c (In7 aft Phi m c)
  hentry c := by
    rw [Pipeline.ownSems0_none]
    have hsplit := Pipeline.arrays_of_unscopedBufs (p := 3) (pcfgs (F := F)) adm (pdats aft Phi m) launch3.win launch3.arr_whole c
      ((pdats aft Phi m 3 c).share_full fun _ => rfl) (In7 aft Phi m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft Phi m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats aft Phi m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats aft Phi m) ((pdats aft Phi m 3 c).share_full fun _ => rfl)
      (In7 aft Phi m c) (Out8 aft Phi m c) ((pdats aft Phi m 3 c).arrAt · cfg3.N) (left3 aft Phi m c) (kept3 aft Phi m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats aft Phi m) () defs₀ 𝒱₀ L lv) :=
  [ .host (hostSeg hostOps0 hostOps0_sub hostOps0_fresh (B0 m)),
    .region (region0 aft Phi m),
    .host (hostSeg hostOps1 hostOps1_sub hostOps1_fresh (B2 m)),
    .region (region1 aft Phi m attnObl attnIn attnOut),
    .host (hostSeg hostOps2 hostOps2_sub hostOps2_fresh (B4 aft Phi m)),
    .region (region2 aft Phi m),
    .host (hostSeg hostOps3 hostOps3_sub hostOps3_fresh (B6 aft Phi m)),
    .region (region3 aft Phi m),
    .host (hostSeg hostOps4 hostOps4_sub hostOps4_fresh (B8 aft Phi m)) ]

/-- @main is the run of the segments. -/
theorem main_run (c : Dev nD) : main (F := F) c = Pipeline.Seg.run (segs aft Phi m attnObl attnIn attnOut) :=
  (main_chain c).trans (by chain_rfl)

include attnObl attnIn attnOut in
set_option backward.isDefEq.respectTransparency.types false in
/-- THE RUN. At the compiled mesh, from any memory with zero counters, every weakly fair execution of @main on the
    TensorCores terminates, nothing faulting, and the final memory holds every unscoped buffer at the last boundary's
    contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B9 aft Phi m c b) :=
  Pipeline.θ_run_regions_kit (pcfgs (F := F)) adm (pdats aft Phi m) () cellOf_inj emb₁ defs₀ 𝒱₀ L lv m ρ main
    (segs aft Phi m attnObl attnIn attnOut)
    (fun c Q => by rw [main_run aft Phi m attnObl attnIn attnOut c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B9 aft Phi m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (B9 aft Phi m c) ∗ R c)
          ⊢ iprop((StableHlo.held (c : Thread nD τ) (Pipeline.ucRefs τ sig) (B9 aft Phi m c) ∗ ∃ r, prngReg c r)
              ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 aft Phi m c b)
    (hfin := fun c s' => by
      iintro ⟨⟨Hh, -⟩, HSI⟩
      unfold StableHlo.held
      imodintro
      iapply (pointsTo_read_all (Pipeline.ucRefs τ sig) (fun b => (((c : Thread nD τ)).1, b)) (B9 aft Phi m c) s')
      isplitl [Hh] <;> iassumption)
    (hQ := fun s h c => h c)

end Cert.KernelIdeal.Run

end
-- ==== Proof.AttnShared.lean ====
import proofs.«107387_j24197845746072_1_alg».proof.Proof.Gen.KernelIdeal.Launch
import proofs.«107387_j24197845746072_1_alg».proof.Proof.Gen.KernelIdeal.Skeleton
import proofs.«107387_j24197845746072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1): what its three control cases share

The grid is (head, query tile, key tile) = (8, 4, 4); the key tile is the fastest coordinate, so at point `t` it is
`t.val % 4`. The accumulator (a scratch of 1024 × 32) is zeroed at key tile 0, added to at every key tile, and copied
into the output block at key tile 3. Everything is stated at a parameter `V`: the buffer contents when the region is
entered. -/

section AttnRegion

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or not,
    for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or not,
    for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or not,
    for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or not,
    for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetched it or not,
    for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end AttnRegion

/-! ## The two conditions of the body, over the grid -/

/-- "This is the first key tile": the condition under which the accumulator is zeroed, with the scalar chain of the
    body substituted. -/
abbrev firstKv (i : grid1.Coords) : Prop :=
  (Scalar.cmpi .ne (Scalar.extui (Scalar.cmpi .eq (BitVec.ofNat 32 (i 2).val) 0#32)) 0#32) = 1#1
/-- It holds exactly at the points whose key tile is 0. -/
theorem firstKv_iff : ∀ t : Fin cfg1.N, firstKv (grid1.coords t) ↔ t.val % 4 = 0 :=
  (by decide +kernel : ∀ t : Fin grid1.N, firstKv (grid1.coords t) ↔ t.val % 4 = 0)

/-- "This is the last key tile": the condition under which the accumulator is copied to the output block. -/
abbrev lastKv (i : grid1.Coords) : Prop := k1_cond2 i = 1#1
/-- It holds exactly at the points whose key tile is 3. -/
theorem lastKv_iff : ∀ t : Fin cfg1.N, lastKv (grid1.coords t) ↔ t.val % 4 = 3 :=
  (by decide +kernel : ∀ t : Fin grid1.N, lastKv (grid1.coords t) ↔ t.val % 4 = 3)

/-! ## Where the output window is idle -/

/-- Off the last key tile the output window is idle: the body stores nothing into it there. -/
theorem outIdle_of_not_last (t : Fin cfg1.N) (h : ¬lastKv (grid1.coords t)) : cfg1.idle 5 (grid1.coords t) = true := by
  show (!(k1_cond2 (grid1.coords t) == 1#1)) = true
  simp only [Bool.not_eq_true', beq_eq_false_iff_ne, ne_eq]; exact h
/-- At the last key tile it is live. -/
theorem outLive_of_last (t : Fin cfg1.N) (h : lastKv (grid1.coords t)) : cfg1.idle 5 (grid1.coords t) = false := by
  show (!(k1_cond2 (grid1.coords t) == 1#1)) = false
  simp only [Bool.not_eq_false', beq_iff_eq]; exact h
/-- Off the last key tile the output block is not written back. -/
theorem outNoFlush_of_not_last (t : Fin cfg1.N) (h : ¬lastKv (grid1.coords t)) : (cfg1.win 5).flush t = false :=
  Bool.eq_false_iff.mpr fun hf => h ((lastKv_iff t).mpr ((flush1_5 t).mp hf))

/-! ## The memrefs the body is called with at a point -/

abbrev qM (t : Fin cfg1.N) : Memref sig .tc .vmem S1x1024x32 .bf16 := win1_0.stage (cfg1.slots t 0)
abbrev qM_whole (t : Fin cfg1.N) : (qM t).IsWhole := hstage1_0 ((cfg1.slots t 0).cast nbuf1_0)
abbrev kM (t : Fin cfg1.N) : Memref sig .tc .vmem S1x1024x32 .bf16 := win1_1.stage (cfg1.slots t 1)
abbrev kM_whole (t : Fin cfg1.N) : (kM t).IsWhole := hstage1_1 ((cfg1.slots t 1).cast nbuf1_1)
abbrev vM (t : Fin cfg1.N) : Memref sig .tc .vmem S1x1024x32 .bf16 := win1_2.stage (cfg1.slots t 2)
abbrev vM_whole (t : Fin cfg1.N) : (vM t).IsWhole := hstage1_2 ((cfg1.slots t 2).cast nbuf1_2)
abbrev qsegM (t : Fin cfg1.N) : Memref sig .tc .vmem S1024x1 .i32 := win1_3.stage (cfg1.slots t 3)
abbrev qsegM_whole (t : Fin cfg1.N) : (qsegM t).IsWhole := hstage1_3 ((cfg1.slots t 3).cast nbuf1_3)
abbrev ksegM (t : Fin cfg1.N) : Memref sig .tc .vmem S1x1024 .i32 := win1_4.stage (cfg1.slots t 4)
abbrev ksegM_whole (t : Fin cfg1.N) : (ksegM t).IsWhole := hstage1_4 ((cfg1.slots t 4).cast nbuf1_4)
abbrev outM (t : Fin cfg1.N) : Memref sig .tc .vmem S1x1024x32 .f32 := win1_5.stage (cfg1.slots t 5)
abbrev outM_whole (t : Fin cfg1.N) : (outM t).IsWhole := hstage1_5 ((cfg1.slots t 5).cast nbuf1_5)
/-- The accumulator: the kernel's scratch operand, a whole scoped buffer. -/
abbrev accM : Memref sig .tc .vmem S1024x32 .f32 := Memref.whole cc1_scratch0
/-- A view through which the accumulator's contents are stated. -/
abbrev accView : View sig .tc .vmem S1024x32 .f32 := accM.view
/-- A view through which the output block's contents are stated (any staging buffer of the window serves). -/
abbrev outView : View sig .tc .vmem S1x1024x32 .f32 := (Memref.whole cc1_stg5_0 : Memref sig .tc .vmem S1x1024x32 .f32).view

/-- What the region's class invariant holds, with the accumulator singled out: the accumulator at some contents,
    the core's other scoped buffers that are no staging buffer of this call, and the generator register. -/
theorem PhiA1_eq (c : Dev nD) :
    (Pipeline.ΦA spec1 c : sProp 𝕄)
      = iprop(iprop((∃ d, owns (c : Thread nD τ) accM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [accM, owns_whole, bigSepL_singleton]
  rfl

end Cert.KernelIdeal.Gen

end
-- ==== Proof.AttnFirst.lean ====
import proofs.«107387_j24197845746072_1_alg».proof.Proof.AttnShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at the first key tile

The accumulator holds anything; the body zeroes it, adds this tile's contribution, and leaves the output block alone. -/

set_option maxHeartbeats 1000000 in
/-- The body's run at a point of the first key tile, with what it leaves: no piece in the output block, and in the
    accumulator the pieces the run finds (the zero fill, then the sum stored over it). On whole memrefs, the inputs at
    read contents, the output block at contents handed back untouched, the accumulator at anything. -/
noncomputable def attnRun_first (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) :
    Σ' (Lout : List (View.Piece (Elt F) S1x1024x32 .f32)), { Lacc : List (View.Piece (Elt F) S1024x32 .f32) //
      ∀ (xo : Vec F S1x1024x32 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ (∃ f, arg9.view.loc (c : Thread nD τ) ↦[arg9.view.set]{fullShare} arg9.view.writes (Elt F) f Lacc)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xo E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Gen

end
-- ==== Proof.AttnMiddle.lean ====
import proofs.«107387_j24197845746072_1_alg».proof.Proof.AttnFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at a middle key tile

The accumulator holds what the point before left; the body adds this tile's contribution and leaves the output block
alone. -/

set_option maxHeartbeats 1000000 in
/-- The body's run at a point of key tile 1 or 2, with what it leaves: no piece in the output block, one piece in the
    accumulator (the sum stored over what it held, `xacc`). -/
noncomputable def attnRun_middle (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    Σ' (Lout : List (View.Piece (Elt F) S1x1024x32 .f32)), { Lacc : List (View.Piece (Elt F) S1024x32 .f32) //
      ∀ (xo : Vec F S1x1024x32 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ owns (c : Thread nD τ) arg9 fullShare xacc
            ∗ (iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ owns (c : Thread nD τ) arg8 fullShare xo ∗ (∃ f, arg9.view.loc (c : Thread nD τ) ↦[arg9.view.set]{fullShare} arg9.view.writes (Elt F) f Lacc)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xo E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Gen

end
-- ==== Proof.AttnLast.lean ====
import proofs.«107387_j24197845746072_1_alg».proof.Proof.AttnMiddle

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at the last key tile

The accumulator holds what the point before left; the body adds this tile's contribution and copies the accumulator
into the output block, which it finds at anything. -/

set_option maxHeartbeats 1000000 in
/-- The body's run at a point of key tile 3, with what it leaves: the pieces of the output block and of the accumulator
    that the run finds. -/
noncomputable def attnRun_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    Σ' (Lout : List (View.Piece (Elt F) S1x1024x32 .f32)), { Lacc : List (View.Piece (Elt F) S1024x32 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ (∃ d, owns (c : Thread nD τ) arg8 fullShare d) ∗ owns (c : Thread nD τ) arg9 fullShare xacc
            ∗ (iprop(owns (c : Thread nD τ) arg3 fullShare xq ∗ owns (c : Thread nD τ) arg4 fullShare xk ∗ owns (c : Thread nD τ) arg5 fullShare xv ∗ owns (c : Thread nD τ) arg6 fullShare xqs ∗ owns (c : Thread nD τ) arg7 fullShare xks ∗ (∃ f, arg8.view.loc (c : Thread nD τ) ↦[arg8.view.set]{fullShare} arg8.view.writes (Elt F) f Lout) ∗ (∃ f, arg9.view.loc (c : Thread nD τ) ↦[arg9.view.set]{fullShare} arg9.view.writes (Elt F) f Lacc)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Gen

end
-- ==== Proof.Attn.lean ====
import proofs.«107387_j24197845746072_1_alg».proof.Proof.AttnLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's proof data and body obligation

What the accumulator and the output block hold after each point, by recursion on the point; the invariant that
tracks the accumulator; the proof data; the body obligation by the three cases of the key tile. -/

section AttnRegion

variable (V : (c : Dev nD) → (b : Ref sig .tc) → Buf (Elt F) ((c : Thread nD τ).loc b))

/-! ## What each case leaves -/

/-- At the first key tile the accumulator's pieces cover it. -/
theorem accCover_first (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) (y : S1024x32.Idx) :
    ∃ pc ∈ (attnRun_first c i arg3 harg3 arg4 harg4 arg5 harg5 arg6 harg6 arg7 harg7 arg8 harg8 arg9 harg9 hc0 hc1 xq xk xv xqs xks).2.1, y ∈ pc.1.set :=
  View.cover_of_tiledL (attnRun_first c i arg3 harg3 arg4 harg4 arg5 harg5 arg6 harg6 arg7 harg7 arg8 harg8 arg9 harg9 hc0 hc1 xq xk xv xqs xks).2.1 S1024x32.size (by sl_kernel_rfl) y

/-- What the first key tile leaves in the accumulator: its pieces read back. -/
def accAfter_first (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) : Vec F S1024x32 .f32 :=
  accView.read (Elt F) (accView.writes (Elt F) accView.junk (attnRun_first c i arg3 harg3 arg4 harg4 arg5 harg5 arg6 harg6 arg7 harg7 arg8 harg8 arg9 harg9 hc0 hc1 xq xk xv xqs xks).2.1)

/-- At a middle key tile the accumulator's piece covers it. -/
theorem accCover_middle (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) (y : S1024x32.Idx) :
    ∃ pc ∈ (attnRun_middle c i arg3 harg3 arg4 harg4 arg5 harg5 arg6 harg6 arg7 harg7 arg8 harg8 arg9 harg9 hc0 hc1 xq xk xv xqs xks xacc).2.1, y ∈ pc.1.set :=
  View.cover_of_tiledL (attnRun_middle c i arg3 harg3 arg4 harg4 arg5 harg5 arg6 harg6 arg7 harg7 arg8 harg8 arg9 harg9 hc0 hc1 xq xk xv xqs xks xacc).2.1 S1024x32.size (by sl_kernel_rfl) y

/-- What a middle key tile leaves in the accumulator. -/
def accAfter_middle (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) : Vec F S1024x32 .f32 :=
  accView.read (Elt F) (accView.writes (Elt F) accView.junk (attnRun_middle c i arg3 harg3 arg4 harg4 arg5 harg5 arg6 harg6 arg7 harg7 arg8 harg8 arg9 harg9 hc0 hc1 xq xk xv xqs xks xacc).2.1)

/-- At the last key tile the accumulator's piece covers it, -/
theorem accCover_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) (y : S1024x32.Idx) :
    ∃ pc ∈ (attnRun_last c i arg3 harg3 arg4 harg4 arg5 harg5 arg6 harg6 arg7 harg7 arg8 harg8 arg9 harg9 hc0 hc1 xq xk xv xqs xks xacc).2.1, y ∈ pc.1.set :=
  View.cover_of_tiledL (attnRun_last c i arg3 harg3 arg4 harg4 arg5 harg5 arg6 harg6 arg7 harg7 arg8 harg8 arg9 harg9 hc0 hc1 xq xk xv xqs xks xacc).2.1 S1024x32.size (by sl_kernel_rfl) y

/-- and the output block's piece covers the block. -/
theorem outCover_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) (y : S1x1024x32.Idx) :
    ∃ pc ∈ (attnRun_last c i arg3 harg3 arg4 harg4 arg5 harg5 arg6 harg6 arg7 harg7 arg8 harg8 arg9 harg9 hc0 hc1 xq xk xv xqs xks xacc).1, y ∈ pc.1.set :=
  View.cover_of_tiledL (attnRun_last c i arg3 harg3 arg4 harg4 arg5 harg5 arg6 harg6 arg7 harg7 arg8 harg8 arg9 harg9 hc0 hc1 xq xk xv xqs xks xacc).1 S1x1024x32.size (by sl_kernel_rfl) y

/-- What the last key tile leaves in the accumulator, -/
def accAfter_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) : Vec F S1024x32 .f32 :=
  accView.read (Elt F) (accView.writes (Elt F) accView.junk (attnRun_last c i arg3 harg3 arg4 harg4 arg5 harg5 arg6 harg6 arg7 harg7 arg8 harg8 arg9 harg9 hc0 hc1 xq xk xv xqs xks xacc).2.1)

/-- and in the output block. -/
def outAfter_last (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) : Vec F S1x1024x32 .f32 :=
  outView.read (Elt F) (outView.writes (Elt F) outView.junk (attnRun_last c i arg3 harg3 arg4 harg4 arg5 harg5 arg6 harg6 arg7 harg7 arg8 harg8 arg9 harg9 hc0 hc1 xq xk xv xqs xks xacc).1)

/-- Contents nothing consults: the output block's entry at the points where the window is idle. -/
def outUnused : Vec F S1x1024x32 .f32 := outView.read (Elt F) outView.junk

/-! ## The accumulation, point by point -/

/-- (output block, accumulator) after a point of the first key tile. -/
def stepFirst (c : Dev nD) (t : Fin cfg1.N) (h0 : t.val % 4 = 0) (h1 : ¬t.val % 4 = 3) : Vec F S1x1024x32 .f32 × Vec F S1024x32 .f32 :=
  (outUnused, accAfter_first c (grid1.coords t) (qM t) (qM_whole t) (kM t) (kM_whole t) (vM t) (vM_whole t) (qsegM t) (qsegM_whole t) (ksegM t) (ksegM_whole t) (outM t) (outM_whole t) accM (Memref.isWhole_whole _) ((firstKv_iff t).mpr h0) (fun h => h1 ((lastKv_iff t).mp h)) (iblk1 V c 0 t) (iblk1 V c 1 t) (iblk1 V c 2 t) (iblk1 V c 3 t) (iblk1 V c 4 t))

/-- (output block, accumulator) after a point of a middle key tile, the accumulator entering at `xacc`. -/
def stepMiddle (c : Dev nD) (t : Fin cfg1.N) (h0 : ¬t.val % 4 = 0) (h1 : ¬t.val % 4 = 3) (xacc : Vec F S1024x32 .f32) : Vec F S1x1024x32 .f32 × Vec F S1024x32 .f32 :=
  (outUnused, accAfter_middle c (grid1.coords t) (qM t) (qM_whole t) (kM t) (kM_whole t) (vM t) (vM_whole t) (qsegM t) (qsegM_whole t) (ksegM t) (ksegM_whole t) (outM t) (outM_whole t) accM (Memref.isWhole_whole _) (fun h => h0 ((firstKv_iff t).mp h)) (fun h => h1 ((lastKv_iff t).mp h)) (iblk1 V c 0 t) (iblk1 V c 1 t) (iblk1 V c 2 t) (iblk1 V c 3 t) (iblk1 V c 4 t) xacc)

/-- (output block, accumulator) after a point of the last key tile, the accumulator entering at `xacc`. -/
def stepLast (c : Dev nD) (t : Fin cfg1.N) (h0 : ¬t.val % 4 = 0) (h1 : t.val % 4 = 3) (xacc : Vec F S1024x32 .f32) : Vec F S1x1024x32 .f32 × Vec F S1024x32 .f32 :=
  (outAfter_last c (grid1.coords t) (qM t) (qM_whole t) (kM t) (kM_whole t) (vM t) (vM_whole t) (qsegM t) (qsegM_whole t) (ksegM t) (ksegM_whole t) (outM t) (outM_whole t) accM (Memref.isWhole_whole _) (fun h => h0 ((firstKv_iff t).mp h)) ((lastKv_iff t).mpr h1) (iblk1 V c 0 t) (iblk1 V c 1 t) (iblk1 V c 2 t) (iblk1 V c 3 t) (iblk1 V c 4 t) xacc,
   accAfter_last c (grid1.coords t) (qM t) (qM_whole t) (kM t) (kM_whole t) (vM t) (vM_whole t) (qsegM t) (qsegM_whole t) (ksegM t) (ksegM_whole t) (outM t) (outM_whole t) accM (Memref.isWhole_whole _) (fun h => h0 ((firstKv_iff t).mp h)) ((lastKv_iff t).mpr h1) (iblk1 V c 0 t) (iblk1 V c 1 t) (iblk1 V c 2 t) (iblk1 V c 3 t) (iblk1 V c 4 t) xacc)

/-- THE ACCUMULATION: what the output block's staging buffer and the accumulator hold after the body at position `n`:
    the case of `n`'s key tile, entered with the accumulator as position `n - 1` left it. -/
def acc1 (c : Dev nD) : (n : ℕ) → n < cfg1.N → Vec F S1x1024x32 .f32 × Vec F S1024x32 .f32
  | 0, hn => stepFirst V c ⟨0, hn⟩ (Nat.zero_mod _) (show ¬(0 : ℕ) % 4 = 3 by decide)
  | n + 1, hn =>
    if h0 : (n + 1) % 4 = 0 then stepFirst V c ⟨n + 1, hn⟩ h0 (show ¬(n + 1) % 4 = 3 by omega)
    else if h1 : (n + 1) % 4 = 3 then stepLast V c ⟨n + 1, hn⟩ h0 h1 (acc1 c n (Nat.lt_of_succ_lt hn)).2
    else stepMiddle V c ⟨n + 1, hn⟩ h0 h1 (acc1 c n (Nat.lt_of_succ_lt hn)).2

theorem acc1_first (c : Dev nD) (t : Fin cfg1.N) (h0 : t.val % 4 = 0) (h1 : ¬t.val % 4 = 3) :
    acc1 V c t.val t.isLt = stepFirst V c t h0 h1 := by
  obtain ⟨n, hn⟩ := t
  cases n with
  | zero => rfl
  | succ n => exact (dif_pos h0).trans rfl

theorem acc1_middle (c : Dev nD) (t : Fin cfg1.N) (h0 : ¬t.val % 4 = 0) (h1 : ¬t.val % 4 = 3) :
    acc1 V c t.val t.isLt = stepMiddle V c t h0 h1 (acc1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem acc1_last (c : Dev nD) (t : Fin cfg1.N) (h0 : ¬t.val % 4 = 0) (h1 : t.val % 4 = 3) :
    acc1 V c t.val t.isLt = stepLast V c t h0 h1 (acc1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant that tracks the accumulator -/

/-- Before position `n`: at the first point the class invariant (the accumulator at anything); afterwards the accumulator
    at what the point before left, the core's other scoped buffers and the generator register. -/
def accInv (c : Dev nD) : (n : ℕ) → n ≤ cfg1.N → sProp 𝕄
  | 0, _ => Pipeline.ΦA spec1 c
  | n + 1, hn => iprop(iprop(owns (c : Thread nD τ) accM fullShare ((acc1 V c n hn).2)
      ∗ Pipeline.scopedRestBut (Ix := Unit) (Name := ℕ) (U := UR sig nD τ) (Lvl := ℕ) (Val := Elt F) spec1 c [cc1_scratch0]) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(iprop(owns (c : Thread nD τ) accM fullShare ((acc1 V c n hn).2)
      ∗ Pipeline.scopedRestBut (Ix := Unit) (Name := ℕ) (U := UR sig nD τ) (Lvl := ℕ) (Val := Elt F) spec1 c [cc1_scratch0]) ∗ (∃ r, prngReg c r)) := rfl

theorem accInv_pos (c : Dev nD) (n : ℕ) (h : n ≤ cfg1.N) (hz : n ≠ 0) :
    accInv V c n h = iprop(iprop(owns (c : Thread nD τ) accM fullShare ((acc1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of the attention pipeline on core `c`: the arrays as the region finds them; after the body each
    input's buffer at its block and the output's at the accumulation's first component; the invariant tracking the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (acc1 V c t.val t.isLt).1
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem accInv_castSucc (c : Dev nD) (t : Fin cfg1.N) :
    (dat1 V c).Φ t.castSucc = accInv V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (acc1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The input windows are live at every point. -/
theorem inLive_0 (t : Fin cfg1.N) : cfg1.idle 0 (grid1.coords t) = false := rfl
theorem inLive_1 (t : Fin cfg1.N) : cfg1.idle 1 (grid1.coords t) = false := rfl
theorem inLive_2 (t : Fin cfg1.N) : cfg1.idle 2 (grid1.coords t) = false := rfl
theorem inLive_3 (t : Fin cfg1.N) : cfg1.idle 3 (grid1.coords t) = false := rfl
theorem inLive_4 (t : Fin cfg1.N) : cfg1.idle 4 (grid1.coords t) = false := rfl

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (qsegM t) fullShare ((dat1 V c).before 3 t d))
    ∗ (∃ d, owns (c : Thread nD τ) (ksegM t) fullShare ((dat1 V c).before 4 t d))
    ∗ (∃ d, owns (c : Thread nD τ) (outM t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the key tile says which case the point is in; the
    invariant hands the body the accumulator (at anything at the very first point, else at what the point before left)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (qM t) fullShare ((dat1 V c).after 0 t) from by
    unfold Dat.leavesExact; rw [inLive_0 t], after1_0]
  rw [show (dat1 V c).leavesExact 1 t = owns (c : Thread nD τ) (kM t) fullShare ((dat1 V c).after 1 t) from by
    unfold Dat.leavesExact; rw [inLive_1 t], after1_1]
  rw [show (dat1 V c).leavesExact 2 t = owns (c : Thread nD τ) (vM t) fullShare ((dat1 V c).after 2 t) from by
    unfold Dat.leavesExact; rw [inLive_2 t], after1_2]
  rw [show (dat1 V c).leavesExact 3 t = owns (c : Thread nD τ) (qsegM t) fullShare ((dat1 V c).after 3 t) from by
    unfold Dat.leavesExact; rw [inLive_3 t], after1_3]
  rw [show (dat1 V c).leavesExact 4 t = owns (c : Thread nD τ) (ksegM t) fullShare ((dat1 V c).after 4 t) from by
    unfold Dat.leavesExact; rw [inLive_4 t], after1_4]
  have hN : t.val < 128 := lt_of_lt_of_eq t.isLt (show cfg1.N = 128 from N_1)
  by_cases h0 : t.val % 4 = 0
  · have h1 : ¬t.val % 4 = 3 := by omega
    have hl : ¬lastKv (grid1.coords t) := fun h => h1 ((lastKv_iff t).mp h)
    rw [Dat.leavesExact_idle (dat1 V c) 5 t (outIdle_of_not_last t hl) (outNoFlush_of_not_last t hl)]
    rw [acc1_first V c t h0 h1]
    unfold stepFirst accAfter_first; dsimp only
    by_cases hz : t.val = 0
    · rw [accInv_castSucc V c t, accInv_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_first c (grid1.coords t) _ _ _ _ _ _ _ _ _ _ _ _ _ _ ((firstKv_iff t).mpr h0) hl (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc V c t, accInv_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_first c (grid1.coords t) _ _ _ _ _ _ _ _ _ _ _ _ _ _ ((firstKv_iff t).mpr h0) hl (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (accCover_first c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hf : ¬firstKv (grid1.coords t) := fun h => h0 ((firstKv_iff t).mp h)
    have hz : t.val ≠ 0 := fun e => h0 (by rw [e])
    by_cases h1 : t.val % 4 = 3
    · have hl : lastKv (grid1.coords t) := (lastKv_iff t).mpr h1
      rw [show (dat1 V c).leavesExact 5 t = owns (c : Thread nD τ) (outM t) fullShare ((dat1 V c).after 5 t) from by
        unfold Dat.leavesExact; rw [outLive_of_last t hl], after1_5]
      rw [acc1_last V c t h0 h1]
      unfold stepLast outAfter_last accAfter_last; dsimp only
      rw [accInv_castSucc V c t, accInv_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_last c (grid1.coords t) _ _ _ _ _ _ _ _ _ _ _ _ _ _ hf hl (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCover_last c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover_last c _ _ _ _ _ _ _ _ _ _ _ _ _ _ _ _ _ _ _ _ _ _ _)
    · have hl : ¬lastKv (grid1.coords t) := fun h => h1 ((lastKv_iff t).mp h)
      rw [Dat.leavesExact_idle (dat1 V c) 5 t (outIdle_of_not_last t hl) (outNoFlush_of_not_last t hl)]
      rw [acc1_middle V c t h0 h1]
      unfold stepMiddle accAfter_middle; dsimp only
      rw [accInv_castSucc V c t, accInv_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((attnRun_middle c (grid1.coords t) _ _ _ _ _ _ _ _ _ _ _ _ _ _ hf hl (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hrest Hg]
      · isplitl [HS Hrest]
        · isplitl [HS]
          · unfold owns; iexists _; isplitr
            swap; · iexact HS
            ipureintro; exact View.read_writes_of_cover _ _ _ _ _ (accCover_middle c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = accInv V c 0 (Nat.zero_le _) from rfl, accInv_zero V c 0 _ rfl]
  try exact Idealize.SL.BI.Entails.refl _

/-- After any point but the first the invariant gives the class invariant back: the accumulator's contents are forgotten. -/
theorem accInv_out (c : Dev nD) (t : Fin (cfg1.N + 1)) (ht : t.val ≠ 0) : (dat1 V c).Φ t ⊢ Pipeline.ΦA spec1 c := by
  rw [show (dat1 V c).Φ t = accInv V c t.val (Nat.le_of_lt_succ t.isLt) from rfl, accInv_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  accInv_out V c _ (by rw [Fin.val_last]; have : cfg1.N = 128 := N_1; omega)

end AttnRegion

end Cert.KernelIdeal.Gen

end
-- ==== Proof.RunAll.lean ====
/-
  The run of @main with the attention region's half filled in: what the attention body leaves in each staging buffer
  and its invariant (the accumulator carried from one key tile to the next) are those of its proof data; the body
  obligation and the two entailments at the first and after the last grid point are the attention modules'.
-/
import proofs.«107387_j24197845746072_1_alg».proof.Proof.Run
import proofs.«107387_j24197845746072_1_alg».proof.Proof.Attn

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

/-- What the attention body leaves in each staging buffer, and its invariant, at entry contents `V`. -/
abbrev attnAfter (V : ((c : Dev nD) → (b : Ref sig .tc) → Buf (Elt F) ((c : Thread nD τ).loc b))) (c : Dev nD) := (dat1 (F := F) V c).after
abbrev attnInv (V : ((c : Dev nD) → (b : Ref sig .tc) → Buf (Elt F) ((c : Thread nD τ).loc b))) (c : Dev nD) := (dat1 (F := F) V c).Φ

/-- The run's attention proof data is the attention modules'. -/
theorem attnDat_eq (V : ((c : Dev nD) → (b : Ref sig .tc) → Buf (Elt F) ((c : Thread nD τ).loc b))) (c : Dev nD) : attnDat (F := F) attnAfter attnInv V c = dat1 V c := rfl

variable (m : (ℓ : Loc nD τ sig) → Buf (Elt F) ℓ)

/-- The last boundary's contents. -/
abbrev final (c : Dev nD) : Valuation τ sig (Elt F) := B9 (F := F) attnAfter attnInv m c

/-- Every weakly fair execution of @main terminates, nothing faulting, with every unscoped buffer at the last
    boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = final m c b) :=
  run (F := F) attnAfter attnInv m (fun V c => body_obligation1 V c) (fun V c => hin1 V c) (fun V c => hout1 V c) ρ

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B9_main_arg0 attnAfter attnInv m c),
     (h c _ (mem_uc main_arg1 (by decide))).trans (B9_bypass attnAfter attnInv m c main_arg1 (by decide) (by decide) (by decide) (by decide) (by decide) (by decide) (by decide) (by decide) (by decide)),
     (h c _ (mem_uc main_arg2 (by decide))).trans (B9_bypass attnAfter attnInv m c main_arg2 (by decide) (by decide) (by decide) (by decide) (by decide) (by decide) (by decide) (by decide) (by decide)),
     (h c _ (mem_uc main_arg3 (by decide))).trans (B9_bypass attnAfter attnInv m c main_arg3 (by decide) (by decide) (by decide) (by decide) (by decide) (by decide) (by decide) (by decide) (by decide)),
     (h c _ (mem_uc main_arg4 (by decide))).trans (B9_bypass attnAfter attnInv m c main_arg4 (by decide) (by decide) (by decide) (by decide) (by decide) (by decide) (by decide) (by decide) (by decide)),
     (h c _ (mem_uc main_arg5 (by decide))).trans (B9_bypass attnAfter attnInv m c main_arg5 (by decide) (by decide) (by decide) (by decide) (by decide) (by decide) (by decide) (by decide) (by decide)),
     (h c _ (mem_uc main_arg6 (by decide))).trans (B9_bypass attnAfter attnInv m c main_arg6 (by decide) (by decide) (by decide) (by decide) (by decide) (by decide) (by decide) (by decide) (by decide)),
     (h c _ (mem_uc main_arg7 (by decide))).trans (B9_bypass attnAfter attnInv m c main_arg7 (by decide) (by decide) (by decide) (by decide) (by decide) (by decide) (by decide) (by decide) (by decide)),
     (h c _ (mem_uc main_arg8 (by decide))).trans (B9_bypass attnAfter attnInv m c main_arg8 (by decide) (by decide) (by decide) (by decide) (by decide) (by decide) (by decide) (by decide) (by decide)),
     (h c _ (mem_uc main_arg9 (by decide))).trans (B9_bypass attnAfter attnInv m c main_arg9 (by decide) (by decide) (by decide) (by decide) (by decide) (by decide) (by decide) (by decide) (by decide)),
     (h c _ (mem_uc main_arg10 (by decide))).trans (B9_bypass attnAfter attnInv m c main_arg10 (by decide) (by decide) (by decide) (by decide) (by decide) (by decide) (by decide) (by decide) (by decide)),
     (h c _ (mem_uc main_arg11 (by decide))).trans (B9_bypass attnAfter attnInv m c main_arg11 (by decide) (by decide) (by decide) (by decide) (by decide) (by decide) (by decide) (by decide) (by decide))⟩)
    (run_all m ρ)

end Cert.KernelIdeal.Run

end
-- ==== Proof.Boundaries.lean ====
/-
  Buffers that pass untouched between boundaries of the run: a buffer that a stretch of host operations does not write
  and that is no array of a region holds after them what it held before. Stated from the first region's entry
  (boundary 1) up to the later regions' exits, and for the launch memory up to boundary 1.
-/
import proofs.«107387_j24197845746072_1_alg».proof.Proof.RunAll

set_option maxRecDepth 16384

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Up to the first region's entry: a buffer the first host stretch does not write is as launched. -/
theorem B1_launch (c : Dev nD) (r : Ref sig .tc) (h0 : r ∉ (hostOps0_W : List (Ref sig .tc))) :
    B1 m c (Proc.devRef .tc r) = m ((c : Thread nD τ).loc r) :=
  (StableHlo.after_of_writes_sub hostOps0 _ hostOps0_writes h0).trans rfl

/-- Through region 0. -/
theorem B2_kept (c : Dev nD) (r : Ref sig .tc) (a0 : ∀ w, Pipeline.arrRef spec0 w ≠ r) :
    B2 m c (Proc.devRef .tc r) = B1 m c (Proc.devRef .tc r) := B2_of_ne m c r a0

/-- Through region 0, the second host stretch and the attention region. -/
theorem B4_kept (c : Dev nD) (r : Ref sig .tc) (h1 : r ∉ (hostOps1_W : List (Ref sig .tc)))
    (a0 : ∀ w, Pipeline.arrRef spec0 w ≠ r) (a1 : ∀ w, Pipeline.arrRef spec1 w ≠ r) :
    B4 (F := F) attnAfter attnInv m c (Proc.devRef .tc r) = B1 m c (Proc.devRef .tc r) :=
  (B4_of_ne attnAfter attnInv m c r a1).trans
    ((StableHlo.after_of_writes_sub hostOps1 _ hostOps1_writes h1).trans (B2_of_ne m c r a0))

/-- Further through the third host stretch and region 2. -/
theorem B6_kept (c : Dev nD) (r : Ref sig .tc) (h1 : r ∉ (hostOps1_W : List (Ref sig .tc))) (h2 : r ∉ (hostOps2_W : List (Ref sig .tc)))
    (a0 : ∀ w, Pipeline.arrRef spec0 w ≠ r) (a1 : ∀ w, Pipeline.arrRef spec1 w ≠ r) (a2 : ∀ w, Pipeline.arrRef spec2 w ≠ r) :
    B6 (F := F) attnAfter attnInv m c (Proc.devRef .tc r) = B1 m c (Proc.devRef .tc r) :=
  (B6_of_ne attnAfter attnInv m c r a2).trans
    ((StableHlo.after_of_writes_sub hostOps2 _ hostOps2_writes h2).trans (B4_kept m c r h1 a0 a1))

/-- What each region leaves in its output array. -/
theorem B2_out (c : Dev nD) : B2 m c (Proc.devRef .tc main_v8) = (affineDat0 (In1 m) c).arrAt 3 cfg0.N := B2_arr m c 3
theorem B4_out (c : Dev nD) :
    B4 (F := F) attnAfter attnInv m c (Proc.devRef .tc main_v23) = (dat1 (In3 m) c).arrAt 5 cfg1.N := B4_arr attnAfter attnInv m c 5
theorem B6_out (c : Dev nD) :
    B6 (F := F) attnAfter attnInv m c (Proc.devRef .tc main_v28) = (affineDat2 (In5 attnAfter attnInv m) c).arrAt 3 cfg2.N := B6_arr attnAfter attnInv m c 3
theorem B8_out (c : Dev nD) :
    B8 (F := F) attnAfter attnInv m c (Proc.devRef .tc main_v34) = (affineDat3 (In7 attnAfter attnInv m) c).arrAt 3 cfg3.N := B8_arr attnAfter attnInv m c 3

end Cert.KernelIdeal.Run

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.AffineValue0.lean ====
/-
  Region 0's affine layer, read as values at the exact instance: the body's stored value at entry (p, q) is
  the sum over k of rows[p, k] · weights[k, q] plus bias[0, q]; the block a grid point writes back is that function of
  the whole arrays restricted to the point's rows; the points' blocks cover the output array; so the array the region
  leaves is the affine image of the arrays it was entered with, entry by entry.
-/
import proofs.«107387_j24197845746072_1_alg».proof.Proof.Lin0
import proofs.«107387_j24197845746072_1_alg».proof.Proof.LibPlainContract
import proofs.«107387_j24197845746072_1_alg».proof.Proof.LibLreluRows
import Idealize.ShloMosaic.Lib.Pipeline.Value
import Idealize.ShloMosaic.Lib.ValueIdx
import Idealize.ShloMosaic.PureOps.Ideal.Laws

set_option maxRecDepth 16384

noncomputable section

namespace Cert.KernelIdeal.AffineValue0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The affine image of whole arrays: entry (n, j) is the sum over k of rows[n, k] · weights[k, j], plus bias[0, j]. -/
def affine (x : S4096x256.Idx → EReal) (w : S256x768.Idx → EReal) (b : S1x768.Idx → EReal) : S4096x768.Idx → EReal :=
  fun i => (∑ k : Fin 256, x (ix2 (i 0) k) * w (ix2 k (i 1))) + b (ix2 (0 : Fin 1) (i 1))

/-- The body's stored value at entry (p, q) of a block: changes of float format are the identity and a cast to the
    same shape changes nothing, so it is the product into a zero accumulator plus the bias row laid down the rows. -/
theorem stored_apply (x : Vec Ideal S1024x256 .f32) (w : Vec Ideal S256x768 .f32) (b : Vec Ideal S1x768 .f32) (p : Fin 1024) (q : Fin 768) :
    k0_pay1 (F := Ideal) x w b (ix2 p q) = (∑ k : Fin 256, x (ix2 p k) * w (ix2 k q)) + b (ix2 (0 : Fin 1) q) := by
  unfold k0_pay1
  refine congrArg₂ (· + ·) ((Cert.LibPlainContract.matmul_plain_apply 1024 256 768 none _ _ p q).trans ?_)
    (Cert.LibLreluRows.rowDown_apply shapeCasts_S1x768_S1x768 broadcasts_S1x768_S1024x768 b p q)
  refine Finset.sum_congr rfl fun k _ => ?_
  show x (ix2 p k) * shapeCast S256x768 w shapeCasts_S256x768_S256x768 (ix2 k q) = _
  rw [shapeCast_self]

theorem zero_off : (![0, 0] : Fin 2 → Nat) = fun _ => 0 := funext fun a => by fin_cases a <;> rfl

/-- The printed index maps, decided over the grid: the rows' block moves with the output's along the rows; the weights
    and the bias are whole; the output's block index along the rows is the point. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

variable (V : (c : Dev nD) → (b : Ref sig .tc) → Buf (Elt Ideal) ((c : Thread nD τ).loc b))

/-- The three arrays the region reads, as arrays of extended reals. -/
abbrev rowsArr (c : Dev nD) : S4096x256.Idx → EReal := V c main_arg0
abbrev weightsArr (c : Dev nD) : S256x768.Idx → EReal := V c main_v5
abbrev biasArr (c : Dev nD) : S1x768.Idx → EReal := V c main_v7

/-- What a grid point writes back is its block of the affine image of the arrays the region was entered with. -/
theorem flushed_eq (c : Dev nD) (t : Fin cfg0.N) :
    (affineDat0 V c).flushed 3 t
      = ((cfg0.win 3).blk t).view.read (Elt Ideal) (affine (rowsArr V c) (weightsArr V c) (biasArr V c)) := by
  show (cfg0.win 3).cut (grid0.coords t) ((affineDat0 V c).after 3 t) = _
  rw [affineAfter0_3]
  unfold affineOut0
  rw [View.canon_unit_zero zero_off]
  simp only [View.ld_unit_zero (S := S1024x256) zero_off, View.ld_unit_zero (S := S256x768) zero_off, View.ld_unit_zero (S := S1x768) zero_off]
  obtain ⟨e0, e1, e2, e3, e4, e5, e6, e7⟩ := index_facts t
  funext j
  obtain ⟨p, q, rfl⟩ : ∃ (p : Fin 1024) (q : Fin 768), j = ix2 p q := ⟨j 0, j 1, eq_ix2 j⟩
  refine (stored_apply _ _ _ p q).trans ?_
  show (∑ k : Fin 256, rowsArr V c (((cfg0.win 0).blk t).view.emb (ix2 p k)) * weightsArr V c (((cfg0.win 1).blk t).view.emb (ix2 k q)))
      + biasArr V c (((cfg0.win 2).blk t).view.emb (ix2 (0 : Fin 1) q))
    = (∑ k : Fin 256, rowsArr V c (ix2 ((((cfg0.win 3).blk t).view.emb (ix2 p q)) 0) k) * weightsArr V c (ix2 k ((((cfg0.win 3).blk t).view.emb (ix2 p q)) 1)))
      + biasArr V c (ix2 (0 : Fin 1) ((((cfg0.win 3).blk t).view.emb (ix2 p q)) 1))
  have hrow : ∀ k : Fin 256, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 256 + 1 * k.val = k.val; omega
  have hwt : ∀ k : Fin 256, ((cfg0.win 1).blk t).view.emb (ix2 k q) = ix2 k ((((cfg0.win 3).blk t).view.emb (ix2 p q)) 1) := by
    intro k; funext a; apply Fin.ext
    match a with
    | ⟨0, _⟩ => show win0_1.index t (0 : Fin 2) * 256 + 1 * k.val = k.val; omega
    | ⟨1, _⟩ => show win0_1.index t (1 : Fin 2) * 768 + 1 * q.val = win0_3.index t (1 : Fin 2) * 768 + 1 * q.val; omega
  have hbias : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 768 + 1 * q.val = win0_3.index t (1 : Fin 2) * 768 + 1 * q.val; omega
  rw [hbias]
  refine congrArg₂ (· + ·) (Finset.sum_congr rfl fun k _ => ?_) rfl
  exact congrArg₂ (· * ·) (congrArg (rowsArr V c) (hrow k)) (congrArg (weightsArr V c) (hwt k))

/-- An index of the output array is in a point's block iff each coordinate is in the block's range on its axis. -/
theorem mem_block (t : Fin cfg0.N) (i : S4096x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v8).slice (win0_3.rect t)).set ↔ _
  rw [View.set_slice_whole, Rect.mem_set_unit]
  exact Iff.rfl

/-- Every entry of the output array is in the block of the point its row falls in. -/
theorem covered (i : S4096x768.Idx) : ∃ t : Fin cfg0.N, (cfg0.win 3).flush t = true ∧ i ∈ ((cfg0.win 3).blk t).view.set := by
  have hi0 : (i 0).val < 4096 := (i 0).isLt
  have hi1 : (i 1).val < 768 := (i 1).isLt
  have hN : cfg0.N = 4 := N_0
  refine ⟨⟨(i 0).val / 1024, by rw [hN]; omega⟩, flush0_3 _, ?_⟩
  rw [mem_block]
  obtain ⟨e0, e1, e2, e3, e4, e5, e6, e7⟩ := index_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e7]; show (i 0).val / 1024 * 1024 ≤ (i 0).val ∧ (i 0).val < (i 0).val / 1024 * 1024 + 1024; omega
  | ⟨1, _⟩ =>
    show win0_3.index _ (1 : Fin 2) * 768 ≤ (i 1).val ∧ (i 1).val < win0_3.index _ (1 : Fin 2) * 768 + 768
    rw [e6]; omega

/-- THE ARRAY THE REGION LEAVES: the affine image of the arrays it was entered with. -/
theorem final (c : Dev nD) :
    (affineDat0 V c).arrAt 3 cfg0.N = affine (rowsArr V c) (weightsArr V c) (biasArr V c) :=
  (affineDat0 V c).arrAt_eq_of_cover 3 _ (fun t _ => flushed_eq V c t) covered

end Cert.KernelIdeal.AffineValue0

end
-- ==== Proof.Spec.lean ====
/-
  The mathematics both programs compute, as plain functions on arrays of extended reals over literal index types.
  No program is imported here.

  With N = 4096 rows, 256 features split as 8 heads of width 32, and 128 groups:
    lin x W b          the affine layer x · Wᵀ + b, at (n, f):  (Σ k, x(n,k) · W(f,k)) + b f
    attn q k v seg     at (n, f), with head h = f / 32 and lane d = f % 32:
                         Σ m, ( silu (Σ d', q(n, 32h+d') · k(m, 32h+d')) · [seg n = seg m] ) · v(m, 32h+d)
                       where silu s = s · logistic s and [·] is 1 or 0
    segsum u seg       the sum of the rows of u over each group: the host's additive scatter into zeros,
                       kept as ONE named operation of (u, seg)
    result             silu ∘ lin (segsum (lin (attn (lin x Wq bq) (lin x Wk bk) (lin x Wv bv) seg) Wo1 bo1) seg) Wo2 bo2,
                       seg = row 1 of the index array.
-/
import Idealize.ShloMosaic.PureOps.Ideal
import Idealize.ShloMosaic.Lib.ValueIdx

noncomputable section

namespace Cert.Spec

open Idealize.ShloMosaic Idealize.ShloMosaic.ValueIdx

/-- `s · logistic s` on the extended reals. -/
def silu (s : EReal) : EReal := s * Ideal.logistic s

/-- `1` where two group ids agree, `0` where they differ. -/
def same (a b : BitVec 32) : EReal := if a = b then 1 else 0

/-- The feature column of lane `d` of head `h`: `32 h + d`. -/
def col (h : Fin 8) (d : Fin 32) : Fin 256 := ⟨32 * h.val + d.val, by omega⟩
/-- The head of a feature column: `f / 32`. -/
def headOf (f : Fin 256) : Fin 8 := ⟨f.val / 32, by omega⟩
/-- The lane of a feature column within its head: `f % 32`. -/
def laneOf (f : Fin 256) : Fin 32 := ⟨f.val % 32, by omega⟩

theorem col_head_lane (f : Fin 256) : col (headOf f) (laneOf f) = f := by
  apply Fin.ext; simp only [col, headOf, laneOf]; omega

/-- The group ids: row 1 of the `[2, 4096]` index array. -/
def segOf (ei : IVec ⟨2, ![2, 4096]⟩ 32) : Fin 4096 → BitVec 32 :=
  fun n => ei (ix2 (n0 := 2) (n1 := 4096) 1 n)

/-- The affine layer on 4096 rows: `(Σ k, x(n,k) · W(f,k)) + b f`. -/
def lin4096 (x : FVec Ideal ⟨2, ![4096, 256]⟩ .f32) (W : FVec Ideal ⟨2, ![256, 256]⟩ .f32)
    (b : FVec Ideal ⟨1, ![256]⟩ .f32) : FVec Ideal ⟨2, ![4096, 256]⟩ .f32 :=
  fun i => (∑ k : Fin 256, x (ix2 (n0 := 4096) (n1 := 256) (i 0) k) * W (ix2 (n0 := 256) (n1 := 256) (i 1) k))
    + b (ix1 (n := 256) (i 1))

/-- The affine layer on 128 rows: `(Σ k, x(g,k) · W(f,k)) + b f`. -/
def lin128 (x : FVec Ideal ⟨2, ![128, 256]⟩ .f32) (W : FVec Ideal ⟨2, ![256, 256]⟩ .f32)
    (b : FVec Ideal ⟨1, ![256]⟩ .f32) : FVec Ideal ⟨2, ![128, 256]⟩ .f32 :=
  fun i => (∑ k : Fin 256, x (ix2 (n0 := 128) (n1 := 256) (i 0) k) * W (ix2 (n0 := 256) (n1 := 256) (i 1) k))
    + b (ix1 (n := 256) (i 1))

/-- Attention within groups, head by head: the score of rows `n`, `m` in head `h` is the inner product of their
    `q` and `k` lanes, passed through `silu`, kept where the two rows are of one group, and weighs `v`'s row `m`. -/
def attn (q k v : FVec Ideal ⟨2, ![4096, 256]⟩ .f32) (seg : Fin 4096 → BitVec 32) :
    FVec Ideal ⟨2, ![4096, 256]⟩ .f32 :=
  fun i => ∑ m : Fin 4096,
    (silu (∑ d' : Fin 32, q (ix2 (n0 := 4096) (n1 := 256) (i 0) (col (headOf (i 1)) d'))
                           * k (ix2 (n0 := 4096) (n1 := 256) m (col (headOf (i 1)) d')))
      * same (seg (i 0)) (seg m))
    * v (ix2 (n0 := 4096) (n1 := 256) m (col (headOf (i 1)) (laneOf (i 1))))

/-- The dimension numbers of the additive scatter of `[4096, 256]` rows into `[128, 256]` by a `[4096, 1]` index column. -/
def segDims : ScatterDims ⟨2, ![128, 256]⟩ ⟨2, ![4096, 1]⟩ ⟨2, ![4096, 256]⟩ where
  updateWindowDims := [1]
  insertedWindowDims := [0]
  scatterDimsToOperandDims := [0]
  indexVectorDim := 1

/-- The group ids as the scatter's `[4096, 1]` index column. -/
def segCol (seg : Fin 4096 → BitVec 32) : IVec ⟨2, ![4096, 1]⟩ 32 := fun j => seg (j 0)

/-- The sum of the rows of `u` over each group: the host's additive scatter of `u` into zeros at the group ids.
    Both programs apply this one operation; nothing below opens it. -/
def segsum (u : FVec Ideal ⟨2, ![4096, 256]⟩ .f32) (seg : Fin 4096 → BitVec 32) : FVec Ideal ⟨2, ![128, 256]⟩ .f32 :=
  Host.scatterAdd (F := Ideal) (φ := .f32) segDims (fun _ => (0 : EReal)) (segCol seg) u

/-- The whole computation. -/
def result (x : FVec Ideal ⟨2, ![4096, 256]⟩ .f32) (ei : IVec ⟨2, ![2, 4096]⟩ 32)
    (Wq : FVec Ideal ⟨2, ![256, 256]⟩ .f32) (bq : FVec Ideal ⟨1, ![256]⟩ .f32)
    (Wk : FVec Ideal ⟨2, ![256, 256]⟩ .f32) (bk : FVec Ideal ⟨1, ![256]⟩ .f32)
    (Wv : FVec Ideal ⟨2, ![256, 256]⟩ .f32) (bv : FVec Ideal ⟨1, ![256]⟩ .f32)
    (Wo1 : FVec Ideal ⟨2, ![256, 256]⟩ .f32) (bo1 : FVec Ideal ⟨1, ![256]⟩ .f32)
    (Wo2 : FVec Ideal ⟨2, ![256, 256]⟩ .f32) (bo2 : FVec Ideal ⟨1, ![256]⟩ .f32) :
    FVec Ideal ⟨2, ![128, 256]⟩ .f32 :=
  fun i => silu (lin128 (segsum (lin4096 (attn (lin4096 x Wq bq) (lin4096 x Wk bk) (lin4096 x Wv bv) (segOf ei)) Wo1 bo1)
    (segOf ei)) Wo2 bo2 i)

/-! ### The definitions at an index built from coordinates -/

theorem lin4096_apply (x : FVec Ideal ⟨2, ![4096, 256]⟩ .f32) (W : FVec Ideal ⟨2, ![256, 256]⟩ .f32)
    (b : FVec Ideal ⟨1, ![256]⟩ .f32) (n : Fin 4096) (f : Fin 256) :
    lin4096 x W b (ix2 n f) = (∑ k : Fin 256, x (ix2 n k) * W (ix2 f k)) + b (ix1 f) := rfl

theorem lin128_apply (x : FVec Ideal ⟨2, ![128, 256]⟩ .f32) (W : FVec Ideal ⟨2, ![256, 256]⟩ .f32)
    (b : FVec Ideal ⟨1, ![256]⟩ .f32) (g : Fin 128) (f : Fin 256) :
    lin128 x W b (ix2 g f) = (∑ k : Fin 256, x (ix2 g k) * W (ix2 f k)) + b (ix1 f) := rfl

theorem attn_apply (q k v : FVec Ideal ⟨2, ![4096, 256]⟩ .f32) (seg : Fin 4096 → BitVec 32) (n : Fin 4096) (f : Fin 256) :
    attn q k v seg (ix2 n f) = ∑ m : Fin 4096,
      (silu (∑ d' : Fin 32, q (ix2 n (col (headOf f) d')) * k (ix2 m (col (headOf f) d'))) * same (seg n) (seg m))
      * v (ix2 m (col (headOf f) (laneOf f))) := rfl

/-- At a column written as lane `d` of head `h`. -/
theorem attn_apply_col (q k v : FVec Ideal ⟨2, ![4096, 256]⟩ .f32) (seg : Fin 4096 → BitVec 32) (n : Fin 4096)
    (h : Fin 8) (d : Fin 32) :
    attn q k v seg (ix2 n (col h d)) = ∑ m : Fin 4096,
      (silu (∑ d' : Fin 32, q (ix2 n (col h d')) * k (ix2 m (col h d'))) * same (seg n) (seg m))
      * v (ix2 m (col h d)) := by
  have hh : headOf (col h d) = h := by apply Fin.ext; simp only [col, headOf]; omega
  have hl : laneOf (col h d) = d := by apply Fin.ext; simp only [col, laneOf]; omega
  rw [attn_apply, hh, hl]

theorem result_apply (x : FVec Ideal ⟨2, ![4096, 256]⟩ .f32) (ei : IVec ⟨2, ![2, 4096]⟩ 32)
    (Wq : FVec Ideal ⟨2, ![256, 256]⟩ .f32) (bq : FVec Ideal ⟨1, ![256]⟩ .f32)
    (Wk : FVec Ideal ⟨2, ![256, 256]⟩ .f32) (bk : FVec Ideal ⟨1, ![256]⟩ .f32)
    (Wv : FVec Ideal ⟨2, ![256, 256]⟩ .f32) (bv : FVec Ideal ⟨1, ![256]⟩ .f32)
    (Wo1 : FVec Ideal ⟨2, ![256, 256]⟩ .f32) (bo1 : FVec Ideal ⟨1, ![256]⟩ .f32)
    (Wo2 : FVec Ideal ⟨2, ![256, 256]⟩ .f32) (bo2 : FVec Ideal ⟨1, ![256]⟩ .f32) (i : (⟨2, ![128, 256]⟩ : Shape).Idx) :
    result x ei Wq bq Wk bk Wv bv Wo1 bo1 Wo2 bo2 i
      = silu (lin128 (segsum (lin4096 (attn (lin4096 x Wq bq) (lin4096 x Wk bk) (lin4096 x Wv bv) (segOf ei)) Wo1 bo1)
          (segOf ei)) Wo2 bo2 i) := rfl

end Cert.Spec

end
-- ==== Proof.KHost0.lean ====
/-
  The first stretch of host operations, read at an index over an arbitrary entering valuation: the group ids (row 1 of
  the index array), the three projection weights transposed and laid side by side as one [256, 768] array, and the three
  biases laid end to end as one [1, 768] row.
-/
import proofs.«107387_j24197845746072_1_alg».proof.Proof.Gen.KernelIdeal.Launch
import proofs.«107387_j24197845746072_1_alg».proof.Proof.Spec
import Idealize.ShloMosaic.Lib.Pipeline.Value
import Idealize.ShloMosaic.Lib.ValueIdx

noncomputable section

namespace Cert.KernelIdeal.HostRead

open Cert.KernelIdeal Cert.KernelIdeal.Gen Idealize.ShloMosaic Idealize.ShloMosaic.TcCoe Idealize.SL.Sem Idealize.ShloMosaic.StableHlo Idealize.ShloMosaic.ValueIdx

theorem v1_term (W : Valuation τ sig (Elt Ideal)) :
    (StableHlo.after (hostOps0 (F := Ideal)) W (Proc.devRef .tc main_v1) : S4096.Idx → BitVec 32)
      = shapeCast _ (extractStridedSlice S1x4096 ![1, 0] (W (Proc.devRef .tc main_arg1)) slices_S2x4096_S1x4096_1_0) shapeCasts_S1x4096_S4096 := by
  dsimp only [hostOps0]
  after_results
  rfl

theorem v5_term (W : Valuation τ sig (Elt Ideal)) :
    (StableHlo.after (hostOps0 (F := Ideal)) W (Proc.devRef .tc main_v5) : S256x768.Idx → EReal)
      = concatenate S256x768 1 [⟨S256x256, transpose S256x256 [1, 0] (W (Proc.devRef .tc main_arg2)) transposes_S256x256_S256x256_1_0⟩,
          ⟨S256x256, transpose S256x256 [1, 0] (W (Proc.devRef .tc main_arg4)) transposes_S256x256_S256x256_1_0⟩,
          ⟨S256x256, transpose S256x256 [1, 0] (W (Proc.devRef .tc main_arg6)) transposes_S256x256_S256x256_1_0⟩]
          concatenates_S256x256_S256x256_S256x256_S256x768_d1 := by
  dsimp only [hostOps0]
  after_results
  rfl

theorem v7_term (W : Valuation τ sig (Elt Ideal)) :
    (StableHlo.after (hostOps0 (F := Ideal)) W (Proc.devRef .tc main_v7) : S1x768.Idx → EReal)
      = shapeCast _ (concatenate S768 0 [⟨S256, W (Proc.devRef .tc main_arg3)⟩, ⟨S256, W (Proc.devRef .tc main_arg5)⟩,
          ⟨S256, W (Proc.devRef .tc main_arg7)⟩] concatenates_S256_S256_S256_S768_d0) shapeCasts_S768_S1x768 := by
  dsimp only [hostOps0]
  after_results
  rfl

/-- The group ids are row 1 of the index array. -/
theorem seg_apply (W : Valuation τ sig (Elt Ideal)) (n : Fin 4096) :
    (StableHlo.after (hostOps0 (F := Ideal)) W (Proc.devRef .tc main_v1) : S4096.Idx → BitVec 32) (ix1 (n := 4096) n)
      = W (Proc.devRef .tc main_arg1) (ix2 (n0 := 2) (n1 := 4096) 1 n) := by
  rw [v1_term]
  rw [shapeCast_apply _ shapeCasts_S1x4096_S4096 (ix1 (n := 4096) n) (ix2 (n0 := 1) (n1 := 4096) 0 n)
    (by rewrite [Shape.rowMajor_val_two, Shape.rowMajor_val_one]; show 0 * 4096 + n.val = n.val; omega)]
  exact extractStridedSlice_apply ![1, 0] _ slices_S2x4096_S1x4096_1_0 _ (ix2 (n0 := 2) (n1 := 4096) 1 n) (fun a => match a with
    | ⟨0, _⟩ => rfl
    | ⟨1, _⟩ => by show n.val = 0 + n.val; omega)

/-- The same, in the specification's words. -/
theorem seg_eq (W : Valuation τ sig (Elt Ideal)) (n : Fin 4096) :
    (StableHlo.after (hostOps0 (F := Ideal)) W (Proc.devRef .tc main_v1) : S4096.Idx → BitVec 32) (ix1 (n := 4096) n)
      = Cert.Spec.segOf (W (Proc.devRef .tc main_arg1)) n := seg_apply W n

/-- Columns 0..255 of the joined weight are the query weight transposed. -/
theorem wcat_q (W : Valuation τ sig (Elt Ideal)) (k : Fin 256) (j : Fin 768) (c : Fin 256) (hj : j.val = 0 + c.val) :
    (StableHlo.after (hostOps0 (F := Ideal)) W (Proc.devRef .tc main_v5) : S256x768.Idx → EReal) (ix2 (n0 := 256) (n1 := 768) k j)
      = W (Proc.devRef .tc main_arg2) (ix2 (n0 := 256) (n1 := 256) c k) := by
  rw [v5_term]
  generalize hA : transpose S256x256 [1, 0] (W (Proc.devRef .tc main_arg2)) transposes_S256x256_S256x256_1_0 = A
  generalize hB : transpose S256x256 [1, 0] (W (Proc.devRef .tc main_arg4)) transposes_S256x256_S256x256_1_0 = B
  generalize hC : transpose S256x256 [1, 0] (W (Proc.devRef .tc main_arg6)) transposes_S256x256_S256x256_1_0 = C
  rw [concatenate_apply_piece (α := EReal) (t := S256x768) (1 : Fin 2) [⟨S256x256, A⟩, ⟨S256x256, B⟩, ⟨S256x256, C⟩]
    concatenates_S256x256_S256x256_S256x256_S256x768_d1 (ix2 (n0 := 256) (n1 := 768) k j)
    0 (by show 0 < 3; omega) S256x256 A rfl rfl 0 rfl (ix2 (n0 := 256) (n1 := 256) k c)
    (fun b hb => match b, hb with
      | ⟨0, _⟩, _ => rfl
      | ⟨1, _⟩, hb => absurd rfl hb)
    (by show 0 + c.val = j.val; omega)]
  rw [← hA]
  exact transpose_apply [1, 0] _ transposes_S256x256_S256x256_1_0 (ix2 (n0 := 256) (n1 := 256) k c) (ix2 (n0 := 256) (n1 := 256) c k)
    (fun b => match b with
      | ⟨0, _⟩ => rfl
      | ⟨1, _⟩ => rfl)

/-- Columns 256..511 of the joined weight are the key weight transposed. -/
theorem wcat_k (W : Valuation τ sig (Elt Ideal)) (k : Fin 256) (j : Fin 768) (c : Fin 256) (hj : j.val = 256 + c.val) :
    (StableHlo.after (hostOps0 (F := Ideal)) W (Proc.devRef .tc main_v5) : S256x768.Idx → EReal) (ix2 (n0 := 256) (n1 := 768) k j)
      = W (Proc.devRef .tc main_arg4) (ix2 (n0 := 256) (n1 := 256) c k) := by
  rw [v5_term]
  generalize hA : transpose S256x256 [1, 0] (W (Proc.devRef .tc main_arg2)) transposes_S256x256_S256x256_1_0 = A
  generalize hB : transpose S256x256 [1, 0] (W (Proc.devRef .tc main_arg4)) transposes_S256x256_S256x256_1_0 = B
  generalize hC : transpose S256x256 [1, 0] (W (Proc.devRef .tc main_arg6)) transposes_S256x256_S256x256_1_0 = C
  rw [concatenate_apply_piece (α := EReal) (t := S256x768) (1 : Fin 2) [⟨S256x256, A⟩, ⟨S256x256, B⟩, ⟨S256x256, C⟩]
    concatenates_S256x256_S256x256_S256x256_S256x768_d1 (ix2 (n0 := 256) (n1 := 768) k j)
    1 (by show 1 < 3; omega) S256x256 B rfl rfl 256 rfl (ix2 (n0 := 256) (n1 := 256) k c)
    (fun b hb => match b, hb with
      | ⟨0, _⟩, _ => rfl
      | ⟨1, _⟩, hb => absurd rfl hb)
    (by show 256 + c.val = j.val; omega)]
  rw [← hB]
  exact transpose_apply [1, 0] _ transposes_S256x256_S256x256_1_0 (ix2 (n0 := 256) (n1 := 256) k c) (ix2 (n0 := 256) (n1 := 256) c k)
    (fun b => match b with
      | ⟨0, _⟩ => rfl
      | ⟨1, _⟩ => rfl)

/-- Columns 512..767 of the joined weight are the value weight transposed. -/
theorem wcat_v (W : Valuation τ sig (Elt Ideal)) (k : Fin 256) (j : Fin 768) (c : Fin 256) (hj : j.val = 512 + c.val) :
    (StableHlo.after (hostOps0 (F := Ideal)) W (Proc.devRef .tc main_v5) : S256x768.Idx → EReal) (ix2 (n0 := 256) (n1 := 768) k j)
      = W (Proc.devRef .tc main_arg6) (ix2 (n0 := 256) (n1 := 256) c k) := by
  rw [v5_term]
  generalize hA : transpose S256x256 [1, 0] (W (Proc.devRef .tc main_arg2)) transposes_S256x256_S256x256_1_0 = A
  generalize hB : transpose S256x256 [1, 0] (W (Proc.devRef .tc main_arg4)) transposes_S256x256_S256x256_1_0 = B
  generalize hC : transpose S256x256 [1, 0] (W (Proc.devRef .tc main_arg6)) transposes_S256x256_S256x256_1_0 = C
  rw [concatenate_apply_piece (α := EReal) (t := S256x768) (1 : Fin 2) [⟨S256x256, A⟩, ⟨S256x256, B⟩, ⟨S256x256, C⟩]
    concatenates_S256x256_S256x256_S256x256_S256x768_d1 (ix2 (n0 := 256) (n1 := 768) k j)
    2 (by show 2 < 3; omega) S256x256 C rfl rfl 512 rfl (ix2 (n0 := 256) (n1 := 256) k c)
    (fun b hb => match b, hb with
      | ⟨0, _⟩, _ => rfl
      | ⟨1, _⟩, hb => absurd rfl hb)
    (by show 512 + c.val = j.val; omega)]
  rw [← hC]
  exact transpose_apply [1, 0] _ transposes_S256x256_S256x256_1_0 (ix2 (n0 := 256) (n1 := 256) k c) (ix2 (n0 := 256) (n1 := 256) c k)
    (fun b => match b with
      | ⟨0, _⟩ => rfl
      | ⟨1, _⟩ => rfl)

/-- Entries 0..255 of the joined bias row are the query bias. -/
theorem bcat_q (W : Valuation τ sig (Elt Ideal)) (j : Fin 768) (c : Fin 256) (hj : j.val = 0 + c.val) :
    (StableHlo.after (hostOps0 (F := Ideal)) W (Proc.devRef .tc main_v7) : S1x768.Idx → EReal) (ix2 (n0 := 1) (n1 := 768) 0 j)
      = W (Proc.devRef .tc main_arg3) (ix1 (n := 256) c) := by
  rw [v7_term]
  rw [shapeCast_apply _ shapeCasts_S768_S1x768 (ix2 (n0 := 1) (n1 := 768) 0 j) (ix1 (n := 768) j)
    (by rewrite [Shape.rowMajor_val_two, Shape.rowMajor_val_one]; show j.val = 0 * 768 + j.val; omega)]
  exact concatenate_apply_piece (α := EReal) (t := S768) (0 : Fin 1)
    [⟨S256, W (Proc.devRef .tc main_arg3)⟩, ⟨S256, W (Proc.devRef .tc main_arg5)⟩, ⟨S256, W (Proc.devRef .tc main_arg7)⟩]
    concatenates_S256_S256_S256_S768_d0 (ix1 (n := 768) j)
    0 (by show 0 < 3; omega) S256 (W (Proc.devRef .tc main_arg3)) rfl rfl 0 rfl (ix1 (n := 256) c)
    (fun b hb => match b, hb with
      | ⟨0, _⟩, hb => absurd rfl hb)
    (by show 0 + c.val = j.val; omega)

/-- Entries 256..511 of the joined bias row are the key bias. -/
theorem bcat_k (W : Valuation τ sig (Elt Ideal)) (j : Fin 768) (c : Fin 256) (hj : j.val = 256 + c.val) :
    (StableHlo.after (hostOps0 (F := Ideal)) W (Proc.devRef .tc main_v7) : S1x768.Idx → EReal) (ix2 (n0 := 1) (n1 := 768) 0 j)
      = W (Proc.devRef .tc main_arg5) (ix1 (n := 256) c) := by
  rw [v7_term]
  rw [shapeCast_apply _ shapeCasts_S768_S1x768 (ix2 (n0 := 1) (n1 := 768) 0 j) (ix1 (n := 768) j)
    (by rewrite [Shape.rowMajor_val_two, Shape.rowMajor_val_one]; show j.val = 0 * 768 + j.val; omega)]
  exact concatenate_apply_piece (α := EReal) (t := S768) (0 : Fin 1)
    [⟨S256, W (Proc.devRef .tc main_arg3)⟩, ⟨S256, W (Proc.devRef .tc main_arg5)⟩, ⟨S256, W (Proc.devRef .tc main_arg7)⟩]
    concatenates_S256_S256_S256_S768_d0 (ix1 (n := 768) j)
    1 (by show 1 < 3; omega) S256 (W (Proc.devRef .tc main_arg5)) rfl rfl 256 rfl (ix1 (n := 256) c)
    (fun b hb => match b, hb with
      | ⟨0, _⟩, hb => absurd rfl hb)
    (by show 256 + c.val = j.val; omega)

/-- Entries 512..767 of the joined bias row are the value bias. -/
theorem bcat_v (W : Valuation τ sig (Elt Ideal)) (j : Fin 768) (c : Fin 256) (hj : j.val = 512 + c.val) :
    (StableHlo.after (hostOps0 (F := Ideal)) W (Proc.devRef .tc main_v7) : S1x768.Idx → EReal) (ix2 (n0 := 1) (n1 := 768) 0 j)
      = W (Proc.devRef .tc main_arg7) (ix1 (n := 256) c) := by
  rw [v7_term]
  rw [shapeCast_apply _ shapeCasts_S768_S1x768 (ix2 (n0 := 1) (n1 := 768) 0 j) (ix1 (n := 768) j)
    (by rewrite [Shape.rowMajor_val_two, Shape.rowMajor_val_one]; show j.val = 0 * 768 + j.val; omega)]
  exact concatenate_apply_piece (α := EReal) (t := S768) (0 : Fin 1)
    [⟨S256, W (Proc.devRef .tc main_arg3)⟩, ⟨S256, W (Proc.devRef .tc main_arg5)⟩, ⟨S256, W (Proc.devRef .tc main_arg7)⟩]
    concatenates_S256_S256_S256_S768_d0 (ix1 (n := 768) j)
    2 (by show 2 < 3; omega) S256 (W (Proc.devRef .tc main_arg7)) rfl rfl 512 rfl (ix1 (n := 256) c)
    (fun b hb => match b, hb with
      | ⟨0, _⟩, hb => absurd rfl hb)
    (by show 512 + c.val = j.val; omega)

end Cert.KernelIdeal.HostRead

end
-- ==== Proof.KV0.lean ====
/-
  The fused projection. Region 0 multiplies the rows x by the three transposed weight matrices laid side by side and
  adds the three biases laid end to end; so column 256·s + f of what it leaves (s = 0, 1, 2 for queries, keys, values)
  is entry f of the s-th affine layer x · Wₛᵀ + bₛ. The segment ids the later stretches read are row 1 of the index
  argument.
-/
import proofs.«107387_j24197845746072_1_alg».proof.Proof.Boundaries
import proofs.«107387_j24197845746072_1_alg».proof.Proof.AffineValue0
import proofs.«107387_j24197845746072_1_alg».proof.Proof.KHost0
import proofs.«107387_j24197845746072_1_alg».proof.Proof.Spec

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- Columns 0..255 of region 0's output: the q-projection. -/
theorem proj_q (c : Dev nD) (n : Fin 4096) (f : Fin 256) (j : Fin 768) (hj : j.val = 0 + f.val) :
    (B2 m c (Proc.devRef .tc main_v8) : S4096x768.Idx → EReal) (ix2 (n0 := 4096) (n1 := 768) n j)
      = Cert.Spec.lin4096 (m ((c : Thread nD τ).loc main_arg0)) (m ((c : Thread nD τ).loc main_arg2)) (m ((c : Thread nD τ).loc main_arg3)) (ix2 (n0 := 4096) (n1 := 256) n f) := by
  rw [B2_out, AffineValue0.final (In1 m) c, Cert.Spec.lin4096_apply]
  show (∑ k : Fin 256, AffineValue0.rowsArr (In1 m) c (ix2 n k) * AffineValue0.weightsArr (In1 m) c (ix2 k j))
      + AffineValue0.biasArr (In1 m) c (ix2 (0 : Fin 1) j) = _
  refine congrArg₂ (· + ·) (Finset.sum_congr rfl fun k _ => congrArg₂ (· * ·) ?_ ?_) ?_
  · exact congrFun (B1_launch m c main_arg0 (by decide)) _
  · exact HostRead.wcat_q (B0 m c) k j f hj
  · exact HostRead.bcat_q (B0 m c) j f hj

/-- Columns 256..511 of region 0's output: the k-projection. -/
theorem proj_k (c : Dev nD) (n : Fin 4096) (f : Fin 256) (j : Fin 768) (hj : j.val = 256 + f.val) :
    (B2 m c (Proc.devRef .tc main_v8) : S4096x768.Idx → EReal) (ix2 (n0 := 4096) (n1 := 768) n j)
      = Cert.Spec.lin4096 (m ((c : Thread nD τ).loc main_arg0)) (m ((c : Thread nD τ).loc main_arg4)) (m ((c : Thread nD τ).loc main_arg5)) (ix2 (n0 := 4096) (n1 := 256) n f) := by
  rw [B2_out, AffineValue0.final (In1 m) c, Cert.Spec.lin4096_apply]
  show (∑ k : Fin 256, AffineValue0.rowsArr (In1 m) c (ix2 n k) * AffineValue0.weightsArr (In1 m) c (ix2 k j))
      + AffineValue0.biasArr (In1 m) c (ix2 (0 : Fin 1) j) = _
  refine congrArg₂ (· + ·) (Finset.sum_congr rfl fun k _ => congrArg₂ (· * ·) ?_ ?_) ?_
  · exact congrFun (B1_launch m c main_arg0 (by decide)) _
  · exact HostRead.wcat_k (B0 m c) k j f hj
  · exact HostRead.bcat_k (B0 m c) j f hj

/-- Columns 512..767 of region 0's output: the v-projection. -/
theorem proj_v (c : Dev nD) (n : Fin 4096) (f : Fin 256) (j : Fin 768) (hj : j.val = 512 + f.val) :
    (B2 m c (Proc.devRef .tc main_v8) : S4096x768.Idx → EReal) (ix2 (n0 := 4096) (n1 := 768) n j)
      = Cert.Spec.lin4096 (m ((c : Thread nD τ).loc main_arg0)) (m ((c : Thread nD τ).loc main_arg6)) (m ((c : Thread nD τ).loc main_arg7)) (ix2 (n0 := 4096) (n1 := 256) n f) := by
  rw [B2_out, AffineValue0.final (In1 m) c, Cert.Spec.lin4096_apply]
  show (∑ k : Fin 256, AffineValue0.rowsArr (In1 m) c (ix2 n k) * AffineValue0.weightsArr (In1 m) c (ix2 k j))
      + AffineValue0.biasArr (In1 m) c (ix2 (0 : Fin 1) j) = _
  refine congrArg₂ (· + ·) (Finset.sum_congr rfl fun k _ => congrArg₂ (· * ·) ?_ ?_) ?_
  · exact congrFun (B1_launch m c main_arg0 (by decide)) _
  · exact HostRead.wcat_v (B0 m c) k j f hj
  · exact HostRead.bcat_v (B0 m c) j f hj

/-- The segment ids at the first region's entry are row 1 of the index argument. -/
theorem seg_B1 (c : Dev nD) (n : Fin 4096) :
    (B1 m c (Proc.devRef .tc main_v1) : S4096.Idx → BitVec 32) (ix1 (n := 4096) n) = Cert.Spec.segOf (m ((c : Thread nD τ).loc main_arg1)) n :=
  HostRead.seg_eq (B0 m c) n

end Cert.KernelIdeal.Value

end
-- ==== Proof.KHost1.lean ====
/-
  The second stretch of host operations, read at an index over an arbitrary entering valuation: the joined projection
  [4096, 768] cut into its three [4096, 256] parts, each split into 8 heads of 32 lanes and laid out head-major
  ([8, 4096, 32]; the conversion to the narrower float format is the identity on extended reals), and the group ids as a
  column and as a row.
-/
import proofs.«107387_j24197845746072_1_alg».proof.Proof.Gen.KernelIdeal.Launch
import proofs.«107387_j24197845746072_1_alg».proof.Proof.Spec
import Idealize.ShloMosaic.Lib.Pipeline.Value
import Idealize.ShloMosaic.Lib.ValueIdx

noncomputable section

namespace Cert.KernelIdeal.HostRead

open Cert.KernelIdeal Cert.KernelIdeal.Gen Idealize.ShloMosaic Idealize.ShloMosaic.TcCoe Idealize.SL.Sem Idealize.ShloMosaic.StableHlo Idealize.ShloMosaic.ValueIdx

theorem qh_term (W : Valuation τ sig (Elt Ideal)) :
    (StableHlo.after (hostOps1 (F := Ideal)) W (Proc.devRef .tc main_v14) : S8x4096x32.Idx → EReal)
      = (truncf (F := Ideal) (φ := .f32) .bf16 (transpose S8x4096x32 [1, 0, 2] (shapeCast _ (extractStridedSlice S4096x256 ![0, 0]
          (W (Proc.devRef .tc main_v8) : S4096x768.Idx → EReal) slices_S4096x768_S4096x256_0_0) shapeCasts_S4096x256_S4096x8x32)
          transposes_S4096x8x32_S8x4096x32_1_0_2) bitsLt_bf16_f32 : S8x4096x32.Idx → EReal) := by
  dsimp only [hostOps1]
  after_results
  rfl

/-- The query heads: head h, row n, lane d is column 32h + d of the joined projection. -/
theorem qh_apply (W : Valuation τ sig (Elt Ideal)) (h : Fin 8) (n : Fin 4096) (d : Fin 32) (j : Fin 768)
    (hj : j.val = 0 + (32 * h.val + d.val)) :
    (StableHlo.after (hostOps1 (F := Ideal)) W (Proc.devRef .tc main_v14) : S8x4096x32.Idx → EReal) (ix3 (n0 := 8) (n1 := 4096) (n2 := 32) h n d)
      = W (Proc.devRef .tc main_v8) (ix2 (n0 := 4096) (n1 := 768) n j) := by
  rw [qh_term, truncf_apply]
  rw [transpose_apply [1, 0, 2] _ transposes_S4096x8x32_S8x4096x32_1_0_2 (ix3 (n0 := 8) (n1 := 4096) (n2 := 32) h n d)
    (ix3 (n0 := 4096) (n1 := 8) (n2 := 32) n h d) (fun b => match b with
      | ⟨0, _⟩ => rfl
      | ⟨1, _⟩ => rfl
      | ⟨2, _⟩ => rfl)]
  rw [shapeCast_apply _ shapeCasts_S4096x256_S4096x8x32 (ix3 (n0 := 4096) (n1 := 8) (n2 := 32) n h d)
    (ix2 (n0 := 4096) (n1 := 256) n (Cert.Spec.col h d))
    (by rewrite [Shape.rowMajor_val_two, Shape.rowMajor_val_three]
        show n.val * 256 + (32 * h.val + d.val) = (n.val * 8 + h.val) * 32 + d.val
        omega)]
  exact extractStridedSlice_apply ![0, 0] _ slices_S4096x768_S4096x256_0_0 _ (ix2 (n0 := 4096) (n1 := 768) n j) (fun a => match a with
    | ⟨0, _⟩ => by show n.val = 0 + n.val; omega
    | ⟨1, _⟩ => by show j.val = 0 + (32 * h.val + d.val); omega)

theorem kh_term (W : Valuation τ sig (Elt Ideal)) :
    (StableHlo.after (hostOps1 (F := Ideal)) W (Proc.devRef .tc main_v17) : S8x4096x32.Idx → EReal)
      = (truncf (F := Ideal) (φ := .f32) .bf16 (transpose S8x4096x32 [1, 0, 2] (shapeCast _ (extractStridedSlice S4096x256 ![0, 256]
          (W (Proc.devRef .tc main_v8) : S4096x768.Idx → EReal) slices_S4096x768_S4096x256_0_256) shapeCasts_S4096x256_S4096x8x32)
          transposes_S4096x8x32_S8x4096x32_1_0_2) bitsLt_bf16_f32 : S8x4096x32.Idx → EReal) := by
  dsimp only [hostOps1]
  after_results
  rfl

/-- The key heads: head h, row n, lane d is column 256 + 32h + d of the joined projection. -/
theorem kh_apply (W : Valuation τ sig (Elt Ideal)) (h : Fin 8) (n : Fin 4096) (d : Fin 32) (j : Fin 768)
    (hj : j.val = 256 + (32 * h.val + d.val)) :
    (StableHlo.after (hostOps1 (F := Ideal)) W (Proc.devRef .tc main_v17) : S8x4096x32.Idx → EReal) (ix3 (n0 := 8) (n1 := 4096) (n2 := 32) h n d)
      = W (Proc.devRef .tc main_v8) (ix2 (n0 := 4096) (n1 := 768) n j) := by
  rw [kh_term, truncf_apply]
  rw [transpose_apply [1, 0, 2] _ transposes_S4096x8x32_S8x4096x32_1_0_2 (ix3 (n0 := 8) (n1 := 4096) (n2 := 32) h n d)
    (ix3 (n0 := 4096) (n1 := 8) (n2 := 32) n h d) (fun b => match b with
      | ⟨0, _⟩ => rfl
      | ⟨1, _⟩ => rfl
      | ⟨2, _⟩ => rfl)]
  rw [shapeCast_apply _ shapeCasts_S4096x256_S4096x8x32 (ix3 (n0 := 4096) (n1 := 8) (n2 := 32) n h d)
    (ix2 (n0 := 4096) (n1 := 256) n (Cert.Spec.col h d))
    (by rewrite [Shape.rowMajor_val_two, Shape.rowMajor_val_three]
        show n.val * 256 + (32 * h.val + d.val) = (n.val * 8 + h.val) * 32 + d.val
        omega)]
  exact extractStridedSlice_apply ![0, 256] _ slices_S4096x768_S4096x256_0_256 _ (ix2 (n0 := 4096) (n1 := 768) n j) (fun a => match a with
    | ⟨0, _⟩ => by show n.val = 0 + n.val; omega
    | ⟨1, _⟩ => by show j.val = 256 + (32 * h.val + d.val); omega)

theorem vh_term (W : Valuation τ sig (Elt Ideal)) :
    (StableHlo.after (hostOps1 (F := Ideal)) W (Proc.devRef .tc main_v20) : S8x4096x32.Idx → EReal)
      = (truncf (F := Ideal) (φ := .f32) .bf16 (transpose S8x4096x32 [1, 0, 2] (shapeCast _ (extractStridedSlice S4096x256 ![0, 512]
          (W (Proc.devRef .tc main_v8) : S4096x768.Idx → EReal) slices_S4096x768_S4096x256_0_512) shapeCasts_S4096x256_S4096x8x32)
          transposes_S4096x8x32_S8x4096x32_1_0_2) bitsLt_bf16_f32 : S8x4096x32.Idx → EReal) := by
  dsimp only [hostOps1]
  after_results
  rfl

/-- The value heads: head h, row n, lane d is column 512 + 32h + d of the joined projection. -/
theorem vh_apply (W : Valuation τ sig (Elt Ideal)) (h : Fin 8) (n : Fin 4096) (d : Fin 32) (j : Fin 768)
    (hj : j.val = 512 + (32 * h.val + d.val)) :
    (StableHlo.after (hostOps1 (F := Ideal)) W (Proc.devRef .tc main_v20) : S8x4096x32.Idx → EReal) (ix3 (n0 := 8) (n1 := 4096) (n2 := 32) h n d)
      = W (Proc.devRef .tc main_v8) (ix2 (n0 := 4096) (n1 := 768) n j) := by
  rw [vh_term, truncf_apply]
  rw [transpose_apply [1, 0, 2] _ transposes_S4096x8x32_S8x4096x32_1_0_2 (ix3 (n0 := 8) (n1 := 4096) (n2 := 32) h n d)
    (ix3 (n0 := 4096) (n1 := 8) (n2 := 32) n h d) (fun b => match b with
      | ⟨0, _⟩ => rfl
      | ⟨1, _⟩ => rfl
      | ⟨2, _⟩ => rfl)]
  rw [shapeCast_apply _ shapeCasts_S4096x256_S4096x8x32 (ix3 (n0 := 4096) (n1 := 8) (n2 := 32) n h d)
    (ix2 (n0 := 4096) (n1 := 256) n (Cert.Spec.col h d))
    (by rewrite [Shape.rowMajor_val_two, Shape.rowMajor_val_three]
        show n.val * 256 + (32 * h.val + d.val) = (n.val * 8 + h.val) * 32 + d.val
        omega)]
  exact extractStridedSlice_apply ![0, 512] _ slices_S4096x768_S4096x256_0_512 _ (ix2 (n0 := 4096) (n1 := 768) n j) (fun a => match a with
    | ⟨0, _⟩ => by show n.val = 0 + n.val; omega
    | ⟨1, _⟩ => by show j.val = 512 + (32 * h.val + d.val); omega)

theorem segcol_term (W : Valuation τ sig (Elt Ideal)) :
    (StableHlo.after (hostOps1 (F := Ideal)) W (Proc.devRef .tc main_v21) : S4096x1.Idx → BitVec 32)
      = shapeCast _ (W (Proc.devRef .tc main_v1)) shapeCasts_S4096_S4096x1 := by
  dsimp only [hostOps1]
  after_results
  rfl

/-- The group ids as a column. -/
theorem segcol_apply (W : Valuation τ sig (Elt Ideal)) (n : Fin 4096) :
    (StableHlo.after (hostOps1 (F := Ideal)) W (Proc.devRef .tc main_v21) : S4096x1.Idx → BitVec 32) (ix2 (n0 := 4096) (n1 := 1) n 0)
      = W (Proc.devRef .tc main_v1) (ix1 (n := 4096) n) := by
  rw [segcol_term]
  exact shapeCast_apply _ shapeCasts_S4096_S4096x1 (ix2 (n0 := 4096) (n1 := 1) n 0) (ix1 (n := 4096) n)
    (by rewrite [Shape.rowMajor_val_two, Shape.rowMajor_val_one]; show n.val = n.val * 1 + 0; omega)

theorem segrow_term (W : Valuation τ sig (Elt Ideal)) :
    (StableHlo.after (hostOps1 (F := Ideal)) W (Proc.devRef .tc main_v22) : S1x4096.Idx → BitVec 32)
      = shapeCast _ (W (Proc.devRef .tc main_v1)) shapeCasts_S4096_S1x4096 := by
  dsimp only [hostOps1]
  after_results
  rfl

/-- The group ids as a row. -/
theorem segrow_apply (W : Valuation τ sig (Elt Ideal)) (n : Fin 4096) :
    (StableHlo.after (hostOps1 (F := Ideal)) W (Proc.devRef .tc main_v22) : S1x4096.Idx → BitVec 32) (ix2 (n0 := 1) (n1 := 4096) 0 n)
      = W (Proc.devRef .tc main_v1) (ix1 (n := 4096) n) := by
  rw [segrow_term]
  exact shapeCast_apply _ shapeCasts_S4096_S1x4096 (ix2 (n0 := 1) (n1 := 4096) 0 n) (ix1 (n := 4096) n)
    (by rewrite [Shape.rowMajor_val_two, Shape.rowMajor_val_one]; show n.val = 0 * 4096 + n.val; omega)

end Cert.KernelIdeal.HostRead

end
-- ==== Proof.KV1.lean ====
/-
  The attention region's operands. Head h of the queries at (n, d) is entry 32·h + d of row n of the q-projection
  (a column slice of region 0's output, split into heads and moved to the front; changing the float format changes
  nothing), and likewise for keys and values; the two segment-id operands are the segment ids as a column and as a row.
-/
import proofs.«107387_j24197845746072_1_alg».proof.Proof.KV0
import proofs.«107387_j24197845746072_1_alg».proof.Proof.KHost1

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- Head h of the q-operand at (n, d). -/
theorem head_q (c : Dev nD) (h : Fin 8) (n : Fin 4096) (d : Fin 32) :
    (In3 m c main_v14 : S8x4096x32.Idx → EReal) (ix3 (n0 := 8) (n1 := 4096) (n2 := 32) h n d)
      = Cert.Spec.lin4096 (m ((c : Thread nD τ).loc main_arg0)) (m ((c : Thread nD τ).loc main_arg2)) (m ((c : Thread nD τ).loc main_arg3)) (ix2 (n0 := 4096) (n1 := 256) n (Cert.Spec.col h d)) :=
  (HostRead.qh_apply (B2 m c) h n d ⟨0 + (32 * h.val + d.val), by have := h.isLt; have := d.isLt; omega⟩ rfl).trans
    (proj_q m c n (Cert.Spec.col h d) _ rfl)

/-- Head h of the k-operand at (n, d). -/
theorem head_k (c : Dev nD) (h : Fin 8) (n : Fin 4096) (d : Fin 32) :
    (In3 m c main_v17 : S8x4096x32.Idx → EReal) (ix3 (n0 := 8) (n1 := 4096) (n2 := 32) h n d)
      = Cert.Spec.lin4096 (m ((c : Thread nD τ).loc main_arg0)) (m ((c : Thread nD τ).loc main_arg4)) (m ((c : Thread nD τ).loc main_arg5)) (ix2 (n0 := 4096) (n1 := 256) n (Cert.Spec.col h d)) :=
  (HostRead.kh_apply (B2 m c) h n d ⟨256 + (32 * h.val + d.val), by have := h.isLt; have := d.isLt; omega⟩ rfl).trans
    (proj_k m c n (Cert.Spec.col h d) _ rfl)

/-- Head h of the v-operand at (n, d). -/
theorem head_v (c : Dev nD) (h : Fin 8) (n : Fin 4096) (d : Fin 32) :
    (In3 m c main_v20 : S8x4096x32.Idx → EReal) (ix3 (n0 := 8) (n1 := 4096) (n2 := 32) h n d)
      = Cert.Spec.lin4096 (m ((c : Thread nD τ).loc main_arg0)) (m ((c : Thread nD τ).loc main_arg6)) (m ((c : Thread nD τ).loc main_arg7)) (ix2 (n0 := 4096) (n1 := 256) n (Cert.Spec.col h d)) :=
  (HostRead.vh_apply (B2 m c) h n d ⟨512 + (32 * h.val + d.val), by have := h.isLt; have := d.isLt; omega⟩ rfl).trans
    (proj_v m c n (Cert.Spec.col h d) _ rfl)

/-- The segment ids after region 0 are still row 1 of the index argument. -/
theorem seg_B2 (c : Dev nD) (n : Fin 4096) :
    (B2 m c (Proc.devRef .tc main_v1) : S4096.Idx → BitVec 32) (ix1 (n := 4096) n) = Cert.Spec.segOf (m ((c : Thread nD τ).loc main_arg1)) n :=
  (congrFun (B2_kept m c main_v1 (by decide)) _).trans (seg_B1 m c n)

/-- The query-side segment ids, a column. -/
theorem segcol_In3 (c : Dev nD) (n : Fin 4096) :
    (In3 m c main_v21 : S4096x1.Idx → BitVec 32) (ix2 (n0 := 4096) (n1 := 1) n 0) = Cert.Spec.segOf (m ((c : Thread nD τ).loc main_arg1)) n :=
  (HostRead.segcol_apply (B2 m c) n).trans (seg_B2 m c n)

/-- The key-side segment ids, a row. -/
theorem segrow_In3 (c : Dev nD) (n : Fin 4096) :
    (In3 m c main_v22 : S1x4096.Idx → BitVec 32) (ix2 (n0 := 1) (n1 := 4096) 0 n) = Cert.Spec.segOf (m ((c : Thread nD τ).loc main_arg1)) n :=
  (HostRead.segrow_apply (B2 m c) n).trans (seg_B2 m c n)

end Cert.KernelIdeal.Value

end
-- ==== Proof.AttnPieces.lean ====
import proofs.«107387_j24197845746072_1_alg».proof.Proof.Attn
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each case of the attention body leaves, as payloads of the blocks

The pieces the runs found, read back: the accumulator after a point is the body's sum payload of the point's blocks
over what the accumulator held (zero at the first key tile); the output block at the last key tile is that sum,
reshaped. -/

theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- First key tile: the accumulator ends at the sum payload over the zero fill. -/
theorem accAfter_first_eq (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : firstKv i) (hc1 : ¬lastKv i)
    (xq : Vec F S1x1024x32 .bf16) (xk : Vec F S1x1024x32 .bf16) (xv : Vec F S1x1024x32 .bf16) (xqs : Vec F S1024x1 .i32) (xks : Vec F S1x1024 .i32) :
    accAfter_first c i arg3 harg3 arg4 harg4 arg5 harg5 arg6 harg6 arg7 harg7 arg8 harg8 arg9 harg9 hc0 hc1 xq xk xv xqs xks = k1_pay3 xq xk xqs xks (k1_pay2 (F := F)) xv := by
  have hz2 := zeroOffsets2; have hz3 := zeroOffsets3
  unfold accAfter_first
  rw [View.read_writes_eq_canon _ _ _ (accCover_first c i arg3 harg3 arg4 harg4 arg5 harg5 arg6 harg6 arg7 harg7 arg8 harg8 arg9 harg9 hc0 hc1 xq xk xv xqs xks)]
  unfold attnRun_first
  dsimp only
  sl_unfold_words
  rw [View.canon_cons_unit_zero (S := S1024x32) hz2, View.readCov_unit_zero (S := S1024x32) _ hz2]
  simp only [View.readAt_eq_ld, harg3.read_unread, harg4.read_unread, harg5.read_unread, harg6.read_unread, harg7.read_unread, harg9.read_unread,
    View.ld_unit_zero (S := S1x1024x32) hz3, View.ld_unit_zero (S := S1024x32) hz2, View.ld_unit_zero (S := S1024x1) hz2, View.ld_unit_zero (S := S1x1024) hz2]

/-- Middle key tile: the accumulator ends at the sum payload over what it held. -/
theorem accAfter_middle_eq (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : ¬lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    accAfter_middle c i arg3 harg3 arg4 harg4 arg5 harg5 arg6 harg6 arg7 harg7 arg8 harg8 arg9 harg9 hc0 hc1 xq xk xv xqs xks xacc = k1_pay3 xq xk xqs xks xacc xv := by
  have hz2 := zeroOffsets2; have hz3 := zeroOffsets3
  unfold accAfter_middle
  rw [View.read_writes_eq_canon _ _ _ (accCover_middle c i arg3 harg3 arg4 harg4 arg5 harg5 arg6 harg6 arg7 harg7 arg8 harg8 arg9 harg9 hc0 hc1 xq xk xv xqs xks xacc)]
  unfold attnRun_middle
  dsimp only
  rw [View.canon_unit_zero hz2]
  simp only [View.readAt_eq_ld, harg3.read_unread, harg4.read_unread, harg5.read_unread, harg6.read_unread, harg7.read_unread, harg9.read_unread,
    View.ld_unit_zero (S := S1x1024x32) hz3, View.ld_unit_zero (S := S1024x32) hz2, View.ld_unit_zero (S := S1024x1) hz2, View.ld_unit_zero (S := S1x1024) hz2]

/-- Last key tile: the accumulator likewise, -/
theorem accAfter_last_eq (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    accAfter_last c i arg3 harg3 arg4 harg4 arg5 harg5 arg6 harg6 arg7 harg7 arg8 harg8 arg9 harg9 hc0 hc1 xq xk xv xqs xks xacc = k1_pay3 xq xk xqs xks xacc xv := by
  have hz2 := zeroOffsets2; have hz3 := zeroOffsets3
  unfold accAfter_last
  rw [View.read_writes_eq_canon _ _ _ (accCover_last c i arg3 harg3 arg4 harg4 arg5 harg5 arg6 harg6 arg7 harg7 arg8 harg8 arg9 harg9 hc0 hc1 xq xk xv xqs xks xacc)]
  unfold attnRun_last
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x1024x32) hz3, View.ld_unit_zero (S := S1024x32) hz2, View.ld_unit_zero (S := S1024x1) hz2, View.ld_unit_zero (S := S1x1024) hz2]

/-- and the output block is that sum with a leading unit axis. -/
theorem outAfter_last_eq (c : Dev nD) (i : grid1.Coords) (arg3 : Memref sig .tc .vmem S1x1024x32 .bf16) (harg3 : arg3.IsWhole) (arg4 : Memref sig .tc .vmem S1x1024x32 .bf16) (harg4 : arg4.IsWhole) (arg5 : Memref sig .tc .vmem S1x1024x32 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1024x32 .f32) (harg8 : arg8.IsWhole) (arg9 : Memref sig .tc .vmem S1024x32 .f32) (harg9 : arg9.IsWhole) (hc0 : ¬firstKv i) (hc1 : lastKv i)
    (xq : Vec F S1x1024x32 .bf16) (xk : Vec F S1x1024x32 .bf16) (xv : Vec F S1x1024x32 .bf16) (xqs : Vec F S1024x1 .i32) (xks : Vec F S1x1024 .i32) (xacc : Vec F S1024x32 .f32) :
    outAfter_last c i arg3 harg3 arg4 harg4 arg5 harg5 arg6 harg6 arg7 harg7 arg8 harg8 arg9 harg9 hc0 hc1 xq xk xv xqs xks xacc = k1_pay1 (k1_pay3 xq xk xqs xks xacc xv) := by
  have hz2 := zeroOffsets2; have hz3 := zeroOffsets3
  unfold outAfter_last
  rw [View.read_writes_eq_canon _ _ _ (outCover_last c i arg3 harg3 arg4 harg4 arg5 harg5 arg6 harg6 arg7 harg7 arg8 harg8 arg9 harg9 hc0 hc1 xq xk xv xqs xks xacc)]
  unfold attnRun_last
  dsimp only
  sl_unfold_words
  rw [View.canon_unit_zero hz3, View.readCov_unit_zero (S := S1024x32) _ hz2]
  simp only [View.readAt_eq_ld, harg3.read_unread, harg4.read_unread, harg5.read_unread, harg6.read_unread, harg7.read_unread, harg9.read_unread,
    View.ld_unit_zero (S := S1x1024x32) hz3, View.ld_unit_zero (S := S1024x32) hz2, View.ld_unit_zero (S := S1024x1) hz2, View.ld_unit_zero (S := S1x1024) hz2]

end Cert.KernelIdeal.Gen

end
-- ==== Proof.AttnBlocks.lean ====
import proofs.«107387_j24197845746072_1_alg».proof.Proof.AttnShared
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The attention region's blocks, as entries of the arrays

Point `t` of the grid is (head, query tile, key tile) = (`t / 16`, `t / 4 % 4`, `t % 4`). A query-side block is rows
`1024 * (t / 4 % 4) + r` of its array, a key-side block rows `1024 * (t % 4) + m`; the head selects the leading axis. -/

/-- Where the windows' index maps send point `t`: decided over the grid. -/
theorem qIndex : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
theorem kIndex : ∀ t : Fin cfg1.N, win1_1.index t 0 = t.val / 16 ∧ win1_1.index t 1 = t.val % 4 ∧ win1_1.index t 2 = 0 :=
  (by decide +kernel : ∀ t : Fin grid1.N, win1_1.index t 0 = t.val / 16 ∧ win1_1.index t 1 = t.val % 4 ∧ win1_1.index t 2 = 0)
theorem vIndex : ∀ t : Fin cfg1.N, win1_2.index t 0 = t.val / 16 ∧ win1_2.index t 1 = t.val % 4 ∧ win1_2.index t 2 = 0 :=
  (by decide +kernel : ∀ t : Fin grid1.N, win1_2.index t 0 = t.val / 16 ∧ win1_2.index t 1 = t.val % 4 ∧ win1_2.index t 2 = 0)
theorem qsegIndex : ∀ t : Fin cfg1.N, win1_3.index t 0 = t.val / 4 % 4 ∧ win1_3.index t 1 = 0 :=
  (by decide +kernel : ∀ t : Fin grid1.N, win1_3.index t 0 = t.val / 4 % 4 ∧ win1_3.index t 1 = 0)
theorem ksegIndex : ∀ t : Fin cfg1.N, win1_4.index t 0 = 0 ∧ win1_4.index t 1 = t.val % 4 :=
  (by decide +kernel : ∀ t : Fin grid1.N, win1_4.index t 0 = 0 ∧ win1_4.index t 1 = t.val % 4)
theorem outIndex : ∀ t : Fin cfg1.N, win1_5.index t 0 = t.val / 16 ∧ win1_5.index t 1 = t.val / 4 % 4 ∧ win1_5.index t 2 = 0 :=
  (by decide +kernel : ∀ t : Fin grid1.N, win1_5.index t 0 = t.val / 16 ∧ win1_5.index t 1 = t.val / 4 % 4 ∧ win1_5.index t 2 = 0)

/-- The head of point `t`. -/
def headOf (t : Fin cfg1.N) : Fin 8 := ⟨t.val / 16, by have := lt_of_lt_of_eq t.isLt (show cfg1.N = 128 from N_1); omega⟩
/-- Row `r` of tile `j` (1024 rows to a tile) among the 4096 rows. -/
def tileRow (j : Fin 4) (r : Fin 1024) : Fin 4096 := ⟨1024 * j.val + r.val, by have := r.isLt; have := j.isLt; omega⟩
/-- The query tile of point `t`. -/
def qTileOf (t : Fin cfg1.N) : Fin 4 := ⟨t.val / 4 % 4, Nat.mod_lt _ (by decide)⟩
/-- The key tile of point `t`. -/
def kvTileOf (t : Fin cfg1.N) : Fin 4 := ⟨t.val % 4, Nat.mod_lt _ (by decide)⟩
/-- Row `r` of point `t`'s query tile. -/
def qRow (t : Fin cfg1.N) (r : Fin 1024) : Fin 4096 := tileRow (qTileOf t) r
/-- Row `m` of point `t`'s key tile. -/
def kvRow (t : Fin cfg1.N) (m : Fin 1024) : Fin 4096 := tileRow (kvTileOf t) m

section AttnRegion

variable (V : (c : Dev nD) → (b : Ref sig .tc) → Buf (Elt F) ((c : Thread nD τ).loc b))

/-- The query block at point `t`: rows of the point's query tile, under its head. -/
theorem qBlock_apply (c : Dev nD) (t : Fin cfg1.N) (r : Fin 1024) (e : Fin 32) :
    (iblk1 V c 0 t : Vec F S1x1024x32 .bf16) (ix3 (0 : Fin 1) r e) = (V c main_v14 : S8x4096x32.Idx → Elt F .bf16) (ix3 (headOf t) (qRow t r) e) := by
  obtain ⟨h0, h1, h2⟩ := qIndex t
  unfold iblk1
  rw [View.read_apply]
  show (V c main_v14 : S8x4096x32.Idx → Elt F .bf16) _ = _
  congr 1
  funext a
  apply Fin.ext
  match a with
  | ⟨0, _⟩ => show win1_0.index t 0 * 1 + 1 * 0 = t.val / 16; rw [h0]; omega
  | ⟨1, _⟩ => show win1_0.index t 1 * 1024 + 1 * r.val = 1024 * (t.val / 4 % 4) + r.val; rw [h1]; omega
  | ⟨2, _⟩ => show win1_0.index t 2 * 32 + 1 * e.val = e.val; rw [h2]; omega

/-- The key block at point `t`: rows of the point's key tile, under its head. -/
theorem kBlock_apply (c : Dev nD) (t : Fin cfg1.N) (m : Fin 1024) (e : Fin 32) :
    (iblk1 V c 1 t : Vec F S1x1024x32 .bf16) (ix3 (0 : Fin 1) m e) = (V c main_v17 : S8x4096x32.Idx → Elt F .bf16) (ix3 (headOf t) (kvRow t m) e) := by
  obtain ⟨h0, h1, h2⟩ := kIndex t
  unfold iblk1
  rw [View.read_apply]
  show (V c main_v17 : S8x4096x32.Idx → Elt F .bf16) _ = _
  congr 1
  funext a
  apply Fin.ext
  match a with
  | ⟨0, _⟩ => show win1_1.index t 0 * 1 + 1 * 0 = t.val / 16; rw [h0]; omega
  | ⟨1, _⟩ => show win1_1.index t 1 * 1024 + 1 * m.val = 1024 * (t.val % 4) + m.val; rw [h1]; omega
  | ⟨2, _⟩ => show win1_1.index t 2 * 32 + 1 * e.val = e.val; rw [h2]; omega

/-- The value block at point `t`. -/
theorem vBlock_apply (c : Dev nD) (t : Fin cfg1.N) (m : Fin 1024) (d : Fin 32) :
    (iblk1 V c 2 t : Vec F S1x1024x32 .bf16) (ix3 (0 : Fin 1) m d) = (V c main_v20 : S8x4096x32.Idx → Elt F .bf16) (ix3 (headOf t) (kvRow t m) d) := by
  obtain ⟨h0, h1, h2⟩ := vIndex t
  unfold iblk1
  rw [View.read_apply]
  show (V c main_v20 : S8x4096x32.Idx → Elt F .bf16) _ = _
  congr 1
  funext a
  apply Fin.ext
  match a with
  | ⟨0, _⟩ => show win1_2.index t 0 * 1 + 1 * 0 = t.val / 16; rw [h0]; omega
  | ⟨1, _⟩ => show win1_2.index t 1 * 1024 + 1 * m.val = 1024 * (t.val % 4) + m.val; rw [h1]; omega
  | ⟨2, _⟩ => show win1_2.index t 2 * 32 + 1 * d.val = d.val; rw [h2]; omega

/-- The query rows' segment numbers at point `t`. -/
theorem qsegBlock_apply (c : Dev nD) (t : Fin cfg1.N) (r : Fin 1024) :
    (iblk1 V c 3 t : Vec F S1024x1 .i32) (ix2 r (0 : Fin 1)) = (V c main_v21 : S4096x1.Idx → Elt F .i32) (ix2 (qRow t r) (0 : Fin 1)) := by
  obtain ⟨h0, h1⟩ := qsegIndex t
  unfold iblk1
  rw [View.read_apply]
  show (V c main_v21 : S4096x1.Idx → Elt F .i32) _ = _
  congr 1
  funext a
  apply Fin.ext
  match a with
  | ⟨0, _⟩ => show win1_3.index t 0 * 1024 + 1 * r.val = 1024 * (t.val / 4 % 4) + r.val; rw [h0]; omega
  | ⟨1, _⟩ => show win1_3.index t 1 * 1 + 1 * 0 = 0; rw [h1]

/-- The key rows' segment numbers at point `t`. -/
theorem ksegBlock_apply (c : Dev nD) (t : Fin cfg1.N) (m : Fin 1024) :
    (iblk1 V c 4 t : Vec F S1x1024 .i32) (ix2 (0 : Fin 1) m) = (V c main_v22 : S1x4096.Idx → Elt F .i32) (ix2 (0 : Fin 1) (kvRow t m)) := by
  obtain ⟨h0, h1⟩ := ksegIndex t
  unfold iblk1
  rw [View.read_apply]
  show (V c main_v22 : S1x4096.Idx → Elt F .i32) _ = _
  congr 1
  funext a
  apply Fin.ext
  match a with
  | ⟨0, _⟩ => show win1_4.index t 0 * 1 + 1 * 0 = 0; rw [h0]
  | ⟨1, _⟩ => show win1_4.index t 1 * 1024 + 1 * m.val = 1024 * (t.val % 4) + m.val; rw [h1]; omega

end AttnRegion

end Cert.KernelIdeal.Gen

end
-- ==== Proof.AttnPayload.lean ====
import proofs.«107387_j24197845746072_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.ValueIdx

/-! # The attention body's payloads at an index, over the extended reals

One key tile's contribution to output row `n`, column `d`: the sum over the tile's key rows `m` of the kept score
times the value row, the score being the dot product of query row `n` and key row `m`, kept as `s * logistic s` where
the two rows' segment numbers agree and put to zero elsewhere. -/

/-- The score of query row `n` against key row `m` of the blocks. -/
def tileScore (xq xk : Vec Ideal S1x1024x32 .bf16) (n m : Fin 1024) : EReal :=
  ∑ e : Fin 32, xq (ix3 (0 : Fin 1) n e) * xk (ix3 (0 : Fin 1) m e)

/-- The kept score: `s * logistic s` where the segment numbers agree, zero elsewhere. -/
def tileGate (xq xk : Vec Ideal S1x1024x32 .bf16) (xqs : Vec Ideal S1024x1 .i32) (xks : Vec Ideal S1x1024 .i32) (n m : Fin 1024) : EReal :=
  if xqs (ix2 n (0 : Fin 1)) = xks (ix2 (0 : Fin 1) m) then tileScore xq xk n m * Ideal.logistic (tileScore xq xk n m) else 0

/-- One key tile's contribution at (`n`, `d`). -/
def tileTerm (xq xk xv : Vec Ideal S1x1024x32 .bf16) (xqs : Vec Ideal S1024x1 .i32) (xks : Vec Ideal S1x1024 .i32) (n : Fin 1024) (d : Fin 32) : EReal :=
  ∑ m : Fin 1024, tileGate xq xk xqs xks n m * xv (ix3 (0 : Fin 1) m d)

/-! ## The two products' operand indices -/

theorem scoreDot_lhs0 (i : S1024x1024.Idx) (q : dot_S1024x32_S1024x32_S1024x1024_1_1_0_0_n_n.contr.Idx) : (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
theorem scoreDot_lhs1 (i : S1024x1024.Idx) (q : dot_S1024x32_S1024x32_S1024x1024_1_1_0_0_n_n.contr.Idx) : (dot_S1024x32_S1024x32_S1024x1024_1_1_0_0_n_n.lhsIdx i q 1).val = (q ⟨0, by decide⟩).val :=
  dot_S1024x32_S1024x32_S1024x1024_1_1_0_0_n_n.lhsIdx_val_of_single rfl i q
theorem scoreDot_rhs0 (i : S1024x1024.Idx) (q : dot_S1024x32_S1024x32_S1024x1024_1_1_0_0_n_n.contr.Idx) : (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
theorem scoreDot_rhs1 (i : S1024x1024.Idx) (q : dot_S1024x32_S1024x32_S1024x1024_1_1_0_0_n_n.contr.Idx) : (dot_S1024x32_S1024x32_S1024x1024_1_1_0_0_n_n.rhsIdx i q 1).val = (q ⟨0, by decide⟩).val :=
  dot_S1024x32_S1024x32_S1024x1024_1_1_0_0_n_n.rhsIdx_val_of_single rfl i q

theorem mixDot_lhs0 (i : S1024x32.Idx) (q : dot_S1024x1024_S1024x32_S1024x32_1_0_0_1_n_n.contr.Idx) : (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem mixDot_lhs1 (i : S1024x32.Idx) (q : dot_S1024x1024_S1024x32_S1024x32_1_0_0_1_n_n.contr.Idx) : (dot_S1024x1024_S1024x32_S1024x32_1_0_0_1_n_n.lhsIdx i q 1).val = (q ⟨0, by decide⟩).val :=
  dot_S1024x1024_S1024x32_S1024x32_1_0_0_1_n_n.lhsIdx_val_of_single rfl i q
theorem mixDot_rhs0 (i : S1024x32.Idx) (q : dot_S1024x1024_S1024x32_S1024x32_1_0_0_1_n_n.contr.Idx) : (dot_S1024x1024_S1024x32_S1024x32_1_0_0_1_n_n.rhsIdx i q 0).val = (q ⟨0, by decide⟩).val :=
  dot_S1024x1024_S1024x32_S1024x32_1_0_0_1_n_n.rhsIdx_val_of_single rfl i q
theorem mixDot_rhs1 (i : S1024x32.Idx) (q : dot_S1024x1024_S1024x32_S1024x32_1_0_0_1_n_n.contr.Idx) : (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-! ## The pieces of the payload -/

/-- The score product at (`n`, `m`). -/
theorem scoreProduct_apply (a b : FVec Ideal S1024x32 .bf16) (n m : Fin 1024) :
    FloatOps.matmul dot_S1024x32_S1024x32_S1024x1024_1_1_0_0_n_n none a b (constant S1024x1024 .f32 0x00000000#32) (ix2 n m)
      = ∑ e : Fin 32, a (ix2 n e) * b (ix2 m e) := by
  rw [Ideal.matmul_constant_zero_apply, ← Equiv.sum_comp (contrEquiv1 dot_S1024x32_S1024x32_S1024x1024_1_1_0_0_n_n 32 rfl rfl).symm]
  refine Finset.sum_congr rfl fun e _ => ?_
  have hk := contrEquiv1_symm_val dot_S1024x32_S1024x32_S1024x1024_1_1_0_0_n_n 32 rfl rfl e
  have el : dot_S1024x32_S1024x32_S1024x1024_1_1_0_0_n_n.lhsIdx (ix2 n m) ((contrEquiv1 dot_S1024x32_S1024x32_S1024x1024_1_1_0_0_n_n 32 rfl rfl).symm e) = ix2 n e := funext fun a => Fin.ext (by
    match a with
    | ⟨0, _⟩ => exact scoreDot_lhs0 _ _
    | ⟨1, _⟩ => exact (scoreDot_lhs1 _ _).trans hk)
  have er : dot_S1024x32_S1024x32_S1024x1024_1_1_0_0_n_n.rhsIdx (ix2 n m) ((contrEquiv1 dot_S1024x32_S1024x32_S1024x1024_1_1_0_0_n_n 32 rfl rfl).symm e) = ix2 m e := funext fun a => Fin.ext (by
    match a with
    | ⟨0, _⟩ => exact scoreDot_rhs0 _ _
    | ⟨1, _⟩ => exact (scoreDot_rhs1 _ _).trans hk)
  rw [el, er]

/-- The product with the values at (`n`, `d`). -/
theorem mixProduct_apply (a : FVec Ideal S1024x1024 .bf16) (b : FVec Ideal S1024x32 .bf16) (n : Fin 1024) (d : Fin 32) :
    FloatOps.matmul dot_S1024x1024_S1024x32_S1024x32_1_0_0_1_n_n none a b (constant S1024x32 .f32 0x00000000#32) (ix2 n d)
      = ∑ m : Fin 1024, a (ix2 n m) * b (ix2 m d) := by
  rw [Ideal.matmul_constant_zero_apply, ← Equiv.sum_comp (contrEquiv1 dot_S1024x1024_S1024x32_S1024x32_1_0_0_1_n_n 1024 rfl rfl).symm]
  refine Finset.sum_congr rfl fun m _ => ?_
  have hk := contrEquiv1_symm_val dot_S1024x1024_S1024x32_S1024x32_1_0_0_1_n_n 1024 rfl rfl m
  have el : dot_S1024x1024_S1024x32_S1024x32_1_0_0_1_n_n.lhsIdx (ix2 n d) ((contrEquiv1 dot_S1024x1024_S1024x32_S1024x32_1_0_0_1_n_n 1024 rfl rfl).symm m) = ix2 n m := funext fun a => Fin.ext (by
    match a with
    | ⟨0, _⟩ => exact mixDot_lhs0 _ _
    | ⟨1, _⟩ => exact (mixDot_lhs1 _ _).trans hk)
  have er : dot_S1024x1024_S1024x32_S1024x32_1_0_0_1_n_n.rhsIdx (ix2 n d) ((contrEquiv1 dot_S1024x1024_S1024x32_S1024x32_1_0_0_1_n_n 1024 rfl rfl).symm m) = ix2 m d := funext fun a => Fin.ext (by
    match a with
    | ⟨0, _⟩ => exact (mixDot_rhs0 _ _).trans hk
    | ⟨1, _⟩ => exact mixDot_rhs1 _ _)
  rw [el, er]

/-- A select on an equality test of two words is an `if` on their equality. -/
theorem select_cmpi_eq {α : Type} (a b : BitVec 32) (X Y : α) :
    Scalar.select (IntOp.cmpi .eq a b) X Y = if a = b then X else Y := by
  unfold Scalar.select IntOp.cmpi
  by_cases h : a = b
  · subst h; simp
  · have hb : (a == b) = false := by simpa using h
    simp [hb, h]

/-- A column broadcast along the rows, at (`n`, `m`): the column's entry `n`. -/
theorem broadcastColumn_apply {α : Type} (v : S1024x1.Idx → α) (h : S1024x1.Broadcasts S1024x1024) (n m : Fin 1024) :
    broadcastTo S1024x1024 v h (ix2 n m) = v (ix2 n (0 : Fin 1)) :=
  broadcastTo_apply v h (ix2 n m) (ix2 n (0 : Fin 1)) (fun a => match a with
    | ⟨0, _⟩ => by show n.val = if (1024 : Nat) = 1 then 0 else n.val; rw [if_neg (by decide)]
    | ⟨1, _⟩ => by show (0 : Nat) = if (1 : Nat) = 1 then 0 else m.val; rw [if_pos rfl])

/-- The sum payload at (`n`, `d`): what the accumulator held there plus the tile's contribution. -/
theorem k1_pay3_apply (xq xk xv : Vec Ideal S1x1024x32 .bf16) (xqs : Vec Ideal S1024x1 .i32) (xks : Vec Ideal S1x1024 .i32)
    (xacc : Vec Ideal S1024x32 .f32) (n : Fin 1024) (d : Fin 32) :
    k1_pay3 (F := Ideal) xq xk xqs xks xacc xv (ix2 n d) = xacc (ix2 n d) + tileTerm xq xk xv xqs xks n d := by
  unfold k1_pay3
  rw [shapeCast_self]
  show xacc (ix2 n d) + _ = _
  refine congrArg (xacc (ix2 n d) + ·) ?_
  simp only [matmul]
  refine (mixProduct_apply _ _ n d).trans ?_
  unfold tileTerm
  refine Finset.sum_congr rfl fun m _ => ?_
  rw [shapeCast_1ab_ab_apply]
  refine congrArg (· * xv (ix3 (0 : Fin 1) m d)) ?_
  show Scalar.select (IntOp.cmpi .eq (broadcastTo S1024x1024 (shapeCast S1024x1 xqs _) _ (ix2 n m)) (broadcastTo S1024x1024 (shapeCast S1x1024 xks _) _ (ix2 n m))) _ _ = _
  rw [shapeCast_self, shapeCast_self, broadcastColumn_apply, broadcastTo_1b_ab_apply, select_cmpi_eq]
  unfold tileGate
  have hs : FloatOps.matmul (F := Ideal) (φ₁ := .bf16) (φ₂ := .bf16) dot_S1024x32_S1024x32_S1024x1024_1_1_0_0_n_n none (shapeCast S1024x32 xq shapeCasts_S1x1024x32_S1024x32) (shapeCast S1024x32 xk shapeCasts_S1x1024x32_S1024x32)
      (constant S1024x1024 .f32 0x00000000#32) (ix2 n m) = tileScore xq xk n m := by
    refine (scoreProduct_apply _ _ n m).trans ?_
    unfold tileScore
    refine Finset.sum_congr rfl fun e _ => ?_
    rw [shapeCast_1ab_ab_apply, shapeCast_1ab_ab_apply]
  refine if_congr Iff.rfl ?_ ?_
  · show FloatOps.matmul (F := Ideal) (φ₁ := .bf16) (φ₂ := .bf16) dot_S1024x32_S1024x32_S1024x1024_1_1_0_0_n_n none _ _ _ (ix2 n m) * Ideal.logistic (FloatOps.matmul (F := Ideal) (φ₁ := .bf16) (φ₂ := .bf16) dot_S1024x32_S1024x32_S1024x1024_1_1_0_0_n_n none _ _ _ (ix2 n m)) = _
    rw [hs]
  · exact Ideal.ofBits_zero_f32

/-- The output payload adds a leading unit axis. -/
theorem k1_pay1_apply (x : Vec Ideal S1024x32 .f32) (n : Fin 1024) (d : Fin 32) :
    k1_pay1 (F := Ideal) x (ix3 (0 : Fin 1) n d) = x (ix2 n d) := by
  unfold k1_pay1
  rw [shapeCast_ab_1ab_apply]

/-- The zero fill is zero everywhere. -/
theorem k1_pay2_apply (j : S1024x32.Idx) : k1_pay2 (F := Ideal) j = 0 := by
  unfold k1_pay2
  rw [shapeCast_self]
  exact Ideal.ofBits_zero_f32

end Cert.KernelIdeal.Gen

end
-- ==== Proof.AttnSpec.lean ====
import proofs.«107387_j24197845746072_1_alg».proof.Proof.AttnBlocks
import proofs.«107387_j24197845746072_1_alg».proof.Proof.AttnPayload

set_option maxRecDepth 16384

noncomputable section

namespace Cert.KernelIdeal.Gen

open Idealize.ShloMosaic Idealize.ShloMosaic.ValueIdx

/-! # The attention result as one function of the five arrays

For head `h`, query row `n`, column `d`: the sum over the key rows `k` of the kept score of (`n`, `k`) times the value
entry (`k`, `d`), taken key tile by key tile (four tiles of 1024 rows) from zero, in tile order. -/

/-- The score of query row `n` against key row `k` under head `h`. -/
def headScore (Q K : S8x4096x32.Idx → EReal) (h : Fin 8) (n k : Fin 4096) : EReal :=
  ∑ e : Fin 32, Q (ix3 h n e) * K (ix3 h k e)

/-- The kept score: `s * logistic s` where the rows' segment numbers agree, zero elsewhere. -/
def headGate (Q K : S8x4096x32.Idx → EReal) (QS : S4096x1.Idx → BitVec 32) (KS : S1x4096.Idx → BitVec 32) (h : Fin 8) (n k : Fin 4096) : EReal :=
  if QS (ix2 n (0 : Fin 1)) = KS (ix2 (0 : Fin 1) k) then headScore Q K h n k * Ideal.logistic (headScore Q K h n k) else 0

/-- Key tile `j`'s part of the result at (`h`, `n`, `d`). -/
def kvTilePart (Q K Vv : S8x4096x32.Idx → EReal) (QS : S4096x1.Idx → BitVec 32) (KS : S1x4096.Idx → BitVec 32)
    (h : Fin 8) (n : Fin 4096) (j : Fin 4) (d : Fin 32) : EReal :=
  ∑ m : Fin 1024, headGate Q K QS KS h n (tileRow j m) * Vv (ix3 h (tileRow j m) d)

/-- THE ATTENTION RESULT: the four key tiles' parts added from zero in tile order. -/
def attnOut (Q K Vv : S8x4096x32.Idx → EReal) (QS : S4096x1.Idx → BitVec 32) (KS : S1x4096.Idx → BitVec 32) : S8x4096x32.Idx → EReal :=
  fun i => (((0 + kvTilePart Q K Vv QS KS (i 0) (i 1) 0 (i 2)) + kvTilePart Q K Vv QS KS (i 0) (i 1) 1 (i 2))
    + kvTilePart Q K Vv QS KS (i 0) (i 1) 2 (i 2)) + kvTilePart Q K Vv QS KS (i 0) (i 1) 3 (i 2)

/-- The same as a sum over the tiles. -/
theorem attnOut_eq_sum (Q K Vv : S8x4096x32.Idx → EReal) (QS : S4096x1.Idx → BitVec 32) (KS : S1x4096.Idx → BitVec 32) (i : S8x4096x32.Idx) :
    attnOut Q K Vv QS KS i = ∑ j : Fin 4, kvTilePart Q K Vv QS KS (i 0) (i 1) j (i 2) := by
  unfold attnOut
  rw [Fin.sum_univ_four, zero_add]

/-- A tile's contribution computed from blocks is the tile's part of the result, when the blocks are the arrays' rows
    of query tile `qt` and key tile `j` under head `h`. -/
theorem tileTerm_eq_part (xq xk xv : Vec Ideal S1x1024x32 .bf16) (xqs : Vec Ideal S1024x1 .i32) (xks : Vec Ideal S1x1024 .i32)
    (Q K Vv : S8x4096x32.Idx → EReal) (QS : S4096x1.Idx → BitVec 32) (KS : S1x4096.Idx → BitVec 32)
    (h : Fin 8) (qt j : Fin 4)
    (hq : ∀ (r : Fin 1024) (e : Fin 32), xq (ix3 (0 : Fin 1) r e) = Q (ix3 h (tileRow qt r) e))
    (hk : ∀ (m : Fin 1024) (e : Fin 32), xk (ix3 (0 : Fin 1) m e) = K (ix3 h (tileRow j m) e))
    (hv : ∀ (m : Fin 1024) (d : Fin 32), xv (ix3 (0 : Fin 1) m d) = Vv (ix3 h (tileRow j m) d))
    (hqs : ∀ r : Fin 1024, xqs (ix2 r (0 : Fin 1)) = QS (ix2 (tileRow qt r) (0 : Fin 1)))
    (hks : ∀ m : Fin 1024, xks (ix2 (0 : Fin 1) m) = KS (ix2 (0 : Fin 1) (tileRow j m)))
    (r : Fin 1024) (d : Fin 32) :
    tileTerm xq xk xv xqs xks r d = kvTilePart Q K Vv QS KS h (tileRow qt r) j d := by
  unfold tileTerm kvTilePart
  refine Finset.sum_congr rfl fun m _ => ?_
  have hsc : tileScore xq xk r m = headScore Q K h (tileRow qt r) (tileRow j m) := by
    unfold tileScore headScore
    exact Finset.sum_congr rfl fun e _ => by rw [hq r e, hk m e]
  unfold tileGate headGate
  rw [hsc, hqs r, hks m, hv m d]

end Cert.KernelIdeal.Gen

end
-- ==== Proof.AttnValue.lean ====
import proofs.«107387_j24197845746072_1_alg».proof.Proof.AttnPieces
import proofs.«107387_j24197845746072_1_alg».proof.Proof.AttnSpec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # What the attention region leaves in its output array, over the extended reals

The output array after the region is `attnOut` of the five input arrays as the region finds them: the accumulator
after a point is what it held before plus the point's tile contribution (zero before, at the first key tile); the
block written back at the last key tile is the accumulator; the written-back blocks cover the array. -/

section AttnRegion

variable (V : (c : Dev nD) → (b : Ref sig .tc) → Buf (Elt Ideal) ((c : Thread nD τ).loc b))

/-- The five input arrays as the region finds them, as functions of their indices. -/
abbrev qArr (c : Dev nD) : S8x4096x32.Idx → EReal := V c main_v14
abbrev kArr (c : Dev nD) : S8x4096x32.Idx → EReal := V c main_v17
abbrev vArr (c : Dev nD) : S8x4096x32.Idx → EReal := V c main_v20
abbrev qsegArr (c : Dev nD) : S4096x1.Idx → BitVec 32 := V c main_v21
abbrev ksegArr (c : Dev nD) : S1x4096.Idx → BitVec 32 := V c main_v22

/-- The tile contribution of point `u`'s blocks is the part of the result of `u`'s key tile, at `u`'s head and query rows. -/
theorem tileTerm_at (c : Dev nD) (u : Fin cfg1.N) (r : Fin 1024) (d : Fin 32) :
    tileTerm (iblk1 V c 0 u) (iblk1 V c 1 u) (iblk1 V c 2 u) (iblk1 V c 3 u) (iblk1 V c 4 u) r d
      = kvTilePart (qArr V c) (kArr V c) (vArr V c) (qsegArr V c) (ksegArr V c) (headOf u) (qRow u r) (kvTileOf u) d :=
  tileTerm_eq_part (iblk1 V c 0 u) (iblk1 V c 1 u) (iblk1 V c 2 u) (iblk1 V c 3 u) (iblk1 V c 4 u) (qArr V c) (kArr V c) (vArr V c) (qsegArr V c) (ksegArr V c) (headOf u) (qTileOf u) (kvTileOf u)
    (qBlock_apply V c u) (kBlock_apply V c u) (vBlock_apply V c u) (qsegBlock_apply V c u) (ksegBlock_apply V c u) r d

/-- The accumulator after a point of the first key tile: zero plus the point's contribution. -/
theorem acc_apply_first (c : Dev nD) (n : ℕ) (hn : n < cfg1.N) (h0 : n % 4 = 0) (r : Fin 1024) (d : Fin 32) :
    (acc1 V c n hn).2 (ix2 r d) = 0 + tileTerm (iblk1 V c 0 ⟨n, hn⟩) (iblk1 V c 1 ⟨n, hn⟩) (iblk1 V c 2 ⟨n, hn⟩) (iblk1 V c 3 ⟨n, hn⟩) (iblk1 V c 4 ⟨n, hn⟩) r d := by
  have h1 : ¬n % 4 = 3 := by omega
  have e : acc1 V c n hn = stepFirst V c ⟨n, hn⟩ h0 h1 := acc1_first V c ⟨n, hn⟩ h0 h1
  rw [e]
  unfold stepFirst
  dsimp only
  rw [accAfter_first_eq, k1_pay3_apply, k1_pay2_apply]

/-- The accumulator after any later point of a key-tile sweep: what it held plus the point's contribution. -/
theorem acc_apply_next (c : Dev nD) (n : ℕ) (hn : n + 1 < cfg1.N) (h0 : ¬(n + 1) % 4 = 0) (r : Fin 1024) (d : Fin 32) :
    (acc1 V c (n + 1) hn).2 (ix2 r d)
      = (acc1 V c n (Nat.lt_of_succ_lt hn)).2 (ix2 r d) + tileTerm (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) r d := by
  by_cases h1 : (n + 1) % 4 = 3
  · have e : acc1 V c (n + 1) hn = stepLast V c ⟨n + 1, hn⟩ h0 h1 (acc1 V c n (Nat.lt_of_succ_lt hn)).2 := acc1_last V c ⟨n + 1, hn⟩ h0 h1
    rw [e]
    unfold stepLast
    dsimp only
    rw [accAfter_last_eq, k1_pay3_apply]
  · have e : acc1 V c (n + 1) hn = stepMiddle V c ⟨n + 1, hn⟩ h0 h1 (acc1 V c n (Nat.lt_of_succ_lt hn)).2 := acc1_middle V c ⟨n + 1, hn⟩ h0 h1
    rw [e]
    unfold stepMiddle
    dsimp only
    rw [accAfter_middle_eq, k1_pay3_apply]

/-- The output block after a point of the last key tile: what the accumulator held plus the point's contribution. -/
theorem out_apply_last (c : Dev nD) (n : ℕ) (hn : n + 1 < cfg1.N) (h1 : (n + 1) % 4 = 3) (r : Fin 1024) (d : Fin 32) :
    (acc1 V c (n + 1) hn).1 (ix3 (0 : Fin 1) r d)
      = (acc1 V c n (Nat.lt_of_succ_lt hn)).2 (ix2 r d) + tileTerm (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) r d := by
  have h0 : ¬(n + 1) % 4 = 0 := by omega
  have e : acc1 V c (n + 1) hn = stepLast V c ⟨n + 1, hn⟩ h0 h1 (acc1 V c n (Nat.lt_of_succ_lt hn)).2 := acc1_last V c ⟨n + 1, hn⟩ h0 h1
  rw [e]
  unfold stepLast
  dsimp only
  rw [outAfter_last_eq, k1_pay1_apply, k1_pay3_apply]

/-- The output block after the last point `k + 3` of a sweep that starts at `k`: the four tiles' parts from zero in order. -/
theorem out_sweep (c : Dev nD) (k : ℕ) (hk : k + 3 < cfg1.N) (h0 : k % 4 = 0) (r : Fin 1024) (d : Fin 32) :
    (acc1 V c (k + 3) hk).1 (ix3 (0 : Fin 1) r d)
      = attnOut (qArr V c) (kArr V c) (vArr V c) (qsegArr V c) (ksegArr V c) (ix3 (headOf ⟨k + 3, hk⟩) (qRow ⟨k + 3, hk⟩ r) d) := by
  have hN : cfg1.N = 128 := N_1
  have hk2 : k + 2 < cfg1.N := by omega
  have hk1 : k + 1 < cfg1.N := by omega
  have hk0 : k < cfg1.N := by omega
  rw [out_apply_last V c (k + 2) hk (by omega) r d, acc_apply_next V c (k + 1) hk2 (by omega) r d,
    acc_apply_next V c k hk1 (by omega) r d, acc_apply_first V c k hk0 h0 r d]
  rw [tileTerm_at V c ⟨k, hk0⟩ r d, tileTerm_at V c ⟨k + 1, hk1⟩ r d, tileTerm_at V c ⟨k + 2, hk2⟩ r d, tileTerm_at V c ⟨k + 3, hk⟩ r d]
  have eh0 : headOf ⟨k, hk0⟩ = headOf ⟨k + 3, hk⟩ := Fin.ext (by show k / 16 = (k + 3) / 16; omega)
  have eh1 : headOf ⟨k + 1, hk1⟩ = headOf ⟨k + 3, hk⟩ := Fin.ext (by show (k + 1) / 16 = (k + 3) / 16; omega)
  have eh2 : headOf ⟨k + 2, hk2⟩ = headOf ⟨k + 3, hk⟩ := Fin.ext (by show (k + 2) / 16 = (k + 3) / 16; omega)
  have eq0 : qRow ⟨k, hk0⟩ r = qRow ⟨k + 3, hk⟩ r := Fin.ext (by show 1024 * (k / 4 % 4) + r.val = 1024 * ((k + 3) / 4 % 4) + r.val; omega)
  have eq1 : qRow ⟨k + 1, hk1⟩ r = qRow ⟨k + 3, hk⟩ r := Fin.ext (by show 1024 * ((k + 1) / 4 % 4) + r.val = 1024 * ((k + 3) / 4 % 4) + r.val; omega)
  have eq2 : qRow ⟨k + 2, hk2⟩ r = qRow ⟨k + 3, hk⟩ r := Fin.ext (by show 1024 * ((k + 2) / 4 % 4) + r.val = 1024 * ((k + 3) / 4 % 4) + r.val; omega)
  have ej0 : kvTileOf ⟨k, hk0⟩ = 0 := Fin.ext (by show k % 4 = 0; omega)
  have ej1 : kvTileOf ⟨k + 1, hk1⟩ = 1 := Fin.ext (by show (k + 1) % 4 = 1; omega)
  have ej2 : kvTileOf ⟨k + 2, hk2⟩ = 2 := Fin.ext (by show (k + 2) % 4 = 2; omega)
  have ej3 : kvTileOf ⟨k + 3, hk⟩ = 3 := Fin.ext (by show (k + 3) % 4 = 3; omega)
  rw [eh0, eh1, eh2, eq0, eq1, eq2, ej0, ej1, ej2, ej3]
  rfl

/-- The printed index map of the output window sends point `t`'s block to head `t / 16`, query tile `t / 4 % 4`. -/
theorem outBlock_emb (t : Fin cfg1.N) (r : Fin 1024) (d : Fin 32) :
    ((cfg1.win 5).blk t).view.emb (ix3 (0 : Fin 1) r d) = (ix3 (headOf t) (qRow t r) d : S8x4096x32.Idx) := by
  obtain ⟨h0, h1, h2⟩ := outIndex t
  funext a
  apply Fin.ext
  match a with
  | ⟨0, _⟩ => show win1_5.index t 0 * 1 + 1 * 0 = t.val / 16; rw [h0]; omega
  | ⟨1, _⟩ => show win1_5.index t 1 * 1024 + 1 * r.val = 1024 * (t.val / 4 % 4) + r.val; rw [h1]; omega
  | ⟨2, _⟩ => show win1_5.index t 2 * 32 + 1 * d.val = d.val; rw [h2]; omega

/-- WHAT A POINT OF THE LAST KEY TILE WRITES BACK is its block of the attention result. -/
theorem outFlushed_eq (c : Dev nD) (t : Fin cfg1.N) (hf : (cfg1.win 5).flush t = true) :
    (dat1 V c).flushed 5 t = ((cfg1.win 5).blk t).view.read (Elt Ideal) (attnOut (qArr V c) (kArr V c) (vArr V c) (qsegArr V c) (ksegArr V c)) := by
  have hN : cfg1.N = 128 := N_1
  have h3 : t.val % 4 = 3 := (flush1_5 t).mp hf
  obtain ⟨n, hn⟩ := t
  obtain ⟨k, rfl⟩ : ∃ k, n = k + 3 := ⟨n - 3, by dsimp only at h3; omega⟩
  show (cfg1.win 5).cut (grid1.coords ⟨k + 3, hn⟩) ((dat1 V c).after 5 ⟨k + 3, hn⟩) = _
  rw [after1_5]
  funext y
  obtain ⟨u, r, d, rfl⟩ : ∃ (u : Fin 1) (r : Fin 1024) (d : Fin 32), y = ix3 u r d := ⟨y 0, y 1, y 2, eq_ix3 y⟩
  obtain rfl : u = 0 := Subsingleton.elim _ _
  rw [View.read_apply, outBlock_emb]
  exact out_sweep V c k hn (by dsimp only at h3; omega) r d

/-- An index of the output array is in point `t`'s block iff each coordinate is in the block's range on its axis. -/
theorem mem_outBlock (t : Fin cfg1.N) (i : S8x4096x32.Idx) :
    i ∈ ((cfg1.win 5).blk t).view.set ↔ ∀ a : Fin 3, win1_5.index t a * S1x1024x32.size a ≤ (i a).val ∧ (i a).val < win1_5.index t a * S1x1024x32.size a + S1x1024x32.size a := by
  show i ∈ ((View.whole main_v23).slice (win1_5.rect t)).set ↔ _
  rw [View.set_slice_whole, Rect.mem_set_unit]
  exact Iff.rfl

/-- Every index of the output array is in the block some point of the last key tile writes back. -/
theorem outCovered (i : S8x4096x32.Idx) :
    ∃ t : Fin cfg1.N, (cfg1.win 5).flush t = true ∧ i ∈ ((cfg1.win 5).blk t).view.set := by
  have hN : cfg1.N = 128 := N_1
  have hi0 : (i 0).val < 8 := (i 0).isLt
  have hi1 : (i 1).val < 4096 := (i 1).isLt
  have hi2 : (i 2).val < 32 := (i 2).isLt
  let t : Fin cfg1.N := ⟨16 * (i 0).val + 4 * ((i 1).val / 1024) + 3, by omega⟩
  have ht : t.val = 16 * (i 0).val + 4 * ((i 1).val / 1024) + 3 := rfl
  obtain ⟨e0, e1, e2⟩ := outIndex t
  refine ⟨t, (flush1_5 t).mpr (by omega), ?_⟩
  rw [mem_outBlock]
  intro a
  match a with
  | ⟨0, _⟩ => show win1_5.index t 0 * 1 ≤ (i 0).val ∧ (i 0).val < win1_5.index t 0 * 1 + 1; rw [e0]; omega
  | ⟨1, _⟩ => show win1_5.index t 1 * 1024 ≤ (i 1).val ∧ (i 1).val < win1_5.index t 1 * 1024 + 1024; rw [e1]; omega
  | ⟨2, _⟩ => show win1_5.index t 2 * 32 ≤ (i 2).val ∧ (i 2).val < win1_5.index t 2 * 32 + 32; rw [e2]; omega

/-- THE OUTPUT ARRAY AFTER THE REGION is the attention result of the five input arrays as the region finds them. -/
theorem attn_final (c : Dev nD) : (dat1 V c).arrAt 5 cfg1.N = attnOut (qArr V c) (kArr V c) (vArr V c) (qsegArr V c) (ksegArr V c) :=
  (dat1 V c).arrAt_eq_of_cover 5 (attnOut (qArr V c) (kArr V c) (vArr V c) (qsegArr V c) (ksegArr V c)) (outFlushed_eq V c) outCovered

/-- The same at an index, as the sum over the four key tiles. -/
theorem attn_final_apply (c : Dev nD) (i : S8x4096x32.Idx) :
    (dat1 V c).arrAt 5 cfg1.N i = ∑ j : Fin 4, kvTilePart (qArr V c) (kArr V c) (vArr V c) (qsegArr V c) (ksegArr V c) (i 0) (i 1) j (i 2) := by
  rw [attn_final V c]
  exact attnOut_eq_sum _ _ _ _ _ i

end AttnRegion

end Cert.KernelIdeal.Gen

end
-- ==== Proof.AttnRows.lean ====
import proofs.«107387_j24197845746072_1_alg».proof.Proof.AttnSpec

set_option maxRecDepth 16384

noncomputable section

namespace Cert.KernelIdeal.Gen

open Idealize.ShloMosaic Idealize.ShloMosaic.ValueIdx

/-! # The four key tiles' sums as one sum over the 4096 key rows -/

/-- Summing over the four tiles and the 1024 rows of each is summing over the 4096 rows (a commutative monoid). -/
theorem sum_tileRow {M : Type*} [AddCommMonoid M] (f : Fin 4096 → M) :
    ∑ j : Fin 4, ∑ m : Fin 1024, f (tileRow j m) = ∑ k : Fin 4096, f k := by
  rw [← Fintype.sum_prod_type' (fun (j : Fin 4) (m : Fin 1024) => f (tileRow j m))]
  exact Fintype.sum_equiv (finProdFinEquiv (m := 4) (n := 1024)) (fun x : Fin 4 × Fin 1024 => f (tileRow x.1 x.2)) f
    (fun x => congrArg f (Fin.ext (by
      show 1024 * x.1.val + x.2.val = x.2.val + 1024 * x.1.val
      omega)))

/-- The attention result at an index as one sum over the key rows: the kept score times the value entry. -/
theorem attnOut_eq_sum_rows (Q K Vv : S8x4096x32.Idx → EReal) (QS : S4096x1.Idx → BitVec 32) (KS : S1x4096.Idx → BitVec 32) (i : S8x4096x32.Idx) :
    attnOut Q K Vv QS KS i = ∑ k : Fin 4096, headGate Q K QS KS (i 0) (i 1) k * Vv (ix3 (i 0) k (i 2)) := by
  rw [attnOut_eq_sum]
  unfold kvTilePart
  exact sum_tileRow (fun k => headGate Q K QS KS (i 0) (i 1) k * Vv (ix3 (i 0) k (i 2)))

end Cert.KernelIdeal.Gen

end
-- ==== Proof.AttnBridge.lean ====
import proofs.«107387_j24197845746072_1_alg».proof.Proof.AttnRows
import proofs.«107387_j24197845746072_1_alg».proof.Proof.Spec

set_option maxRecDepth 16384

noncomputable section

namespace Cert.KernelIdeal.Gen

open Idealize.ShloMosaic Idealize.ShloMosaic.ValueIdx

/-! # The attention result is the specification's attention

When the three arrays in head layout are the three projections' columns of each head and the two segment arrays are
the group ids, the tiled result at (`h`, `n`, `d`) is the specification's attention at row `n`, column `32 h + d`:
the tiles regroup into one sum over the rows, and a term kept where two ids agree and zero elsewhere is the term
times the 1/0 indicator (`x * 1 = x`, `x * 0 = 0`). -/

theorem attnOut_eq_spec (Q K Vv : S8x4096x32.Idx → EReal) (QS : S4096x1.Idx → BitVec 32) (KS : S1x4096.Idx → BitVec 32)
    (q k v : FVec Ideal ⟨2, ![4096, 256]⟩ .f32) (seg : Fin 4096 → BitVec 32)
    (hQ : ∀ (h : Fin 8) (n : Fin 4096) (e : Fin 32), Q (ix3 h n e) = q (ix2 n (Cert.Spec.col h e)))
    (hK : ∀ (h : Fin 8) (n : Fin 4096) (e : Fin 32), K (ix3 h n e) = k (ix2 n (Cert.Spec.col h e)))
    (hV : ∀ (h : Fin 8) (n : Fin 4096) (e : Fin 32), Vv (ix3 h n e) = v (ix2 n (Cert.Spec.col h e)))
    (hQS : ∀ n : Fin 4096, QS (ix2 n (0 : Fin 1)) = seg n)
    (hKS : ∀ n : Fin 4096, KS (ix2 (0 : Fin 1) n) = seg n)
    (h : Fin 8) (n : Fin 4096) (d : Fin 32) :
    attnOut Q K Vv QS KS (ix3 h n d) = Cert.Spec.attn q k v seg (ix2 n (Cert.Spec.col h d)) := by
  rw [attnOut_eq_sum_rows, Cert.Spec.attn_apply_col]
  refine Finset.sum_congr rfl fun m _ => ?_
  show headGate Q K QS KS h n m * Vv (ix3 h m d) = _
  rw [hV h m d]
  refine congrArg (· * v (ix2 m (Cert.Spec.col h d))) ?_
  have hs : headScore Q K h n m = ∑ d' : Fin 32, q (ix2 n (Cert.Spec.col h d')) * k (ix2 m (Cert.Spec.col h d')) := by
    unfold headScore
    exact Finset.sum_congr rfl fun e _ => by rw [hQ h n e, hK h m e]
  unfold headGate Cert.Spec.same
  rw [hs, hQS n, hKS m]
  by_cases he : seg n = seg m
  · rw [if_pos he, if_pos he, mul_one]; rfl
  · rw [if_neg he, if_neg he, mul_zero]

end Cert.KernelIdeal.Gen

end
-- ==== Proof.KV2.lean ====
/-
  The attention region's output at (h, n, d) is the specification's attention of the three projections and the
  segment ids, at row n and column 32·h + d: the region leaves the four key tiles' parts added from zero, which is one
  sum over all 4096 keys of the kept score of query n and key k times value k; its operands are the projections'
  heads and the segment ids; and keeping s · logistic s where the ids agree and zero elsewhere is silu s times the 1/0
  indicator of the agreement.
-/
import proofs.«107387_j24197845746072_1_alg».proof.Proof.KV1
import proofs.«107387_j24197845746072_1_alg».proof.Proof.AttnValue
import proofs.«107387_j24197845746072_1_alg».proof.Proof.AttnBridge
import proofs.«107387_j24197845746072_1_alg».proof.Proof.Boundaries

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- What the attention region leaves, entry by entry. -/
theorem attn_out (c : Dev nD) (h : Fin 8) (n : Fin 4096) (d : Fin 32) :
    (B4 (F := Ideal) attnAfter attnInv m c (Proc.devRef .tc main_v23) : S8x4096x32.Idx → EReal) (ix3 (n0 := 8) (n1 := 4096) (n2 := 32) h n d)
      = (Cert.Spec.attn (Cert.Spec.lin4096 (m ((c : Thread nD τ).loc main_arg0)) (m ((c : Thread nD τ).loc main_arg2)) (m ((c : Thread nD τ).loc main_arg3))) (Cert.Spec.lin4096 (m ((c : Thread nD τ).loc main_arg0)) (m ((c : Thread nD τ).loc main_arg4)) (m ((c : Thread nD τ).loc main_arg5))) (Cert.Spec.lin4096 (m ((c : Thread nD τ).loc main_arg0)) (m ((c : Thread nD τ).loc main_arg6)) (m ((c : Thread nD τ).loc main_arg7))) (Cert.Spec.segOf (m ((c : Thread nD τ).loc main_arg1)))) (ix2 (n0 := 4096) (n1 := 256) n (Cert.Spec.col h d)) :=
  (congrFun (B4_out (F := Ideal) m c) _).trans ((congrFun (attn_final (In3 m) c) _).trans
    (attnOut_eq_spec (qArr (In3 m) c) (kArr (In3 m) c) (vArr (In3 m) c) (qsegArr (In3 m) c) (ksegArr (In3 m) c)
      _ _ _ _ (head_q m c) (head_k m c) (head_v m c) (segcol_In3 m c) (segrow_In3 m c) h n d))

end Cert.KernelIdeal.Value

end
-- ==== Proof.KHost2.lean ====
/-
  The third stretch of host operations, read at an index over an arbitrary entering valuation: the attention's result
  [8, 4096, 32] laid back with the heads side by side in 256 columns, the first output weight transposed, and its bias
  as a row.
-/
import proofs.«107387_j24197845746072_1_alg».proof.Proof.Gen.KernelIdeal.Launch
import proofs.«107387_j24197845746072_1_alg».proof.Proof.Spec
import Idealize.ShloMosaic.Lib.Pipeline.Value
import Idealize.ShloMosaic.Lib.ValueIdx

noncomputable section

namespace Cert.KernelIdeal.HostRead

open Cert.KernelIdeal Cert.KernelIdeal.Gen Idealize.ShloMosaic Idealize.ShloMosaic.TcCoe Idealize.SL.Sem Idealize.ShloMosaic.StableHlo Idealize.ShloMosaic.ValueIdx

theorem merged_term (W : Valuation τ sig (Elt Ideal)) :
    (StableHlo.after (hostOps2 (F := Ideal)) W (Proc.devRef .tc main_v25) : S4096x256.Idx → EReal)
      = shapeCast _ (transpose S4096x8x32 [1, 0, 2] (W (Proc.devRef .tc main_v23) : S8x4096x32.Idx → EReal)
          transposes_S8x4096x32_S4096x8x32_1_0_2) shapeCasts_S4096x8x32_S4096x256 := by
  dsimp only [hostOps2]
  after_results <;> rfl

/-- Row n, column f of the merged array is head f / 32, row n, lane f % 32 of the attention's result. -/
theorem merged_apply (W : Valuation τ sig (Elt Ideal)) (n : Fin 4096) (f : Fin 256) :
    (StableHlo.after (hostOps2 (F := Ideal)) W (Proc.devRef .tc main_v25) : S4096x256.Idx → EReal) (ix2 (n0 := 4096) (n1 := 256) n f)
      = W (Proc.devRef .tc main_v23) (ix3 (n0 := 8) (n1 := 4096) (n2 := 32) (Cert.Spec.headOf f) n (Cert.Spec.laneOf f)) := by
  rw [merged_term]
  rw [shapeCast_apply _ shapeCasts_S4096x8x32_S4096x256 (ix2 (n0 := 4096) (n1 := 256) n f)
    (ix3 (n0 := 4096) (n1 := 8) (n2 := 32) n (Cert.Spec.headOf f) (Cert.Spec.laneOf f))
    (by rewrite [Shape.rowMajor_val_two, Shape.rowMajor_val_three]
        have hf := f.isLt
        show (n.val * 8 + f.val / 32) * 32 + f.val % 32 = n.val * 256 + f.val
        omega)]
  exact transpose_apply [1, 0, 2] _ transposes_S8x4096x32_S4096x8x32_1_0_2
    (ix3 (n0 := 4096) (n1 := 8) (n2 := 32) n (Cert.Spec.headOf f) (Cert.Spec.laneOf f))
    (ix3 (n0 := 8) (n1 := 4096) (n2 := 32) (Cert.Spec.headOf f) n (Cert.Spec.laneOf f)) (fun b => match b with
      | ⟨0, _⟩ => rfl
      | ⟨1, _⟩ => rfl
      | ⟨2, _⟩ => rfl)

theorem wo1_term (W : Valuation τ sig (Elt Ideal)) :
    (StableHlo.after (hostOps2 (F := Ideal)) W (Proc.devRef .tc main_v26) : S256x256.Idx → EReal)
      = transpose S256x256 [1, 0] (W (Proc.devRef .tc main_arg8) : S256x256.Idx → EReal) transposes_S256x256_S256x256_1_0 := by
  dsimp only [hostOps2]
  after_results <;> rfl

/-- The first output weight, transposed. -/
theorem wo1_apply (W : Valuation τ sig (Elt Ideal)) (k f : Fin 256) :
    (StableHlo.after (hostOps2 (F := Ideal)) W (Proc.devRef .tc main_v26) : S256x256.Idx → EReal) (ix2 (n0 := 256) (n1 := 256) k f)
      = W (Proc.devRef .tc main_arg8) (ix2 (n0 := 256) (n1 := 256) f k) := by
  rw [wo1_term]
  exact transpose_apply [1, 0] _ transposes_S256x256_S256x256_1_0 (ix2 (n0 := 256) (n1 := 256) k f) (ix2 (n0 := 256) (n1 := 256) f k)
    (fun b => match b with
      | ⟨0, _⟩ => rfl
      | ⟨1, _⟩ => rfl)

theorem bo1_term (W : Valuation τ sig (Elt Ideal)) :
    (StableHlo.after (hostOps2 (F := Ideal)) W (Proc.devRef .tc main_v27) : S1x256.Idx → EReal)
      = shapeCast _ (W (Proc.devRef .tc main_arg9) : S256.Idx → EReal) shapeCasts_S256_S1x256 := by
  dsimp only [hostOps2]
  after_results <;> rfl

/-- The first output bias, as a row. -/
theorem bo1_apply (W : Valuation τ sig (Elt Ideal)) (f : Fin 256) :
    (StableHlo.after (hostOps2 (F := Ideal)) W (Proc.devRef .tc main_v27) : S1x256.Idx → EReal) (ix2 (n0 := 1) (n1 := 256) 0 f)
      = W (Proc.devRef .tc main_arg9) (ix1 (n := 256) f) := by
  rw [bo1_term]
  exact shapeCast_apply _ shapeCasts_S256_S1x256 (ix2 (n0 := 1) (n1 := 256) 0 f) (ix1 (n := 256) f)
    (by rewrite [Shape.rowMajor_val_two, Shape.rowMajor_val_one]; show f.val = 0 * 256 + f.val; omega)

end Cert.KernelIdeal.HostRead

end
-- ==== Proof.AffineValue2.lean ====
/-
  Region 2's affine layer, read as values at the exact instance: the body's stored value at entry (p, q) is
  the sum over k of rows[p, k] · weights[k, q] plus bias[0, q]; the block a grid point writes back is that function of
  the whole arrays restricted to the point's rows; the points' blocks cover the output array; so the array the region
  leaves is the affine image of the arrays it was entered with, entry by entry.
-/
import proofs.«107387_j24197845746072_1_alg».proof.Proof.Lin2
import proofs.«107387_j24197845746072_1_alg».proof.Proof.LibPlainContract
import proofs.«107387_j24197845746072_1_alg».proof.Proof.LibLreluRows
import Idealize.ShloMosaic.Lib.Pipeline.Value
import Idealize.ShloMosaic.Lib.ValueIdx
import Idealize.ShloMosaic.PureOps.Ideal.Laws

set_option maxRecDepth 16384

noncomputable section

namespace Cert.KernelIdeal.AffineValue2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The affine image of whole arrays: entry (n, j) is the sum over k of rows[n, k] · weights[k, j], plus bias[0, j]. -/
def affine (x : S4096x256.Idx → EReal) (w : S256x256.Idx → EReal) (b : S1x256.Idx → EReal) : S4096x256.Idx → EReal :=
  fun i => (∑ k : Fin 256, x (ix2 (i 0) k) * w (ix2 k (i 1))) + b (ix2 (0 : Fin 1) (i 1))

/-- The body's stored value at entry (p, q) of a block: changes of float format are the identity and a cast to the
    same shape changes nothing, so it is the product into a zero accumulator plus the bias row laid down the rows. -/
theorem stored_apply (x : Vec Ideal S1024x256 .f32) (w : Vec Ideal S256x256 .f32) (b : Vec Ideal S1x256 .f32) (p : Fin 1024) (q : Fin 256) :
    k2_pay1 (F := Ideal) x w b (ix2 p q) = (∑ k : Fin 256, x (ix2 p k) * w (ix2 k q)) + b (ix2 (0 : Fin 1) q) := by
  unfold k2_pay1
  refine congrArg₂ (· + ·) ((Cert.LibPlainContract.matmul_plain_apply 1024 256 256 none _ _ p q).trans ?_)
    (Cert.LibLreluRows.rowDown_apply shapeCasts_S1x256_S1x256 broadcasts_S1x256_S1024x256 b p q)
  refine Finset.sum_congr rfl fun k _ => ?_
  show shapeCast S1024x256 x shapeCasts_S1024x256_S1024x256 (ix2 p k) * shapeCast S256x256 w shapeCasts_S256x256_S256x256 (ix2 k q) = _
  rw [shapeCast_self, shapeCast_self]

theorem zero_off : (![0, 0] : Fin 2 → Nat) = fun _ => 0 := funext fun a => by fin_cases a <;> rfl

/-- The printed index maps, decided over the grid: the rows' block moves with the output's along the rows; the weights
    and the bias are whole; the output's block index along the rows is the point. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

variable (V : (c : Dev nD) → (b : Ref sig .tc) → Buf (Elt Ideal) ((c : Thread nD τ).loc b))

/-- The three arrays the region reads, as arrays of extended reals. -/
abbrev rowsArr (c : Dev nD) : S4096x256.Idx → EReal := V c main_v25
abbrev weightsArr (c : Dev nD) : S256x256.Idx → EReal := V c main_v26
abbrev biasArr (c : Dev nD) : S1x256.Idx → EReal := V c main_v27

/-- What a grid point writes back is its block of the affine image of the arrays the region was entered with. -/
theorem flushed_eq (c : Dev nD) (t : Fin cfg2.N) :
    (affineDat2 V c).flushed 3 t
      = ((cfg2.win 3).blk t).view.read (Elt Ideal) (affine (rowsArr V c) (weightsArr V c) (biasArr V c)) := by
  show (cfg2.win 3).cut (grid2.coords t) ((affineDat2 V c).after 3 t) = _
  rw [affineAfter2_3]
  unfold affineOut2
  rw [View.canon_unit_zero zero_off]
  simp only [View.ld_unit_zero (S := S1024x256) zero_off, View.ld_unit_zero (S := S256x256) zero_off, View.ld_unit_zero (S := S1x256) zero_off]
  obtain ⟨e0, e1, e2, e3, e4, e5, e6, e7⟩ := index_facts t
  funext j
  obtain ⟨p, q, rfl⟩ : ∃ (p : Fin 1024) (q : Fin 256), j = ix2 p q := ⟨j 0, j 1, eq_ix2 j⟩
  refine (stored_apply _ _ _ p q).trans ?_
  show (∑ k : Fin 256, rowsArr V c (((cfg2.win 0).blk t).view.emb (ix2 p k)) * weightsArr V c (((cfg2.win 1).blk t).view.emb (ix2 k q)))
      + biasArr V c (((cfg2.win 2).blk t).view.emb (ix2 (0 : Fin 1) q))
    = (∑ k : Fin 256, rowsArr V c (ix2 ((((cfg2.win 3).blk t).view.emb (ix2 p q)) 0) k) * weightsArr V c (ix2 k ((((cfg2.win 3).blk t).view.emb (ix2 p q)) 1)))
      + biasArr V c (ix2 (0 : Fin 1) ((((cfg2.win 3).blk t).view.emb (ix2 p q)) 1))
  have hrow : ∀ k : Fin 256, ((cfg2.win 0).blk t).view.emb (ix2 p k) = ix2 ((((cfg2.win 3).blk t).view.emb (ix2 p q)) 0) k := by
    intro k; funext a; apply Fin.ext
    match a with
    | ⟨0, _⟩ => show win2_0.index t (0 : Fin 2) * 1024 + 1 * p.val = win2_3.index t (0 : Fin 2) * 1024 + 1 * p.val; omega
    | ⟨1, _⟩ => show win2_0.index t (1 : Fin 2) * 256 + 1 * k.val = k.val; omega
  have hwt : ∀ k : Fin 256, ((cfg2.win 1).blk t).view.emb (ix2 k q) = ix2 k ((((cfg2.win 3).blk t).view.emb (ix2 p q)) 1) := by
    intro k; funext a; apply Fin.ext
    match a with
    | ⟨0, _⟩ => show win2_1.index t (0 : Fin 2) * 256 + 1 * k.val = k.val; omega
    | ⟨1, _⟩ => show win2_1.index t (1 : Fin 2) * 256 + 1 * q.val = win2_3.index t (1 : Fin 2) * 256 + 1 * q.val; omega
  have hbias : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 256 + 1 * q.val = win2_3.index t (1 : Fin 2) * 256 + 1 * q.val; omega
  rw [hbias]
  refine congrArg₂ (· + ·) (Finset.sum_congr rfl fun k _ => ?_) rfl
  exact congrArg₂ (· * ·) (congrArg (rowsArr V c) (hrow k)) (congrArg (weightsArr V c) (hwt k))

/-- An index of the output array is in a point's block iff each coordinate is in the block's range on its axis. -/
theorem mem_block (t : Fin cfg2.N) (i : S4096x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v28).slice (win2_3.rect t)).set ↔ _
  rw [View.set_slice_whole, Rect.mem_set_unit]
  exact Iff.rfl

/-- Every entry of the output array is in the block of the point its row falls in. -/
theorem covered (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : cfg2.N = 4 := N_2
  refine ⟨⟨(i 0).val / 1024, by rw [hN]; omega⟩, flush2_3 _, ?_⟩
  rw [mem_block]
  obtain ⟨e0, e1, e2, e3, e4, e5, e6, e7⟩ := index_facts ⟨(i 0).val / 1024, by rw [hN]; omega⟩
  intro a
  match a with
  | ⟨0, _⟩ =>
    show win2_3.index _ (0 : Fin 2) * 1024 ≤ (i 0).val ∧ (i 0).val < win2_3.index _ (0 : Fin 2) * 1024 + 1024
    rw [e7]; show (i 0).val / 1024 * 1024 ≤ (i 0).val ∧ (i 0).val < (i 0).val / 1024 * 1024 + 1024; omega
  | ⟨1, _⟩ =>
    show win2_3.index _ (1 : Fin 2) * 256 ≤ (i 1).val ∧ (i 1).val < win2_3.index _ (1 : Fin 2) * 256 + 256
    rw [e6]; omega

/-- THE ARRAY THE REGION LEAVES: the affine image of the arrays it was entered with. -/
theorem final (c : Dev nD) :
    (affineDat2 V c).arrAt 3 cfg2.N = affine (rowsArr V c) (weightsArr V c) (biasArr V c) :=
  (affineDat2 V c).arrAt_eq_of_cover 3 _ (fun t _ => flushed_eq V c t) covered

end Cert.KernelIdeal.AffineValue2

end
-- ==== Proof.KV3.lean ====
/-
  After the attention region: the heads are moved back beside one another, so the array the third region reads is
  the attention output as a [4096, 256] array, and that region leaves its affine image under the first output layer.
-/
import proofs.«107387_j24197845746072_1_alg».proof.Proof.KV2
import proofs.«107387_j24197845746072_1_alg».proof.Proof.KHost2
import proofs.«107387_j24197845746072_1_alg».proof.Proof.AffineValue2

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- The merged heads are the attention output. -/
theorem merged (c : Dev nD) :
    (In5 (F := Ideal) attnAfter attnInv m c main_v25 : S4096x256.Idx → EReal) = (Cert.Spec.attn (Cert.Spec.lin4096 (m ((c : Thread nD τ).loc main_arg0)) (m ((c : Thread nD τ).loc main_arg2)) (m ((c : Thread nD τ).loc main_arg3))) (Cert.Spec.lin4096 (m ((c : Thread nD τ).loc main_arg0)) (m ((c : Thread nD τ).loc main_arg4)) (m ((c : Thread nD τ).loc main_arg5))) (Cert.Spec.lin4096 (m ((c : Thread nD τ).loc main_arg0)) (m ((c : Thread nD τ).loc main_arg6)) (m ((c : Thread nD τ).loc main_arg7))) (Cert.Spec.segOf (m ((c : Thread nD τ).loc main_arg1)))) := by
  funext i
  obtain ⟨n, f, rfl⟩ : ∃ (n : Fin 4096) (f : Fin 256), i = ix2 n f := ⟨i 0, i 1, eq_ix2 i⟩
  refine (HostRead.merged_apply (B4 (F := Ideal) attnAfter attnInv m c) n f).trans ?_
  rw [attn_out m c (Cert.Spec.headOf f) n (Cert.Spec.laneOf f), Cert.Spec.col_head_lane]

/-- What the third region leaves: the first output layer of the attention output. -/
theorem out1 (c : Dev nD) :
    (B6 (F := Ideal) attnAfter attnInv m c (Proc.devRef .tc main_v28) : S4096x256.Idx → EReal) = (Cert.Spec.lin4096 (Cert.Spec.attn (Cert.Spec.lin4096 (m ((c : Thread nD τ).loc main_arg0)) (m ((c : Thread nD τ).loc main_arg2)) (m ((c : Thread nD τ).loc main_arg3))) (Cert.Spec.lin4096 (m ((c : Thread nD τ).loc main_arg0)) (m ((c : Thread nD τ).loc main_arg4)) (m ((c : Thread nD τ).loc main_arg5))) (Cert.Spec.lin4096 (m ((c : Thread nD τ).loc main_arg0)) (m ((c : Thread nD τ).loc main_arg6)) (m ((c : Thread nD τ).loc main_arg7))) (Cert.Spec.segOf (m ((c : Thread nD τ).loc main_arg1)))) (m ((c : Thread nD τ).loc main_arg8)) (m ((c : Thread nD τ).loc main_arg9))) := by
  rw [B6_out, AffineValue2.final (In5 attnAfter attnInv m) c]
  funext i
  obtain ⟨n, f, rfl⟩ : ∃ (n : Fin 4096) (f : Fin 256), i = ix2 n f := ⟨i 0, i 1, eq_ix2 i⟩
  rw [Cert.Spec.lin4096_apply]
  show (∑ k : Fin 256, AffineValue2.rowsArr (In5 attnAfter attnInv m) c (ix2 n k) * AffineValue2.weightsArr (In5 attnAfter attnInv m) c (ix2 k f))
      + AffineValue2.biasArr (In5 attnAfter attnInv m) c (ix2 (0 : Fin 1) f) = _
  refine congrArg₂ (· + ·) (Finset.sum_congr rfl fun k _ => congrArg₂ (· * ·) ?_ ?_) ?_
  · exact congrFun (merged m c) _
  · exact (HostRead.wo1_apply (B4 (F := Ideal) attnAfter attnInv m c) k f).trans
      (congrFun ((B4_kept m c main_arg8 (by decide) (by decide) (by decide)).trans (B1_launch m c main_arg8 (by decide))) _)
  · exact (HostRead.bo1_apply (B4 (F := Ideal) attnAfter attnInv m c) f).trans
      (congrFun ((B4_kept m c main_arg9 (by decide) (by decide) (by decide)).trans (B1_launch m c main_arg9 (by decide))) _)

end Cert.KernelIdeal.Value

end
-- ==== Proof.KHost3.lean ====
/-
  The fourth stretch of host operations, over an arbitrary entering valuation: the group sums — the additive scatter of
  the first output layer's rows into zeros at the group ids, which is the specification's one named operation —, the
  second output weight transposed, and its bias as a row.
-/
import proofs.«107387_j24197845746072_1_alg».proof.Proof.Gen.KernelIdeal.Launch
import proofs.«107387_j24197845746072_1_alg».proof.Proof.Spec
import Idealize.ShloMosaic.Lib.Pipeline.Value
import Idealize.ShloMosaic.Lib.ValueIdx
import Idealize.ShloMosaic.PureOps.Ideal.Laws

noncomputable section

namespace Cert.KernelIdeal.HostRead

open Cert.KernelIdeal Cert.KernelIdeal.Gen Idealize.ShloMosaic Idealize.ShloMosaic.TcCoe Idealize.SL.Sem Idealize.ShloMosaic.StableHlo Idealize.ShloMosaic.ValueIdx

theorem sums_term (W : Valuation τ sig (Elt Ideal)) :
    (StableHlo.after (hostOps3 (F := Ideal)) W (Proc.devRef .tc main_v31) : S128x256.Idx → EReal)
      = Host.scatterAdd (F := Ideal) (φ := .f32) scatter_S128x256_S4096x1_S4096x256_1_0_0_1
          (broadcastInDim S128x256 ![] bcast_S_S128x256 (constant (F := Ideal) S_ .f32 0x00000000#32))
          (broadcastInDim S4096x1 ![0] bcast_S4096_S4096x1_0 (W (Proc.devRef .tc main_v1) : S4096.Idx → BitVec 32))
          (W (Proc.devRef .tc main_v28) : S4096x256.Idx → EReal) := by
  dsimp only [hostOps3]
  after_results <;> rfl

/-- The scatter's operand is the zero array. -/
theorem zeros_eq :
    (broadcastInDim S128x256 ![] bcast_S_S128x256 (constant (F := Ideal) S_ .f32 0x00000000#32) : S128x256.Idx → EReal)
      = fun _ => (0 : EReal) := by
  funext i
  rw [broadcastInDim_apply _ bcast_S_S128x256 (constant (F := Ideal) S_ .f32 0x00000000#32) i ix0 (fun a => a.elim0)]
  exact Ideal.ofBits_zero_f32

/-- The scatter's index column is the group ids. -/
theorem segcol_eq (s : S4096.Idx → BitVec 32) :
    (broadcastInDim S4096x1 ![0] bcast_S4096_S4096x1_0 s : S4096x1.Idx → BitVec 32)
      = Cert.Spec.segCol (fun n => s (ix1 (n := 4096) n)) := by
  funext j
  rw [broadcastInDim_apply _ bcast_S4096_S4096x1_0 s j (ix1 (n := 4096) (j 0)) (fun a => match a with
    | ⟨0, _⟩ => by show (j 0).val = if (4096 : Nat) = 1 then 0 else (j 0).val; rw [if_neg (by decide)])]
  rfl

/-- The programs' scatter dimension numbers are the specification's. -/
theorem dims_eq : scatter_S128x256_S4096x1_S4096x256_1_0_0_1 = Cert.Spec.segDims := rfl

/-- The group sums are the specification's, of the first output layer's result and the group ids. -/
theorem sums_eq (W : Valuation τ sig (Elt Ideal)) :
    (StableHlo.after (hostOps3 (F := Ideal)) W (Proc.devRef .tc main_v31) : S128x256.Idx → EReal)
      = Cert.Spec.segsum (W (Proc.devRef .tc main_v28)) (fun n => W (Proc.devRef .tc main_v1) (ix1 (n := 4096) n)) := by
  rw [sums_term, zeros_eq, segcol_eq, dims_eq]
  rfl

theorem wo2_term (W : Valuation τ sig (Elt Ideal)) :
    (StableHlo.after (hostOps3 (F := Ideal)) W (Proc.devRef .tc main_v32) : S256x256.Idx → EReal)
      = transpose S256x256 [1, 0] (W (Proc.devRef .tc main_arg10) : S256x256.Idx → EReal) transposes_S256x256_S256x256_1_0 := by
  dsimp only [hostOps3]
  after_results <;> rfl

/-- The second output weight, transposed. -/
theorem wo2_apply (W : Valuation τ sig (Elt Ideal)) (k f : Fin 256) :
    (StableHlo.after (hostOps3 (F := Ideal)) W (Proc.devRef .tc main_v32) : S256x256.Idx → EReal) (ix2 (n0 := 256) (n1 := 256) k f)
      = W (Proc.devRef .tc main_arg10) (ix2 (n0 := 256) (n1 := 256) f k) := by
  rw [wo2_term]
  exact transpose_apply [1, 0] _ transposes_S256x256_S256x256_1_0 (ix2 (n0 := 256) (n1 := 256) k f) (ix2 (n0 := 256) (n1 := 256) f k)
    (fun b => match b with
      | ⟨0, _⟩ => rfl
      | ⟨1, _⟩ => rfl)

theorem bo2_term (W : Valuation τ sig (Elt Ideal)) :
    (StableHlo.after (hostOps3 (F := Ideal)) W (Proc.devRef .tc main_v33) : S1x256.Idx → EReal)
      = shapeCast _ (W (Proc.devRef .tc main_arg11) : S256.Idx → EReal) shapeCasts_S256_S1x256 := by
  dsimp only [hostOps3]
  after_results <;> rfl

/-- The second output bias, as a row. -/
theorem bo2_apply (W : Valuation τ sig (Elt Ideal)) (f : Fin 256) :
    (StableHlo.after (hostOps3 (F := Ideal)) W (Proc.devRef .tc main_v33) : S1x256.Idx → EReal) (ix2 (n0 := 1) (n1 := 256) 0 f)
      = W (Proc.devRef .tc main_arg11) (ix1 (n := 256) f) := by
  rw [bo2_term]
  exact shapeCast_apply _ shapeCasts_S256_S1x256 (ix2 (n0 := 1) (n1 := 256) 0 f) (ix1 (n := 256) f)
    (by rewrite [Shape.rowMajor_val_two, Shape.rowMajor_val_one]; show f.val = 0 * 256 + f.val; omega)

end Cert.KernelIdeal.HostRead

end
-- ==== Proof.KHost4.lean ====
/-
  The last stretch of host operations, over an arbitrary entering valuation: the activation s · logistic s of the second
  output layer's result, which the host spells s · (1 / (1 + exp (-s))).
-/
import proofs.«107387_j24197845746072_1_alg».proof.Proof.Gen.KernelIdeal.Launch
import proofs.«107387_j24197845746072_1_alg».proof.Proof.Spec
import Idealize.ShloMosaic.Lib.Pipeline.Value
import Idealize.ShloMosaic.Lib.ValueIdx
import Idealize.ShloMosaic.Lib.IdealHost

noncomputable section

namespace Cert.KernelIdeal.HostRead

open Cert.KernelIdeal Cert.KernelIdeal.Gen Idealize.ShloMosaic Idealize.ShloMosaic.TcCoe Idealize.SL.Sem Idealize.ShloMosaic.StableHlo Idealize.ShloMosaic.ValueIdx

theorem act_term (W : Valuation τ sig (Elt Ideal)) :
    (StableHlo.after (hostOps4 (F := Ideal)) W (Proc.devRef .tc main_v35) : S128x256.Idx → EReal)
      = mulf (W (Proc.devRef .tc main_v34) : S128x256.Idx → EReal)
          (Host.divf (broadcastInDim S128x256 ![] bcast_S_S128x256 (constant (F := Ideal) S_ .f32 0x3F800000#32))
            (addf (broadcastInDim S128x256 ![] bcast_S_S128x256 (constant (F := Ideal) S_ .f32 0x3F800000#32))
              (Host.exp (Host.negf (W (Proc.devRef .tc main_v34) : S128x256.Idx → EReal))))) := by
  dsimp only [hostOps4]
  after_results_simp <;> rfl

/-- The broadcast constant one. -/
theorem ones_apply (i : S128x256.Idx) :
    (broadcastInDim S128x256 ![] bcast_S_S128x256 (constant (F := Ideal) S_ .f32 0x3F800000#32) : S128x256.Idx → EReal) i = 1 := by
  rw [broadcastInDim_apply _ bcast_S_S128x256 (constant (F := Ideal) S_ .f32 0x3F800000#32) i ix0 (fun a => a.elim0)]
  exact Ideal.ofBits_one_f32

/-- The result is the activation of the second output layer's result, element by element. -/
theorem act_apply (W : Valuation τ sig (Elt Ideal)) (i : S128x256.Idx) :
    (StableHlo.after (hostOps4 (F := Ideal)) W (Proc.devRef .tc main_v35) : S128x256.Idx → EReal) i
      = Cert.Spec.silu (W (Proc.devRef .tc main_v34) i) := by
  rw [act_term]
  obtain ⟨y, hy⟩ : ∃ y : S128x256.Idx → EReal, y = W (Proc.devRef .tc main_v34) := ⟨_, rfl⟩
  rw [← hy]
  show y i
      * Ideal.div ((broadcastInDim S128x256 ![] bcast_S_S128x256 (constant (F := Ideal) S_ .f32 0x3F800000#32) : S128x256.Idx → EReal) i)
          ((broadcastInDim S128x256 ![] bcast_S_S128x256 (constant (F := Ideal) S_ .f32 0x3F800000#32) : S128x256.Idx → EReal) i
            + Ideal.exp (-(y i)))
    = Cert.Spec.silu (y i)
  rw [ones_apply]
  rfl

end Cert.KernelIdeal.HostRead

end
-- ==== Proof.AffineValue3.lean ====
/-
  Region 3's affine layer, read as values at the exact instance: the body's stored value at entry (p, q) is
  the sum over k of rows[p, k] · weights[k, q] plus bias[0, q]; the block a grid point writes back is that function of
  the whole arrays restricted to the point's rows; the points' blocks cover the output array; so the array the region
  leaves is the affine image of the arrays it was entered with, entry by entry.
-/
import proofs.«107387_j24197845746072_1_alg».proof.Proof.Lin3
import proofs.«107387_j24197845746072_1_alg».proof.Proof.LibPlainContract
import proofs.«107387_j24197845746072_1_alg».proof.Proof.LibLreluRows
import Idealize.ShloMosaic.Lib.Pipeline.Value
import Idealize.ShloMosaic.Lib.ValueIdx
import Idealize.ShloMosaic.PureOps.Ideal.Laws

set_option maxRecDepth 16384

noncomputable section

namespace Cert.KernelIdeal.AffineValue3

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The affine image of whole arrays: entry (n, j) is the sum over k of rows[n, k] · weights[k, j], plus bias[0, j]. -/
def affine (x : S128x256.Idx → EReal) (w : S256x256.Idx → EReal) (b : S1x256.Idx → EReal) : S128x256.Idx → EReal :=
  fun i => (∑ k : Fin 256, x (ix2 (i 0) k) * w (ix2 k (i 1))) + b (ix2 (0 : Fin 1) (i 1))

/-- The body's stored value at entry (p, q) of a block: changes of float format are the identity and a cast to the
    same shape changes nothing, so it is the product into a zero accumulator plus the bias row laid down the rows. -/
theorem stored_apply (x : Vec Ideal S128x256 .f32) (w : Vec Ideal S256x256 .f32) (b : Vec Ideal S1x256 .f32) (p : Fin 128) (q : Fin 256) :
    k3_pay1 (F := Ideal) x w b (ix2 p q) = (∑ k : Fin 256, x (ix2 p k) * w (ix2 k q)) + b (ix2 (0 : Fin 1) q) := by
  unfold k3_pay1
  refine congrArg₂ (· + ·) ((Cert.LibPlainContract.matmul_plain_apply 128 256 256 none _ _ p q).trans ?_)
    (Cert.LibLreluRows.rowDown_apply shapeCasts_S1x256_S1x256 broadcasts_S1x256_S128x256 b p q)
  refine Finset.sum_congr rfl fun k _ => ?_
  show shapeCast S128x256 x shapeCasts_S128x256_S128x256 (ix2 p k) * shapeCast S256x256 w shapeCasts_S256x256_S256x256 (ix2 k q) = _
  rw [shapeCast_self, shapeCast_self]

theorem zero_off : (![0, 0] : Fin 2 → Nat) = fun _ => 0 := funext fun a => by fin_cases a <;> rfl

/-- The printed index maps, decided over the grid: the rows' block moves with the output's along the rows; the weights
    and the bias are whole; the output's block index along the rows is the point. -/
theorem index_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

variable (V : (c : Dev nD) → (b : Ref sig .tc) → Buf (Elt Ideal) ((c : Thread nD τ).loc b))

/-- The three arrays the region reads, as arrays of extended reals. -/
abbrev rowsArr (c : Dev nD) : S128x256.Idx → EReal := V c main_v31
abbrev weightsArr (c : Dev nD) : S256x256.Idx → EReal := V c main_v32
abbrev biasArr (c : Dev nD) : S1x256.Idx → EReal := V c main_v33

/-- What a grid point writes back is its block of the affine image of the arrays the region was entered with. -/
theorem flushed_eq (c : Dev nD) (t : Fin cfg3.N) :
    (affineDat3 V c).flushed 3 t
      = ((cfg3.win 3).blk t).view.read (Elt Ideal) (affine (rowsArr V c) (weightsArr V c) (biasArr V c)) := by
  show (cfg3.win 3).cut (grid3.coords t) ((affineDat3 V c).after 3 t) = _
  rw [affineAfter3_3]
  unfold affineOut3
  rw [View.canon_unit_zero zero_off]
  simp only [View.ld_unit_zero (S := S128x256) zero_off, View.ld_unit_zero (S := S256x256) zero_off, View.ld_unit_zero (S := S1x256) zero_off]
  obtain ⟨e0, e1, e2, e3, e4, e5, e6, e7⟩ := index_facts t
  funext j
  obtain ⟨p, q, rfl⟩ : ∃ (p : Fin 128) (q : Fin 256), j = ix2 p q := ⟨j 0, j 1, eq_ix2 j⟩
  refine (stored_apply _ _ _ p q).trans ?_
  show (∑ k : Fin 256, rowsArr V c (((cfg3.win 0).blk t).view.emb (ix2 p k)) * weightsArr V c (((cfg3.win 1).blk t).view.emb (ix2 k q)))
      + biasArr V c (((cfg3.win 2).blk t).view.emb (ix2 (0 : Fin 1) q))
    = (∑ k : Fin 256, rowsArr V c (ix2 ((((cfg3.win 3).blk t).view.emb (ix2 p q)) 0) k) * weightsArr V c (ix2 k ((((cfg3.win 3).blk t).view.emb (ix2 p q)) 1)))
      + biasArr V c (ix2 (0 : Fin 1) ((((cfg3.win 3).blk t).view.emb (ix2 p q)) 1))
  have hrow : ∀ k : Fin 256, ((cfg3.win 0).blk t).view.emb (ix2 p k) = ix2 ((((cfg3.win 3).blk t).view.emb (ix2 p q)) 0) k := by
    intro k; funext a; apply Fin.ext
    match a with
    | ⟨0, _⟩ => show win3_0.index t (0 : Fin 2) * 128 + 1 * p.val = win3_3.index t (0 : Fin 2) * 128 + 1 * p.val; omega
    | ⟨1, _⟩ => show win3_0.index t (1 : Fin 2) * 256 + 1 * k.val = k.val; omega
  have hwt : ∀ k : Fin 256, ((cfg3.win 1).blk t).view.emb (ix2 k q) = ix2 k ((((cfg3.win 3).blk t).view.emb (ix2 p q)) 1) := by
    intro k; funext a; apply Fin.ext
    match a with
    | ⟨0, _⟩ => show win3_1.index t (0 : Fin 2) * 256 + 1 * k.val = k.val; omega
    | ⟨1, _⟩ => show win3_1.index t (1 : Fin 2) * 256 + 1 * q.val = win3_3.index t (1 : Fin 2) * 256 + 1 * q.val; omega
  have hbias : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 256 + 1 * q.val = win3_3.index t (1 : Fin 2) * 256 + 1 * q.val; omega
  rw [hbias]
  refine congrArg₂ (· + ·) (Finset.sum_congr rfl fun k _ => ?_) rfl
  exact congrArg₂ (· * ·) (congrArg (rowsArr V c) (hrow k)) (congrArg (weightsArr V c) (hwt k))

/-- An index of the output array is in a point's block iff each coordinate is in the block's range on its axis. -/
theorem mem_block (t : Fin cfg3.N) (i : S128x256.Idx) :
    i ∈ ((cfg3.win 3).blk t).view.set ↔ ∀ a : Fin 2, win3_3.index t a * S128x256.size a ≤ (i a).val ∧ (i a).val < win3_3.index t a * S128x256.size a + S128x256.size a := by
  show i ∈ ((View.whole main_v34).slice (win3_3.rect t)).set ↔ _
  rw [View.set_slice_whole, Rect.mem_set_unit]
  exact Iff.rfl

/-- Every entry of the output array is in the block of the point its row falls in. -/
theorem covered (i : S128x256.Idx) : ∃ t : Fin cfg3.N, (cfg3.win 3).flush t = true ∧ i ∈ ((cfg3.win 3).blk t).view.set := by
  have hi0 : (i 0).val < 128 := (i 0).isLt
  have hi1 : (i 1).val < 256 := (i 1).isLt
  have hN : cfg3.N = 1 := N_3
  refine ⟨⟨(i 0).val / 128, by rw [hN]; omega⟩, flush3_3 _, ?_⟩
  rw [mem_block]
  obtain ⟨e0, e1, e2, e3, e4, e5, e6, e7⟩ := index_facts ⟨(i 0).val / 128, by rw [hN]; omega⟩
  intro a
  match a with
  | ⟨0, _⟩ =>
    show win3_3.index _ (0 : Fin 2) * 128 ≤ (i 0).val ∧ (i 0).val < win3_3.index _ (0 : Fin 2) * 128 + 128
    rw [e7]; show (i 0).val / 128 * 128 ≤ (i 0).val ∧ (i 0).val < (i 0).val / 128 * 128 + 128; omega
  | ⟨1, _⟩ =>
    show win3_3.index _ (1 : Fin 2) * 256 ≤ (i 1).val ∧ (i 1).val < win3_3.index _ (1 : Fin 2) * 256 + 256
    rw [e6]; omega

/-- THE ARRAY THE REGION LEAVES: the affine image of the arrays it was entered with. -/
theorem final (c : Dev nD) :
    (affineDat3 V c).arrAt 3 cfg3.N = affine (rowsArr V c) (weightsArr V c) (biasArr V c) :=
  (affineDat3 V c).arrAt_eq_of_cover 3 _ (fun t _ => flushed_eq V c t) covered

end Cert.KernelIdeal.AffineValue3

end
-- ==== Proof.KV4.lean ====
/-
  The tail. The fourth host stretch adds the rows of the first output layer's result into their groups; the last
  region applies the second output layer to the group sums; the last stretch applies silu. The result is the
  specification's, as a function of the twelve argument arrays.
-/
import proofs.«107387_j24197845746072_1_alg».proof.Proof.KV3
import proofs.«107387_j24197845746072_1_alg».proof.Proof.KHost3
import proofs.«107387_j24197845746072_1_alg».proof.Proof.KHost4
import proofs.«107387_j24197845746072_1_alg».proof.Proof.AffineValue3

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- The group sums. -/
theorem sums (c : Dev nD) :
    (In7 (F := Ideal) attnAfter attnInv m c main_v31 : S128x256.Idx → EReal) = (Cert.Spec.segsum (Cert.Spec.lin4096 (Cert.Spec.attn (Cert.Spec.lin4096 (m ((c : Thread nD τ).loc main_arg0)) (m ((c : Thread nD τ).loc main_arg2)) (m ((c : Thread nD τ).loc main_arg3))) (Cert.Spec.lin4096 (m ((c : Thread nD τ).loc main_arg0)) (m ((c : Thread nD τ).loc main_arg4)) (m ((c : Thread nD τ).loc main_arg5))) (Cert.Spec.lin4096 (m ((c : Thread nD τ).loc main_arg0)) (m ((c : Thread nD τ).loc main_arg6)) (m ((c : Thread nD τ).loc main_arg7))) (Cert.Spec.segOf (m ((c : Thread nD τ).loc main_arg1)))) (m ((c : Thread nD τ).loc main_arg8)) (m ((c : Thread nD τ).loc main_arg9))) (Cert.Spec.segOf (m ((c : Thread nD τ).loc main_arg1)))) := by
  refine (HostRead.sums_eq (B6 (F := Ideal) attnAfter attnInv m c)).trans ?_
  rw [out1 m c]
  refine congrArg (Cert.Spec.segsum _) (funext fun n => ?_)
  exact (congrFun (B6_kept m c main_v1 (by decide) (by decide) (by decide) (by decide) (by decide)) _).trans (seg_B1 m c n)

/-- What the last region leaves: the second output layer of the group sums. -/
theorem out3 (c : Dev nD) :
    (B8 (F := Ideal) attnAfter attnInv m c (Proc.devRef .tc main_v34) : S128x256.Idx → EReal) = Cert.Spec.lin128 (Cert.Spec.segsum (Cert.Spec.lin4096 (Cert.Spec.attn (Cert.Spec.lin4096 (m ((c : Thread nD τ).loc main_arg0)) (m ((c : Thread nD τ).loc main_arg2)) (m ((c : Thread nD τ).loc main_arg3))) (Cert.Spec.lin4096 (m ((c : Thread nD τ).loc main_arg0)) (m ((c : Thread nD τ).loc main_arg4)) (m ((c : Thread nD τ).loc main_arg5))) (Cert.Spec.lin4096 (m ((c : Thread nD τ).loc main_arg0)) (m ((c : Thread nD τ).loc main_arg6)) (m ((c : Thread nD τ).loc main_arg7))) (Cert.Spec.segOf (m ((c : Thread nD τ).loc main_arg1)))) (m ((c : Thread nD τ).loc main_arg8)) (m ((c : Thread nD τ).loc main_arg9))) (Cert.Spec.segOf (m ((c : Thread nD τ).loc main_arg1)))) (m ((c : Thread nD τ).loc main_arg10)) (m ((c : Thread nD τ).loc main_arg11)) := by
  rw [B8_out, AffineValue3.final (In7 attnAfter attnInv m) c]
  funext i
  obtain ⟨g, f, rfl⟩ : ∃ (g : Fin 128) (f : Fin 256), i = ix2 g f := ⟨i 0, i 1, eq_ix2 i⟩
  rw [Cert.Spec.lin128_apply]
  show (∑ k : Fin 256, AffineValue3.rowsArr (In7 attnAfter attnInv m) c (ix2 g k) * AffineValue3.weightsArr (In7 attnAfter attnInv m) c (ix2 k f))
      + AffineValue3.biasArr (In7 attnAfter attnInv m) c (ix2 (0 : Fin 1) f) = _
  refine congrArg₂ (· + ·) (Finset.sum_congr rfl fun k _ => congrArg₂ (· * ·) ?_ ?_) ?_
  · exact congrFun (sums m c) _
  · exact (HostRead.wo2_apply (B6 (F := Ideal) attnAfter attnInv m c) k f).trans
      (congrFun ((B6_kept m c main_arg10 (by decide) (by decide) (by decide) (by decide) (by decide)).trans (B1_launch m c main_arg10 (by decide))) _)
  · exact (HostRead.bo2_apply (B6 (F := Ideal) attnAfter attnInv m c) f).trans
      (congrFun ((B6_kept m c main_arg11 (by decide) (by decide) (by decide) (by decide) (by decide)).trans (B1_launch m c main_arg11 (by decide))) _)

/-- THE RESULT the kernel's program ends with, as the specification's function of its twelve argument arrays. -/
theorem result_eq (c : Dev nD) :
    (final m c (Proc.devRef .tc main_v35) : S128x256.Idx → EReal)
      = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  rw [Cert.Spec.result_apply]
  refine (HostRead.act_apply (B8 (F := Ideal) attnAfter attnInv m c) i).trans ?_
  exact congrArg Cert.Spec.silu (congrFun (out3 m c) i)

end Cert.KernelIdeal.Value

end
-- ==== Proof.KernelRun.lean ====
/-
  The kernel program's run, read against the specification: every weakly fair execution terminates without a fault
  with the result array at the specification of the twelve argument arrays as launched, and the arguments unchanged.
-/
import proofs.«107387_j24197845746072_1_alg».proof.Proof.KV4

set_option maxRecDepth 16384

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

theorem run_value (ρ : Dev nD → PrngReg) :
    θ_run (defs (F := Ideal)) (onTc (τ := τ) (main (F := Ideal))) ⟨m, fun _ => 0, ρ⟩ fun r => ∀ c : Dev nD,
      r.2.mem ((c.tc : Thread nD τ).loc main_v35)
        = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨(h c _ (mem_uc main_v35 (by decide))).trans (result_eq m c),
     (h c _ (mem_uc main_arg0 (by decide))).trans (B9_main_arg0 attnAfter attnInv m c),
     (h c _ (mem_uc main_arg1 (by decide))).trans (B9_bypass attnAfter attnInv m c main_arg1 (by decide) (by decide) (by decide) (by decide) (by decide) (by decide) (by decide) (by decide) (by decide)),
     (h c _ (mem_uc main_arg2 (by decide))).trans (B9_bypass attnAfter attnInv m c main_arg2 (by decide) (by decide) (by decide) (by decide) (by decide) (by decide) (by decide) (by decide) (by decide)),
     (h c _ (mem_uc main_arg3 (by decide))).trans (B9_bypass attnAfter attnInv m c main_arg3 (by decide) (by decide) (by decide) (by decide) (by decide) (by decide) (by decide) (by decide) (by decide)),
     (h c _ (mem_uc main_arg4 (by decide))).trans (B9_bypass attnAfter attnInv m c main_arg4 (by decide) (by decide) (by decide) (by decide) (by decide) (by decide) (by decide) (by decide) (by decide)),
     (h c _ (mem_uc main_arg5 (by decide))).trans (B9_bypass attnAfter attnInv m c main_arg5 (by decide) (by decide) (by decide) (by decide) (by decide) (by decide) (by decide) (by decide) (by decide)),
     (h c _ (mem_uc main_arg6 (by decide))).trans (B9_bypass attnAfter attnInv m c main_arg6 (by decide) (by decide) (by decide) (by decide) (by decide) (by decide) (by decide) (by decide) (by decide)),
     (h c _ (mem_uc main_arg7 (by decide))).trans (B9_bypass attnAfter attnInv m c main_arg7 (by decide) (by decide) (by decide) (by decide) (by decide) (by decide) (by decide) (by decide) (by decide)),
     (h c _ (mem_uc main_arg8 (by decide))).trans (B9_bypass attnAfter attnInv m c main_arg8 (by decide) (by decide) (by decide) (by decide) (by decide) (by decide) (by decide) (by decide) (by decide)),
     (h c _ (mem_uc main_arg9 (by decide))).trans (B9_bypass attnAfter attnInv m c main_arg9 (by decide) (by decide) (by decide) (by decide) (by decide) (by decide) (by decide) (by decide) (by decide)),
     (h c _ (mem_uc main_arg10 (by decide))).trans (B9_bypass attnAfter attnInv m c main_arg10 (by decide) (by decide) (by decide) (by decide) (by decide) (by decide) (by decide) (by decide) (by decide)),
     (h c _ (mem_uc main_arg11 (by decide))).trans (B9_bypass attnAfter attnInv m c main_arg11 (by decide) (by decide) (by decide) (by decide) (by decide) (by decide) (by decide) (by decide) (by decide))⟩)
    (run_all m ρ)

end Cert.KernelIdeal.Value

end
-- ==== Proof.RefLin.lean ====
/-
  The reference's five affine layers are the specification's: each is a `dot_general` against a transposed weight
  plus a twice-broadcast bias, which at an index (n, f) is (Σ k, x(n,k) · W(f,k)) + b f.
-/
import proofs.«107387_j24197845746072_1_alg».proof.Proof.Gen.ReferenceIdeal.Read
import proofs.«107387_j24197845746072_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's float arrays, by shape. -/
abbrev A4096 : Type := (⟨S4096x256, .f32⟩ : BufTy).Contents (Elt Ideal)
abbrev A128 : Type := (⟨S128x256, .f32⟩ : BufTy).Contents (Elt Ideal)
abbrev AW : Type := (⟨S256x256, .f32⟩ : BufTy).Contents (Elt Ideal)
abbrev AB : Type := (⟨S256, .f32⟩ : BufTy).Contents (Elt Ideal)
/-- The reference's `[2, 4096]` index array. -/
abbrev AI : Type := (⟨S2x4096, .i32⟩ : BufTy).Contents (Elt Ideal)

theorem lidx_proj_q (i : S4096x256.Idx) (k : Fin 256) : lidx_main_v1 i k = ix2 (n0 := 4096) (n1 := 256) (i 0) k :=
  funext fun a => match a with | ⟨0, _⟩ => rfl | ⟨1, _⟩ => rfl

theorem ridx_proj_q (i : S4096x256.Idx) (k : Fin 256) : idx_main_v0 (ridx_main_v1 i k) = ix2 (n0 := 256) (n1 := 256) (i 1) k :=
  funext fun a => match a with | ⟨0, _⟩ => rfl | ⟨1, _⟩ => rfl

theorem bidx_proj_q (i : S4096x256.Idx) : idx_main_v2 (idx_main_v3 i) = ix1 (n := 256) (i 1) :=
  funext fun a => match a with | ⟨0, _⟩ => rfl

/-- The query projection. -/
theorem proj_q (x0 : A4096) (x2 : AW) (x3 : AB) :
    val_main_v4 (F := Ideal) x0 x2 x3 = Cert.Spec.lin4096 x0 x2 x3 := by
  funext i
  rw [val_main_v4_apply, val_main_v1_apply, val_main_v3_apply, val_main_v2_apply, bidx_proj_q]
  simp only [val_main_v0_apply, lidx_proj_q, ridx_proj_q, Ideal.addf_def]
  rfl

theorem lidx_proj_k (i : S4096x256.Idx) (k : Fin 256) : lidx_main_v8 i k = ix2 (n0 := 4096) (n1 := 256) (i 0) k :=
  funext fun a => match a with | ⟨0, _⟩ => rfl | ⟨1, _⟩ => rfl

theorem ridx_proj_k (i : S4096x256.Idx) (k : Fin 256) : idx_main_v7 (ridx_main_v8 i k) = ix2 (n0 := 256) (n1 := 256) (i 1) k :=
  funext fun a => match a with | ⟨0, _⟩ => rfl | ⟨1, _⟩ => rfl

theorem bidx_proj_k (i : S4096x256.Idx) : idx_main_v9 (idx_main_v10 i) = ix1 (n := 256) (i 1) :=
  funext fun a => match a with | ⟨0, _⟩ => rfl

/-- The key projection. -/
theorem proj_k (x0 : A4096) (x4 : AW) (x5 : AB) :
    val_main_v11 (F := Ideal) x0 x4 x5 = Cert.Spec.lin4096 x0 x4 x5 := by
  funext i
  rw [val_main_v11_apply, val_main_v8_apply, val_main_v10_apply, val_main_v9_apply, bidx_proj_k]
  simp only [val_main_v7_apply, lidx_proj_k, ridx_proj_k, Ideal.addf_def]
  rfl

theorem lidx_proj_v (i : S4096x256.Idx) (k : Fin 256) : lidx_main_v15 i k = ix2 (n0 := 4096) (n1 := 256) (i 0) k :=
  funext fun a => match a with | ⟨0, _⟩ => rfl | ⟨1, _⟩ => rfl

theorem ridx_proj_v (i : S4096x256.Idx) (k : Fin 256) : idx_main_v14 (ridx_main_v15 i k) = ix2 (n0 := 256) (n1 := 256) (i 1) k :=
  funext fun a => match a with | ⟨0, _⟩ => rfl | ⟨1, _⟩ => rfl

theorem bidx_proj_v (i : S4096x256.Idx) : idx_main_v16 (idx_main_v17 i) = ix1 (n := 256) (i 1) :=
  funext fun a => match a with | ⟨0, _⟩ => rfl

/-- The value projection. -/
theorem proj_v (x0 : A4096) (x6 : AW) (x7 : AB) :
    val_main_v18 (F := Ideal) x0 x6 x7 = Cert.Spec.lin4096 x0 x6 x7 := by
  funext i
  rw [val_main_v18_apply, val_main_v15_apply, val_main_v17_apply, val_main_v16_apply, bidx_proj_v]
  simp only [val_main_v14_apply, lidx_proj_v, ridx_proj_v, Ideal.addf_def]
  rfl

theorem lidx_out1 (i : S4096x256.Idx) (k : Fin 256) : lidx_main_v38 i k = ix2 (n0 := 4096) (n1 := 256) (i 0) k :=
  funext fun a => match a with | ⟨0, _⟩ => rfl | ⟨1, _⟩ => rfl

theorem ridx_out1 (i : S4096x256.Idx) (k : Fin 256) : idx_main_v37 (ridx_main_v38 i k) = ix2 (n0 := 256) (n1 := 256) (i 1) k :=
  funext fun a => match a with | ⟨0, _⟩ => rfl | ⟨1, _⟩ => rfl

theorem bidx_out1 (i : S4096x256.Idx) : idx_main_v39 (idx_main_v40 i) = ix1 (n := 256) (i 1) :=
  funext fun a => match a with | ⟨0, _⟩ => rfl

/-- The first output layer, of the attention's result. -/
theorem out1 (x0 : A4096) (x1 : AI) (x2 : AW) (x3 : AB) (x4 : AW) (x5 : AB) (x6 : AW) (x7 : AB) (x8 : AW) (x9 : AB) :
    val_main_v41 (F := Ideal) x0 x1 x2 x3 x4 x5 x6 x7 x8 x9 = Cert.Spec.lin4096 (val_main_v36 (F := Ideal) x0 x1 x2 x3 x4 x5 x6 x7) x8 x9 := by
  funext i
  rw [val_main_v41_apply, val_main_v38_apply, val_main_v40_apply, val_main_v39_apply, bidx_out1]
  simp only [val_main_v37_apply, lidx_out1, ridx_out1, Ideal.addf_def]
  rfl

theorem lidx_out3 (i : S128x256.Idx) (k : Fin 256) : lidx_main_v46 i k = ix2 (n0 := 128) (n1 := 256) (i 0) k :=
  funext fun a => match a with | ⟨0, _⟩ => rfl | ⟨1, _⟩ => rfl

theorem ridx_out3 (i : S128x256.Idx) (k : Fin 256) : idx_main_v45 (ridx_main_v46 i k) = ix2 (n0 := 256) (n1 := 256) (i 1) k :=
  funext fun a => match a with | ⟨0, _⟩ => rfl | ⟨1, _⟩ => rfl

theorem bidx_out3 (i : S128x256.Idx) : idx_main_v47 (idx_main_v48 i) = ix1 (n := 256) (i 1) :=
  funext fun a => match a with | ⟨0, _⟩ => rfl

/-- The second output layer, of the group sums. -/
theorem out3 (x0 : A4096) (x1 : AI) (x2 : AW) (x3 : AB) (x4 : AW) (x5 : AB) (x6 : AW) (x7 : AB) (x8 : AW) (x9 : AB) (x10 : AW) (x11 : AB) :
    val_main_v49 (F := Ideal) x0 x1 x2 x3 x4 x5 x6 x7 x8 x9 x10 x11 = Cert.Spec.lin128 (val_main_v44 (F := Ideal) x0 x1 x2 x3 x4 x5 x6 x7 x8 x9) x10 x11 := by
  funext i
  rw [val_main_v49_apply, val_main_v46_apply, val_main_v48_apply, val_main_v47_apply, bidx_out3]
  simp only [val_main_v45_apply, lidx_out3, ridx_out3, Ideal.addf_def]
  rfl

end Cert.ReferenceIdeal.RefValue

end
-- ==== Proof.RefMask.lean ====
/-
  The reference's mask: the group ids compared pairwise and converted to a float factor, 1 where rows n and m are of
  one group and 0 elsewhere, the same for every head.
-/
import proofs.«107387_j24197845746072_1_alg».proof.Proof.Gen.ReferenceIdeal.Read
import proofs.«107387_j24197845746072_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- An equality test of two words, converted to a float, is 1 or 0. -/
theorem uitofp_cmpi_eq (a b : BitVec 32) :
    FloatOps.uitofp (F := Ideal) .f32 (IntOp.cmpi .eq a b) = Cert.Spec.same a b := by
  unfold Cert.Spec.same IntOp.cmpi
  by_cases h : a = b
  · subst h; simp [FloatOps.uitofp]
  · have hb : (a == b) = false := by simpa using h
    simp [FloatOps.uitofp, hb, h]

theorem seg_idx_row (i : S8x4096x4096.Idx) :
    idx_main_v23 (idx_main_v24 (idx_main_v25 (idx_main_v27 (idx_main_v31 (idx_main_v32 i)))))
      = ix2 (n0 := 2) (n1 := 4096) 1 (i 1) :=
  funext fun a => match a with
    | ⟨0, _⟩ => rfl
    | ⟨1, _⟩ => Fin.ext (by
        have h := (i 1).isLt
        show (i 1).val % 4096 = (i 1).val
        exact Nat.mod_eq_of_lt h)

theorem seg_idx_col (i : S8x4096x4096.Idx) :
    idx_main_v23 (idx_main_v24 (idx_main_v26 (idx_main_v28 (idx_main_v31 (idx_main_v32 i)))))
      = ix2 (n0 := 2) (n1 := 4096) 1 (i 2) :=
  funext fun a => match a with
    | ⟨0, _⟩ => rfl
    | ⟨1, _⟩ => Fin.ext (by
        have h := (i 2).isLt
        show (i 2).val % 4096 = (i 2).val
        exact Nat.mod_eq_of_lt h)

/-- The mask at (h, n, m). -/
theorem mask_apply (x1 : (⟨S2x4096, .i32⟩ : BufTy).Contents (Elt Ideal)) (i : S8x4096x4096.Idx) :
    val_main_v32 (F := Ideal) x1 i = Cert.Spec.same (Cert.Spec.segOf x1 (i 1)) (Cert.Spec.segOf x1 (i 2)) := by
  rw [val_main_v32_apply, val_main_v31_apply, val_main_v30_apply, val_main_v29_apply, val_main_v27_apply,
    val_main_v28_apply, val_main_v25_apply, val_main_v26_apply, val_main_v24_apply, val_main_v24_apply,
    val_main_v23_apply, val_main_v23_apply, seg_idx_row, seg_idx_col, uitofp_cmpi_eq]
  rfl

end Cert.ReferenceIdeal.RefValue

end
-- ==== Proof.RefScore.lean ====
/-
  The reference's scores and their activation: at (h, n, m) the score is the inner product over the 32 lanes of head h
  of the query row n and the key row m, and the activation is s · logistic s, which the host spells
  s · (1 / (1 + exp (-s))).
-/
import proofs.«107387_j24197845746072_1_alg».proof.Proof.Gen.ReferenceIdeal.Read
import proofs.«107387_j24197845746072_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

theorem q_idx (i : S8x4096x4096.Idx) (k : Fin 32) :
    idx_main_v5 (idx_main_v6 (lidx_main_v21 i k)) = ix2 (n0 := 4096) (n1 := 256) (i 1) (Cert.Spec.col (i 0) k) :=
  funext fun a => match a with
    | ⟨0, _⟩ => Fin.ext (by
        have h0 : (i 0).val < 8 := (i 0).isLt
        have hk := k.isLt
        show (((i 1).val * 8 + (i 0).val) * 32 + k.val) / 256 = (i 1).val
        omega)
    | ⟨1, _⟩ => Fin.ext (by
        have h0 : (i 0).val < 8 := (i 0).isLt
        have hk := k.isLt
        show (((i 1).val * 8 + (i 0).val) * 32 + k.val) % 256 = 32 * (i 0).val + k.val
        omega)

theorem k_idx (i : S8x4096x4096.Idx) (k : Fin 32) :
    idx_main_v12 (idx_main_v13 (ridx_main_v21 i k)) = ix2 (n0 := 4096) (n1 := 256) (i 2) (Cert.Spec.col (i 0) k) :=
  funext fun a => match a with
    | ⟨0, _⟩ => Fin.ext (by
        have h0 : (i 0).val < 8 := (i 0).isLt
        have hk := k.isLt
        show (((i 2).val * 8 + (i 0).val) * 32 + k.val) / 256 = (i 2).val
        omega)
    | ⟨1, _⟩ => Fin.ext (by
        have h0 : (i 0).val < 8 := (i 0).isLt
        have hk := k.isLt
        show (((i 2).val * 8 + (i 0).val) * 32 + k.val) % 256 = 32 * (i 0).val + k.val
        omega)

/-- The score at (h, n, m), over the projections. -/
theorem score_apply (x0 : (⟨S4096x256, .f32⟩ : BufTy).Contents (Elt Ideal)) (x2 : (⟨S256x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) (i : S8x4096x4096.Idx) :
    val_main_v21 (F := Ideal) x0 x2 x3 x4 x5 i
      = ∑ d' : Fin 32, val_main_v4 (F := Ideal) x0 x2 x3 (ix2 (n0 := 4096) (n1 := 256) (i 1) (Cert.Spec.col (i 0) d'))
          * val_main_v11 (F := Ideal) x0 x4 x5 (ix2 (n0 := 4096) (n1 := 256) (i 2) (Cert.Spec.col (i 0) d')) := by
  rw [val_main_v21_apply]
  refine Finset.sum_congr rfl fun k _ => ?_
  rw [val_main_v6_apply, val_main_v5_apply, val_main_v13_apply, val_main_v12_apply, q_idx, k_idx]

/-- The activated score at (h, n, m). -/
theorem act_apply (x0 : (⟨S4096x256, .f32⟩ : BufTy).Contents (Elt Ideal)) (x2 : (⟨S256x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) (i : S8x4096x4096.Idx) :
    val_main_v22 (F := Ideal) x0 x2 x3 x4 x5 i = Cert.Spec.silu (val_main_v21 (F := Ideal) x0 x2 x3 x4 x5 i) := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

end Cert.ReferenceIdeal.RefValue

end
-- ==== Proof.RefAttn.lean ====
/-
  The reference's attention is the specification's: at (n, f), with h = f / 32 and d = f % 32, the sum over the rows m of
  (silu (score h n m) · mask n m) · v(m, 32h + d), the heads laid side by side in the 256 columns.
-/
import proofs.«107387_j24197845746072_1_alg».proof.Proof.RefMask
import proofs.«107387_j24197845746072_1_alg».proof.Proof.RefScore

noncomputable section

namespace Cert.ReferenceIdeal.RefValue

open Cert.ReferenceIdeal Cert.ReferenceIdeal.Gen Cert.ReferenceIdeal.Read Idealize.ShloMosaic Idealize.ShloMosaic.ValueIdx

theorem v_idx (i : S4096x256.Idx) (m : Fin 4096) :
    idx_main_v19 (idx_main_v20 (ridx_main_v34 (idx_main_v35 (idx_main_v36 i)) m))
      = ix2 (n0 := 4096) (n1 := 256) m (Cert.Spec.col (Cert.Spec.headOf (i 1)) (Cert.Spec.laneOf (i 1))) :=
  funext fun a => match a with
    | ⟨0, _⟩ => Fin.ext (by
        have h1 : (i 1).val < 256 := (i 1).isLt
        have hm := m.isLt
        show ((m.val * 8 + ((i 0).val * 256 + (i 1).val) / 32 % 8) * 32 + ((i 0).val * 256 + (i 1).val) % 32) / 256 = m.val
        omega)
    | ⟨1, _⟩ => Fin.ext (by
        have h1 : (i 1).val < 256 := (i 1).isLt
        have hm := m.isLt
        show ((m.val * 8 + ((i 0).val * 256 + (i 1).val) / 32 % 8) * 32 + ((i 0).val * 256 + (i 1).val) % 32) % 256
          = 32 * ((i 1).val / 32) + (i 1).val % 32
        omega)

theorem attn_eq (x0 : (⟨S4096x256, .f32⟩ : BufTy).Contents (Elt Ideal)) (x1 : (⟨S2x4096, .i32⟩ : BufTy).Contents (Elt Ideal))
    (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v36 (F := Ideal) x0 x1 x2 x3 x4 x5 x6 x7
      = Cert.Spec.attn (val_main_v4 (F := Ideal) x0 x2 x3) (val_main_v11 (F := Ideal) x0 x4 x5)
          (val_main_v18 (F := Ideal) x0 x6 x7) (Cert.Spec.segOf x1) := by
  funext i
  rw [val_main_v36_apply, val_main_v35_apply, val_main_v34_apply]
  unfold Cert.Spec.attn
  refine Finset.sum_congr rfl fun m _ => ?_
  have hJ0 : (lidx_main_v34 (idx_main_v35 (idx_main_v36 i)) m) 0 = Cert.Spec.headOf (i 1) := Fin.ext (by
    have h1 : (i 1).val < 256 := (i 1).isLt
    show ((i 0).val * 256 + (i 1).val) / 32 % 8 = (i 1).val / 32
    omega)
  have hJ1 : (lidx_main_v34 (idx_main_v35 (idx_main_v36 i)) m) 1 = i 0 := Fin.ext (by
    have h1 : (i 1).val < 256 := (i 1).isLt
    show ((i 0).val * 256 + (i 1).val) / 256 = (i 0).val
    omega)
  have hJ2 : (lidx_main_v34 (idx_main_v35 (idx_main_v36 i)) m) 2 = m := rfl
  rw [val_main_v33_apply, act_apply, score_apply, mask_apply, val_main_v20_apply, val_main_v19_apply, v_idx,
    hJ0, hJ1, hJ2]
  rfl

end Cert.ReferenceIdeal.RefValue

end
-- ==== Proof.RefIsSpec.lean ====
/-
  The reference's result, as a function of its twelve argument arrays at the ideal instance, is the specification:
  three projections, attention within groups, an output layer, the sum over each group (the additive scatter both
  programs apply, never opened), a second output layer, and s · logistic s.
-/
import proofs.«107387_j24197845746072_1_alg».proof.Proof.RefLin
import proofs.«107387_j24197845746072_1_alg».proof.Proof.RefAttn
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The scatter's operand is the zero array. -/
theorem zeros_eq : val_main_v42 (F := Ideal) = fun _ => (0 : EReal) := by
  funext i
  rw [val_main_v42_apply, val_main_cst_apply]
  exact Ideal.ofBits_zero_f32

theorem segcol_idx (j : S4096x1.Idx) :
    idx_main_v23 (idx_main_v24 (idx_main_v43 j)) = ix2 (n0 := 2) (n1 := 4096) 1 (j 0) :=
  funext fun a => match a with
    | ⟨0, _⟩ => rfl
    | ⟨1, _⟩ => Fin.ext (by
        have h := (j 0).isLt
        show (j 0).val % 4096 = (j 0).val
        exact Nat.mod_eq_of_lt h)

/-- The scatter's index column is the group ids. -/
theorem segcol_eq (x1 : (⟨S2x4096, .i32⟩ : BufTy).Contents (Elt Ideal)) :
    val_main_v43 (F := Ideal) x1 = Cert.Spec.segCol (Cert.Spec.segOf x1) := by
  funext j
  rw [val_main_v43_apply, val_main_v24_apply, val_main_v23_apply, segcol_idx]
  rfl

/-- The programs' scatter dimension numbers are the specification's. -/
theorem dims_eq : scatter_S128x256_S4096x1_S4096x256_1_0_0_1 = Cert.Spec.segDims := rfl

/-- The group sums: the shared scatter, applied to the first output layer's result. -/
theorem segsum_eq (x0 : (⟨S4096x256, .f32⟩ : BufTy).Contents (Elt Ideal)) (x1 : (⟨S2x4096, .i32⟩ : BufTy).Contents (Elt Ideal))
    (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v44 (F := Ideal) x0 x1 x2 x3 x4 x5 x6 x7 x8 x9
      = Cert.Spec.segsum (val_main_v41 (F := Ideal) x0 x1 x2 x3 x4 x5 x6 x7 x8 x9) (Cert.Spec.segOf x1) := by
  unfold val_main_v44 Cert.Spec.segsum
  rw [zeros_eq, segcol_eq, dims_eq]

/-- The reference's result is the specification of its arguments. -/
theorem result_eq (x0 : (⟨S4096x256, .f32⟩ : BufTy).Contents (Elt Ideal)) (x1 : (⟨S2x4096, .i32⟩ : BufTy).Contents (Elt Ideal))
    (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) :
    val_main_v50 (F := Ideal) x0 x1 x2 x3 x4 x5 x6 x7 x8 x9 x10 x11
      = Cert.Spec.result x0 x1 x2 x3 x4 x5 x6 x7 x8 x9 x10 x11 := by
  funext i
  rw [val_main_v50_apply, val_main_call1_v5_apply, val_main_call1_v4_apply, val_main_call1_cst_0_apply,
    val_main_call1_v3_apply, val_main_call1_v2_apply, val_main_call1_cst_apply, val_main_call1_v1_apply,
    val_main_call1_v0_apply, out3, segsum_eq, out1, attn_eq, proj_q, proj_k, proj_v]
  simp only [Ideal.mulf_def, Ideal.hostDivf_def, Ideal.addf_def, Ideal.hostUnary_exp_def, Ideal.hostNegf_def,
    Ideal.negf_def, Ideal.ofBits_def, Ideal.ofBits_one_f32]
  rfl

end Cert.ReferenceIdeal.RefValue

end
-- ==== Proof.RefRun.lean ====
/-
  The reference's run, read against the specification: every weakly fair execution ends with the result array at the
  specification of the twelve argument arrays as they stood at the start, and the arguments unchanged.
-/
import proofs.«107387_j24197845746072_1_alg».proof.Proof.RefIsSpec

noncomputable section

namespace Cert.ReferenceIdeal.RefValue

open Idealize.ShloMosaic.TcCoe Idealize.SL.Sem Cert.ReferenceIdeal Cert.ReferenceIdeal.Gen Cert.ReferenceIdeal.Read Idealize.ShloMosaic Idealize.ShloMosaic.ValueIdx

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50)
        = Cert.Spec.result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c).1.trans ((val_main_v50_eq m c).trans (result_eq _ _ _ _ _ _ _ _ _ _ _ _)), (h c).2⟩)
    (Cert.ReferenceIdeal.Value.run (F := Ideal) m ρ)

end Cert.ReferenceIdeal.RefValue

end
-- ==== Proof.lean ====
/-
  The certificate of a masked, unnormalised attention layer between affine layers, against its plain reference.

  The program: the rows x pass through three affine layers at once (queries, keys, values: one tiled product with the
  three transposed weight matrices side by side); per head, the score of a query and a key is their inner product,
  silu of the score is kept where the two atoms carry the same segment id and dropped elsewhere, and the kept
  activations weight the values — accumulated over four tiles of 1024 keys in a buffer that lives across grid points;
  the heads are merged, pass through an affine layer, are summed into their 128 groups, pass through another affine
  layer and silu. The reference computes the same with whole-array operations, the mask as a 1/0 factor.

  At the exact instance both are one function of the twelve argument arrays (the specification): a change of float
  format is the identity, the matrix unit's product into a zero accumulator is the plain sum, tpu.logistic is
  1 / (1 + e⁻ˣ) as the host spells it, keeping a term or zero is multiplying by the indicator (x·1 = x, x·0 = 0), and
  the four tiles' sums regroup one sum over 4096 keys (a commutative monoid: no finiteness is used anywhere).

  The frames: @main is five stretches of host operations around four kernel regions; each region is a segment over
  the thread state "every unscoped buffer at known contents", the three affine regions with a plain invariant, the
  attention region with an invariant carrying its accumulator; no item writes an argument. The same text proves the
  word-level program's frame and the idealized one's. The ideal pass rewrote nothing, so the idealization claim is
  trivial.
-/
import proofs.«107387_j24197845746072_1_alg».proof.Defs
import proofs.«107387_j24197845746072_1_alg».proof.Proof.Gen.Kernel
import proofs.«107387_j24197845746072_1_alg».proof.Proof.Gen.KernelIdeal
import proofs.«107387_j24197845746072_1_alg».proof.Proof.Gen.ReferenceIdeal
import proofs.«107387_j24197845746072_1_alg».proof.Proof.Gen.Pre_finite_inputs
import proofs.«107387_j24197845746072_1_alg».proof.Proof.KRunAll
import proofs.«107387_j24197845746072_1_alg».proof.Proof.KernelRun
import proofs.«107387_j24197845746072_1_alg».proof.Proof.RefRun

noncomputable section

namespace Cert.Proof

open Idealize.ShloMosaic Idealize.ShloMosaic.TcCoe Idealize.SL.Sem

/-- The word-level program runs to the end and leaves its arguments as launched. -/
theorem frame_kernel : Cert.frame_Kernel := fun m ρ _ => Cert.Kernel.Run.frame (F := Bits) m ρ

/-- So does the idealized program. -/
theorem frame_ideal : Cert.frame_KernelIdeal := fun m ρ _ => Cert.KernelIdeal.Run.frame (F := Ideal) m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the specification of those arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Value.run_value m ρ, ?_⟩
  refine (θ_run Cert.ReferenceIdeal.defs _ _).mono (fun r h c => ⟨(h c).1.trans ?_, (h c).2⟩) (Cert.ReferenceIdeal.RefValue.run_spec m' ρ')
  obtain ⟨e0, e1, e2, e3, e4, e5, e6, e7, e8, e9, e10, e11⟩ := hagree c
  rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
